-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x4096 : Shape := ⟨2, ![5000, 4096]⟩
abbrev S4096x80 : Shape := ⟨2, ![4096, 80]⟩
abbrev S80 : Shape := ⟨1, ![80]⟩
abbrev S_ : Shape := ⟨0, ![]⟩

class Facts : Prop where
  bcast_S_S5000x4096 : S_.BroadcastsInDim S5000x4096 (![] : Fin 0 → Fin S5000x4096.rank)
  reducesTo_S5000x4096_S_d0_1 : S5000x4096.ReducesTo [0, 1] S_
  h_S_ : 0 < S_.numel
  bcast_S_S4096x80 : S_.BroadcastsInDim S4096x80 (![] : Fin 0 → Fin S4096x80.rank)
  reducesTo_S4096x80_S_d0_1 : S4096x80.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S4096x80 1) : IVec S_ 1 :=
  let main_c_5 : IVec S_ 1 := constantI S_ 1 1#1
  let main_v17 : IVec S_ 1 := (fun x v => Host.reduce IntOp.andi x v reducesTo_S4096x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S5000x4096 .f32) (main_arg1 : FVec F S4096x80 .f32) (main_arg2 : FVec F S80 .f32) (main_arg3 : FVec F S4096x80 .f32) (main_arg4 : FVec F S80 .f32) : IVec S_ 1 :=
  let main_v0 : FVec F S5000x4096 .f32 := Host.absf main_arg0
  let main_cst : FVec F S_ .f32 := constant S_ .f32 0x7F800000#32
  let main_v1 : FVec F S5000x4096 .f32 := broadcastInDim S5000x4096 ![] bcast_S_S5000x4096 main_cst
  let main_v2 : IVec S5000x4096 1 := cmpf .olt main_v0 main_v1
  let main_c : IVec S_ 1 := constantI S_ 1 1#1
  let main_v3 : IVec S_ 1 := (fun x v => Host.reduce IntOp.andi x v reducesTo_S5000x4096_S_d0_1 h_S_) main_v2 main_c
  let main_v4 : FVec F S4096x80 .f32 := Host.absf main_arg1
  let main_cst_0 : FVec F S_ .f32 := constant S_ .f32 0x7F800000#32
  let main_v5 : FVec F S4096x80 .f32 := broadcastInDim S4096x80 ![] bcast_S_S4096x80 main_cst_0
  let main_v6 : IVec S4096x80 1 := cmpf .olt main_v4 main_v5
  let main_c_1 : IVec S_ 1 := constantI S_ 1 1#1
  let main_v7 : IVec S_ 1 := (fun x v => Host.reduce IntOp.andi x v reducesTo_S4096x80_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S4096x80 .f32 := Host.absf main_arg3
  let main_cst_4 : FVec F S_ .f32 := constant S_ .f32 0x7F800000#32
  let main_v15 : FVec F S4096x80 .f32 := broadcastInDim S4096x80 ![] bcast_S_S4096x80 main_cst_4
  let main_v16 : IVec S4096x80 1 := cmpf .olt main_v14 main_v15
  fn_part1 (F := F) main_arg4 main_v13 main_v16
-- ==== Kernel.lean ====
abbrev S5000x4096 : Shape := ⟨2, ![5000, 4096]⟩
abbrev S4096x80 : Shape := ⟨2, ![4096, 80]⟩
abbrev S80 : Shape := ⟨1, ![80]⟩
abbrev S4096x160 : Shape := ⟨2, ![4096, 160]⟩
abbrev S160 : Shape := ⟨1, ![160]⟩
abbrev S1x160 : Shape := ⟨2, ![1, 160]⟩
abbrev S5000x80 : Shape := ⟨2, ![5000, 80]⟩
abbrev S1000x4096 : Shape := ⟨2, ![1000, 4096]⟩
abbrev S1x80 : Shape := ⟨2, ![1, 80]⟩
abbrev S1000x160 : Shape := ⟨2, ![1000, 160]⟩
abbrev S1000x80 : Shape := ⟨2, ![1000, 80]⟩
abbrev S1000 : Shape := ⟨1, ![1000]⟩
abbrev S1000x1 : Shape := ⟨2, ![1000, 1]⟩

abbrev nBuf : Space → Nat
  | .hbm => 10
  | .vmem => 8
  | .smem => 0
  | _ => 0

abbrev bufTy : (tb : Table) → Fin (tcTables nBuf tb) → BufTy
  | .hbm, ⟨0, _⟩ => ⟨S5000x4096, .f32⟩
  | .hbm, ⟨1, _⟩ => ⟨S4096x80, .f32⟩
  | .hbm, ⟨2, _⟩ => ⟨S80, .f32⟩
  | .hbm, ⟨3, _⟩ => ⟨S4096x80, .f32⟩
  | .hbm, ⟨4, _⟩ => ⟨S80, .f32⟩
  | .hbm, ⟨5, _⟩ => ⟨S4096x160, .f32⟩
  | .hbm, ⟨6, _⟩ => ⟨S4096x160, .bf16⟩
  | .hbm, ⟨7, _⟩ => ⟨S160, .f32⟩
  | .hbm, ⟨8, _⟩ => ⟨S1x160, .f32⟩
  | .hbm, ⟨9, _⟩ => ⟨S5000x80, .f32⟩
  | .local _ .vmem, ⟨0, _⟩ => ⟨S1000x4096, .f32⟩
  | .local _ .vmem, ⟨1, _⟩ => ⟨S1000x4096, .f32⟩
  | .local _ .vmem, ⟨2, _⟩ => ⟨S4096x160, .bf16⟩
  | .local _ .vmem, ⟨3, _⟩ => ⟨S1x160, .f32⟩
  | .local _ .vmem, ⟨4, _⟩ => ⟨S5000x80, .f32⟩
  | .local _ .vmem, ⟨5, _⟩ => ⟨S5000x80, .f32⟩
  | .local _ .vmem, ⟨6, _⟩ => ⟨S1x80, .f32⟩
  | .local _ .vmem, ⟨7, _⟩ => ⟨S1x80, .f32⟩
  | _, _ => ⟨S5000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let c1000_i32 : BitVec 32 := 1000#32
  let v19 : BitVec 32 := Scalar.muli arg0 c1000_i32
  let v20 : Index := Scalar.indexCast v19
  let c0_7 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5000x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  concatenates_S4096x80_S4096x80_S4096x160_d1 : Shape.Concatenates [S4096x80, S4096x80] S4096x160 1
  bitsLt_bf16_f32 : FTy.bits .bf16 < FTy.bits .f32
  concatenates_S80_S80_S160_d0 : Shape.Concatenates [S80, S80] S160 0
  shapeCasts_S160_S1x160 : S160.ShapeCasts S1x160
  inb_S1000x4096_S1000x4096_0_0 : ∀ a, (![0, 0] : Fin 2 → Nat) a + S1000x4096.size a ≤ S1000x4096.size a
  h_S1000x4096 : 0 < S1000x4096.numel
  inb_S4096x160_S4096x160_0_0 : ∀ a, (![0, 0] : Fin 2 → Nat) a + S4096x160.size a ≤ S4096x160.size a
  h_S4096x160 : 0 < S4096x160.numel
  shapeCasts_S4096x160_S4096x160 : S4096x160.ShapeCasts S4096x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S1000x160 : S1x160.Broadcasts S1000x160
  slices_S1000x160_o0_0_S1000x80 : S1000x160.Slices ![0, 0] S1000x80
  slices_S1000x160_o0_80_S1000x80 : S1000x160.Slices ![0, 80] S1000x80
  reduces_S1000x80_S1000 : S1000x80.Reduces [1] S1000
  shapeCasts_S1000_S1000x1 : S1000.ShapeCasts S1000x1
  broadcasts_S1000x1_S1000x80 : S1000x1.Broadcasts S1000x80
  h_S1000x80 : 0 < S1000x80.numel
  shapeCasts_S1000x80_S1000x80 : S1000x80.ShapeCasts S1000x80
  reduces_S1000x80_S80 : S1000x80.Reduces [0] S80
  shapeCasts_S80_S1x80 : S80.ShapeCasts S1x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S1000x80 : S1x80.Broadcasts S1000x80
  inb_S5000x80_S5000x80_0_0 : ∀ a, (![0, 0] : Fin 2 → Nat) a + S5000x80.size a ≤ S5000x80.size a
  h_S5000x80 : 0 < S5000x80.numel
  shapeCasts_S5000x80_S5000x80 : S5000x80.ShapeCasts S5000x80
  broadcasts_S1x80_S5000x80 : S1x80.Broadcasts S5000x80
  dot_S1000x4096_S4096x160_S1000x160_1_0_0_1_n_n_wf : DotDims.WF S1000x4096 S4096x160 S1000x160 [1] [0] [0] [1] [] []
  hrank0 : 0 < grid0.rank
  k0_off1_inb : ∀ i : grid0.Coords, ∀ a, (k0_off1 i) a + S1000x80.size a ≤ S5000x80.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4096.size a ≤ S5000x4096.size a
  hwx0_0 : ∀ i : grid0.Coords, EltTy.bits .f32 = 32 ∨ (Rect.block (s := S5000x4096) S1000x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x160.size a ≤ S4096x160.size a
  hwx0_1 : ∀ i : grid0.Coords, EltTy.bits .bf16 = 32 ∨ (Rect.block (s := S4096x160) S4096x160.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5000x80.size a ≤ S5000x80.size a
  hwx0_3 : ∀ i : grid0.Coords, EltTy.bits .f32 = 32 ∨ (Rect.block (s := S5000x80) S5000x80.size (cc0_transform_3 i) (hinb0_3 i)).WholeWords (EltTy.packing .f32)

variable [Facts₀]

def dot_S1000x4096_S4096x160_S1000x160_1_0_0_1_n_n : DotDims S1000x4096 S4096x160 S1000x160 where
  lhsContracting := [1]
  rhsContracting := [0]
  lhsNonContracting := [0]
  rhsNonContracting := [1]
  lhsBatch := []
  rhsBatch := []
  wf := dot_S1000x4096_S4096x160_S1000x160_1_0_0_1_n_n_wf

abbrev win0_0 : Pipeline.Window sig grid0 :=
  Pipeline.Window.ofSpec (Memref.whole main_arg0) S1000x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x80.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S5000x4096 : Shape := ⟨2, ![5000, 4096]⟩
abbrev S4096x80 : Shape := ⟨2, ![4096, 80]⟩
abbrev S80 : Shape := ⟨1, ![80]⟩
abbrev S5000x80 : Shape := ⟨2, ![5000, 80]⟩
abbrev S1x80 : Shape := ⟨2, ![1, 80]⟩
abbrev S_ : Shape := ⟨0, ![]⟩
abbrev S5000 : Shape := ⟨1, ![5000]⟩
abbrev S5000x1 : Shape := ⟨2, ![5000, 1]⟩

abbrev nBuf : Space → Nat
  | .hbm => 42
  | .vmem => 0
  | .smem => 0
  | _ => 0

abbrev bufTy : (tb : Table) → Fin (tcTables nBuf tb) → BufTy
  | .hbm, ⟨0, _⟩ => ⟨S5000x4096, .f32⟩
  | .hbm, ⟨1, _⟩ => ⟨S4096x80, .f32⟩
  | .hbm, ⟨2, _⟩ => ⟨S80, .f32⟩
  | .hbm, ⟨3, _⟩ => ⟨S4096x80, .f32⟩
  | .hbm, ⟨4, _⟩ => ⟨S80, .f32⟩
  | .hbm, ⟨5, _⟩ => ⟨S5000x80, .f32⟩
  | .hbm, ⟨6, _⟩ => ⟨S1x80, .f32⟩
  | .hbm, ⟨7, _⟩ => ⟨S5000x80, .f32⟩
  | .hbm, ⟨8, _⟩ => ⟨S5000x80, .f32⟩
  | .hbm, ⟨9, _⟩ => ⟨S5000x80, .f32⟩
  | .hbm, ⟨10, _⟩ => ⟨S1x80, .f32⟩
  | .hbm, ⟨11, _⟩ => ⟨S5000x80, .f32⟩
  | .hbm, ⟨12, _⟩ => ⟨S5000x80, .f32⟩
  | .hbm, ⟨13, _⟩ => ⟨S_, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S5000x1, .f32⟩
  | .hbm, ⟨19, _⟩ => ⟨S5000x80, .f32⟩
  | .hbm, ⟨20, _⟩ => ⟨S5000x80, .f32⟩
  | .hbm, ⟨21, _⟩ => ⟨S5000x80, .f32⟩
  | .hbm, ⟨22, _⟩ => ⟨S_, .f32⟩
  | .hbm, ⟨23, _⟩ => ⟨S5000, .f32⟩
  | .hbm, ⟨24, _⟩ => ⟨S5000x1, .f32⟩
  | .hbm, ⟨25, _⟩ => ⟨S5000x80, .f32⟩
  | .hbm, ⟨26, _⟩ => ⟨S5000x80, .f32⟩
  | .hbm, ⟨27, _⟩ => ⟨S_, .f32⟩
  | .hbm, ⟨28, _⟩ => ⟨S80, .f32⟩
  | .hbm, ⟨29, _⟩ => ⟨S_, .f32⟩
  | .hbm, ⟨30, _⟩ => ⟨S80, .f32⟩
  | .hbm, ⟨31, _⟩ => ⟨S80, .f32⟩
  | .hbm, ⟨32, _⟩ => ⟨S1x80, .f32⟩
  | .hbm, ⟨33, _⟩ => ⟨S5000x80, .f32⟩
  | .hbm, ⟨34, _⟩ => ⟨S5000x80, .f32⟩
  | .hbm, ⟨35, _⟩ => ⟨S5000x80, .f32⟩
  | .hbm, ⟨36, _⟩ => ⟨S_, .f32⟩
  | .hbm, ⟨37, _⟩ => ⟨S80, .f32⟩
  | .hbm, ⟨38, _⟩ => ⟨S1x80, .f32⟩
  | .hbm, ⟨39, _⟩ => ⟨S5000x80, .f32⟩
  | .hbm, ⟨40, _⟩ => ⟨S5000x80, .f32⟩
  | .hbm, ⟨41, _⟩ => ⟨S5000x80, .f32⟩
  | _, _ => ⟨S5000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S80_S1x80_1 : S80.BroadcastsInDim S1x80 (![1] : Fin 1 → Fin S1x80.rank)
  bcast_S1x80_S5000x80_0_1 : S1x80.BroadcastsInDim S5000x80 (![0, 1] : Fin 2 → Fin S5000x80.rank)
  reducesTo_S5000x80_S5000_d1 : S5000x80.ReducesTo [1] S5000
  h_S_ : 0 < S_.numel
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x80_0_1 : S5000x1.BroadcastsInDim S5000x80 (![0, 1] : Fin 2 → Fin S5000x80.rank)
  reducesTo_S5000x80_S80_d0 : S5000x80.ReducesTo [0] S80
  bcast_S_S80 : S_.BroadcastsInDim S80 (![] : Fin 0 → Fin S80.rank)
  dot_S5000x4096_S4096x80_S5000x80_1_0_0_1_n_n_wf : DotDims.WF S5000x4096 S4096x80 S5000x80 [1] [0] [0] [1] [] []

variable [Facts₀]

def dot_S5000x4096_S4096x80_S5000x80_1_0_0_1_n_n : DotDims S5000x4096 S4096x80 S5000x80 where
  lhsContracting := [1]
  rhsContracting := [0]
  lhsNonContracting := [0]
  rhsNonContracting := [1]
  lhsBatch := []
  rhsBatch := []
  wf := dot_S5000x4096_S4096x80_S5000x80_1_0_0_1_n_n_wf

class Facts : Prop extends Facts₀ where

variable [Facts]
-- ==== Proof.BitsCases.lean ====
/-
  The grid has five points; point j handles rows [1000 j, 1000 j + 1000) of the 5000 proposals. The body branches
  three times on the point's coordinate: at the first point it starts the running column maximum and the running
  column sum of exponentials, at every later point it updates them, and at the last point it also rescales the
  whole output. Here: the three branch conditions as propositions of the coordinate, decided over the grid in
  closed form, the memrefs the body is called with at a point, and the region invariant as three scratch
  buffers owned at some contents.
-/
import proofs.«125353_g55722905698378_cont_9to1_m_658_15_alg».proof.Proof.Gen.Kernel.Frame
import proofs.«125353_g55722905698378_cont_9to1_m_658_15_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch is taken: the point's coordinate is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch is taken: the coordinate is positive. -/
abbrev isLater (i : grid0.Coords) : Prop := (Scalar.cmpi .ne (Scalar.extui (Scalar.cmpi .sgt (BitVec.ofNat 32 (i 0).val) 0#32)) 0#32) = 1#1
theorem isLater_iff : ∀ t : Fin cfg0.N, isLater (grid0.coords t) ↔ 1 ≤ t.val :=
  (by decide +kernel : ∀ t : Fin grid0.N, isLater (grid0.coords t) ↔ 1 ≤ t.val)

/-- The third branch is taken: the coordinate is 4, the last point. -/
abbrev isLast (i : grid0.Coords) : Prop := (Scalar.cmpi .ne (Scalar.extui (Scalar.cmpi .eq (BitVec.ofNat 32 (i 0).val) 4#32)) 0#32) = 1#1
theorem isLast_iff : ∀ t : Fin cfg0.N, isLast (grid0.coords t) ↔ t.val = 4 :=
  (by decide +kernel : ∀ t : Fin grid0.N, isLast (grid0.coords t) ↔ t.val = 4)

/-- The rows the point writes start at 1000 times its coordinate. -/
theorem rowOff_eq : ∀ t : Fin cfg0.N, k0_off1 (grid0.coords t) = ![1000 * t.val, 0] :=
  (by decide +kernel : ∀ t : Fin grid0.N, k0_off1 (grid0.coords t) = ![1000 * t.val, 0])

/-- Each window's current staging memref at point `t`, and that it is a whole buffer. -/
abbrev mX (t : Fin cfg0.N) : Memref sig .tc .vmem S1000x4096 .f32 := win0_0.stage (cfg0.slots t 0)
abbrev hX (t : Fin cfg0.N) : (mX t).IsWhole := hstage0_0 ((cfg0.slots t 0).cast nbuf0_0)
abbrev mW (t : Fin cfg0.N) : Memref sig .tc .vmem S4096x160 .bf16 := win0_1.stage (cfg0.slots t 1)
abbrev hW (t : Fin cfg0.N) : (mW t).IsWhole := hstage0_1 ((cfg0.slots t 1).cast nbuf0_1)
abbrev mB (t : Fin cfg0.N) : Memref sig .tc .vmem S1x160 .f32 := win0_2.stage (cfg0.slots t 2)
abbrev hB (t : Fin cfg0.N) : (mB t).IsWhole := hstage0_2 ((cfg0.slots t 2).cast nbuf0_2)
abbrev mO (t : Fin cfg0.N) : Memref sig .tc .vmem S5000x80 .f32 := win0_3.stage (cfg0.slots t 3)
abbrev hO (t : Fin cfg0.N) : (mO t).IsWhole := hstage0_3 ((cfg0.slots t 3).cast nbuf0_3)
/-- The three scratch operands: the stashed detection logits, the running column maximum, the running column sum. -/
abbrev scL : Memref sig .tc .vmem S5000x80 .f32 := Memref.whole cc0_scratch0
abbrev scM : Memref sig .tc .vmem S1x80 .f32 := Memref.whole cc0_scratch1
abbrev scS : Memref sig .tc .vmem S1x80 .f32 := Memref.whole cc0_scratch2

/-- The class invariant is the three scratch buffers owned at some contents, and the generator register. -/
theorem PhiA_eq (c : Dev nD) :
    (Pipeline.ΦA spec0 c : sProp 𝕄)
      = iprop(iprop((∃ d, owns (c : Thread nD τ) scL fullShare d) ∗ (∃ d, owns (c : Thread nD τ) scM fullShare d) ∗ (∃ d, owns (c : Thread nD τ) scS fullShare d)) ∗ (∃ r, prngReg c r)) := by
  unfold Pipeline.ΦA; rw [scopedRest0_eq]; simp only [scL, scM, scS, owns_whole]; try rfl

end Cert.Kernel.Hand

end
-- ==== Proof.BitsRunFirst.lean ====
/-
  The body at the first grid point (first branch taken, the other two not): it stores the block's class softmax into rows [0, 1000) of the output's staging buffer, the block's detection logits into the same rows of the logits scratch, and starts the running column maximum and the running column sum of exponentials from this block alone.
-/
import proofs.«125353_g55722905698378_cont_9to1_m_658_15_alg».proof.Proof.BitsCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body run on whole memrefs in this case. The inputs are held at `x0 x1 x2`, the output's staging buffer
    at `o` and the logits scratch at `l` (whatever the points before left there), the running maximum and sum at anything; the run ends with the
    inputs as they were and each of the four written buffers at its prior contents overwritten by a list of
    stores (rectangle and payload, last store first) that the run finds. -/
noncomputable def runFirst (c : Dev nD) (i : grid0.Coords) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole) (hc0 : isFirst i) (hc1 : ¬isLater i) (hc2 : ¬isLast i)
    (x0 : Vec F S1000x4096 .f32) (x1 : Vec F S4096x160 .bf16) (x2 : Vec F S1x160 .f32) (o : Vec F S5000x80 .f32) (l : Vec F S5000x80 .f32) :
    Σ' (LO : List (View.Piece (Elt F) S5000x80 .f32)) (LL : List (View.Piece (Elt F) S5000x80 .f32)) (LM : List (View.Piece (Elt F) S1x80 .f32)), { LS : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare l ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread l) LL)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E (cc0__wsddn_kernel i arg1 harg1 arg2 harg2 arg3 harg3 arg4 harg4 arg5 harg5 arg6 harg6 arg7 harg7) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fl, %hfl, HL⟩, ⟨%dm, %fm, -, HM⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hfl
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [HL]; · iexact HL
    isplitl [HM]; · iexists _; iexact HM
    iexists _; iexact HS

end Cert.Kernel.Hand

end
-- ==== Proof.BitsRunLater.lean ====
/-
  The body at a grid point after the first and before the last (second branch taken, the other two not): it stores the block's class softmax and detection logits into the block's rows of the output's staging buffer and of the logits scratch, replaces the running column maximum by its maximum with the block's column maximum, and rescales the running column sum to the new maximum before adding the block's exponentials.
-/
import proofs.«125353_g55722905698378_cont_9to1_m_658_15_alg».proof.Proof.BitsRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body run on whole memrefs in this case. The inputs are held at `x0 x1 x2`, the output's staging buffer
    at `o` and the logits scratch at `l` (whatever the points before left there), the running maximum and sum at `mx`, `sm`; the run ends with the
    inputs as they were and each of the four written buffers at its prior contents overwritten by a list of
    stores (rectangle and payload, last store first) that the run finds. -/
noncomputable def runLater (c : Dev nD) (i : grid0.Coords) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole) (hc0 : ¬isFirst i) (hc1 : isLater i) (hc2 : ¬isLast i)
    (x0 : Vec F S1000x4096 .f32) (x1 : Vec F S4096x160 .bf16) (x2 : Vec F S1x160 .f32) (o : Vec F S5000x80 .f32) (l : Vec F S5000x80 .f32) (mx : Vec F S1x80 .f32) (sm : Vec F S1x80 .f32) :
    Σ' (LO : List (View.Piece (Elt F) S5000x80 .f32)) (LL : List (View.Piece (Elt F) S5000x80 .f32)) (LM : List (View.Piece (Elt F) S1x80 .f32)), { LS : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare l ∗ owns (c : Thread nD τ) arg6 fullShare mx ∗ owns (c : Thread nD τ) arg7 fullShare sm
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread l) LL)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E (cc0__wsddn_kernel i arg1 harg1 arg2 harg2 arg3 harg3 arg4 harg4 arg5 harg5 arg6 harg6 arg7 harg7) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fl, %hfl, HL⟩, ⟨%fm, %hfm, HM⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hfl; obtain rfl := harg6.eq_unread hfm; obtain rfl := harg7.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [HL]; · iexact HL
    isplitl [HM]; · iexists _; iexact HM
    iexists _; iexact HS

end Cert.Kernel.Hand

end
-- ==== Proof.BitsRunLast.lean ====
/-
  The body at the last grid point (second and third branches taken): as at a later point, and then every entry of the output's staging buffer is multiplied by the exponential of the stashed detection logit less the final column maximum, divided by the final column sum.
-/
import proofs.«125353_g55722905698378_cont_9to1_m_658_15_alg».proof.Proof.BitsRunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body run on whole memrefs in this case. The inputs are held at `x0 x1 x2`, the output's staging buffer
    at `o` and the logits scratch at `l` (whatever the points before left there), the running maximum and sum at `mx`, `sm`; the run ends with the
    inputs as they were and each of the four written buffers at its prior contents overwritten by a list of
    stores (rectangle and payload, last store first) that the run finds. -/
noncomputable def runLast (c : Dev nD) (i : grid0.Coords) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole) (hc0 : ¬isFirst i) (hc1 : isLater i) (hc2 : isLast i)
    (x0 : Vec F S1000x4096 .f32) (x1 : Vec F S4096x160 .bf16) (x2 : Vec F S1x160 .f32) (o : Vec F S5000x80 .f32) (l : Vec F S5000x80 .f32) (mx : Vec F S1x80 .f32) (sm : Vec F S1x80 .f32) :
    Σ' (LO : List (View.Piece (Elt F) S5000x80 .f32)) (LL : List (View.Piece (Elt F) S5000x80 .f32)) (LM : List (View.Piece (Elt F) S1x80 .f32)), { LS : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare l ∗ owns (c : Thread nD τ) arg6 fullShare mx ∗ owns (c : Thread nD τ) arg7 fullShare sm
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread l) LL)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E (cc0__wsddn_kernel i arg1 harg1 arg2 harg2 arg3 harg3 arg4 harg4 arg5 harg5 arg6 harg6 arg7 harg7) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fl, %hfl, HL⟩, ⟨%fm, %hfm, HM⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hfl; obtain rfl := harg6.eq_unread hfm; obtain rfl := harg7.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [HL]; · iexact HL
    isplitl [HM]; · iexists _; iexact HM
    iexists _; iexact HS

end Cert.Kernel.Hand

end
-- ==== Proof.BitsPieces.lean ====
/-
  What each case of the body leaves in the four buffers it writes, in closed form. A store of a block of 1000 rows
  at row offset o leaves the earlier contents outside rows [o, o + 1000) and the block inside (`putRows`); a store of
  a whole buffer leaves its payload. So after a point the output's staging buffer and the logits scratch are their
  earlier contents with the point's rows replaced by the block's class softmax and by the block's detection logits,
  the running maximum and sum are the payloads of their update, and at the last point the output is then the final
  normalisation applied to the buffers just described.
-/
import proofs.«125353_g55722905698378_cont_9to1_m_658_15_alg».proof.Proof.BitsRunLast
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero2 : (![0, 0] : Fin 2 → ℕ) = fun _ => 0 := by
  funext a; match a with | ⟨0, _⟩ => rfl | ⟨1, _⟩ => rfl

/-- Rows [o, o + 1000) of a 5000-row array replaced by a block of 1000 rows. -/
def putRows (Y : Vec F S5000x80 .f32) (o : ℕ) (B : S1000x80.Idx → Elt F .f32) : Vec F S5000x80 .f32 := fun y =>
  if h : o ≤ (y (0 : Fin 2)).val ∧ (y (0 : Fin 2)).val < o + 1000 then
    B (Rect.unitLocal (s := S5000x80) (off := ![o, 0]) (size := S1000x80.size) y (Rect.unit_rows_mem y rfl rfl h))
  else Y y

/-- One store of a block of rows over whole-buffer contents `Y`. -/
theorem read_rows_store (arg : Memref sig .tc .vmem S5000x80 .f32) (harg : arg.IsWhole) (Y : Vec F S5000x80 .f32)
    (t : Fin cfg0.N) (B : S1000x80.Idx → Elt F .f32) :
    arg.view.read (Elt F) (arg.view.writes (Elt F) (harg.unread Y)
      [⟨Rect.unit (s := S5000x80) (k0_off1 (grid0.coords t)) S1000x80.size (k0_off1_inb (grid0.coords t)), B⟩])
      = putRows Y (1000 * t.val) B := by
  funext y
  rw [View.read_writes_cons_rows (W := 1000) arg.view _ (k0_off1_inb (grid0.coords t)) B [] y (rowOff_eq t) rfl rfl]
  unfold putRows
  simp only [View.writes_nil, harg.read_unread]

/-- A load through the whole rectangle reads the buffer's contents, whatever expression they are given by. -/
theorem load_whole_of {S : Shape} {e : EltTy} (arg : Memref sig .tc .vmem S e) (f : arg.view.ty.Contents (Elt F)) (X : S.Idx → Elt F e)
    (hX : arg.view.read (Elt F) f = X)
    {off : Fin S.rank → ℕ} (hoff : off = fun _ => 0) (inb : ∀ a, off a + S.size a ≤ S.size a) :
    View.readAt (Elt F) arg.view (Rect.unit (s := S) off S.size inb).toLoadRect f = X := by
  rw [View.readAt_eq_ld, hX, View.ld_unit_zero hoff]

/-- A store through the whole rectangle, made last, leaves its payload whatever the earlier stores were. -/
theorem read_whole_store_cons {S : Shape} {e : EltTy} (arg : Memref sig .tc .vmem S e) (f : arg.view.ty.Contents (Elt F))
    {off : Fin S.rank → ℕ} (hoff : off = fun _ => 0) (inb : ∀ a, off a + S.size a ≤ S.size a) (w : S.Idx → Elt F e)
    (L : List (View.Piece (Elt F) S e)) :
    arg.view.read (Elt F) (arg.view.writes (Elt F) f (⟨Rect.unit (s := S) off S.size inb, w⟩ :: L)) = w := by
  subst hoff
  funext y
  have h := View.read_writes_cons_emb arg.view f (Rect.whole S) w L y
  rwa [Rect.emb_whole_apply] at h

/-- A load through the whole rectangle of a whole buffer held at `X` reads `X`. -/
theorem load_whole {S : Shape} {e : EltTy} (arg : Memref sig .tc .vmem S e) (harg : arg.IsWhole) (X : S.Idx → Elt F e)
    {off : Fin S.rank → ℕ} (hoff : off = fun _ => 0) (inb : ∀ a, off a + S.size a ≤ S.size a) :
    View.readAt (Elt F) arg.view (Rect.unit (s := S) off S.size inb).toLoadRect (harg.unread X) = X := by
  rw [View.readAt_eq_ld, harg.read_unread, View.ld_unit_zero hoff]

/-- One store through the whole rectangle leaves its payload, whatever the buffer held. -/
theorem read_whole_store {S : Shape} {e : EltTy} (arg : Memref sig .tc .vmem S e) (f : arg.view.ty.Contents (Elt F))
    {off : Fin S.rank → ℕ} (hoff : off = fun _ => 0) (inb : ∀ a, off a + S.size a ≤ S.size a) (w : S.Idx → Elt F e) :
    arg.view.read (Elt F) (arg.view.writes (Elt F) f [⟨Rect.unit (s := S) off S.size inb, w⟩]) = w := by
  subst hoff
  exact View.read_writes_whole arg.view f w

section First
variable (c : Dev nD) (t : Fin cfg0.N) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole)
  (hc0 : isFirst (grid0.coords t)) (hc1 : ¬isLater (grid0.coords t)) (hc2 : ¬isLast (grid0.coords t))
  (x0 : Vec F S1000x4096 .f32) (x1 : Vec F S4096x160 .bf16) (x2 : Vec F S1x160 .f32) (o l : Vec F S5000x80 .f32)

theorem first_out :
    arg4.view.read (Elt F) (arg4.view.writes (Elt F) (harg4.unread o) (runFirst c (grid0.coords t) arg1 harg1 arg2 harg2 arg3 harg3 arg4 harg4 arg5 harg5 arg6 harg6 arg7 harg7 hc0 hc1 hc2 x0 x1 x2 o l).1)
      = putRows o (1000 * t.val) (k0_pay4 x0 x1 x2) := by
  unfold runFirst; dsimp only
  rw [load_whole arg1 harg1 x0 zero2, load_whole arg2 harg2 x1 zero2, load_whole arg3 harg3 x2 zero2]
  exact read_rows_store arg4 harg4 o t _

theorem first_logits :
    arg5.view.read (Elt F) (arg5.view.writes (Elt F) (harg5.unread l) (runFirst c (grid0.coords t) arg1 harg1 arg2 harg2 arg3 harg3 arg4 harg4 arg5 harg5 arg6 harg6 arg7 harg7 hc0 hc1 hc2 x0 x1 x2 o l).2.1)
      = putRows l (1000 * t.val) (k0_pay5 x0 x1 x2) := by
  unfold runFirst; dsimp only
  rw [load_whole arg1 harg1 x0 zero2, load_whole arg2 harg2 x1 zero2, load_whole arg3 harg3 x2 zero2]
  exact read_rows_store arg5 harg5 l t _

theorem first_max (f : arg6.view.ty.Contents (Elt F)) :
    arg6.view.read (Elt F) (arg6.view.writes (Elt F) f (runFirst c (grid0.coords t) arg1 harg1 arg2 harg2 arg3 harg3 arg4 harg4 arg5 harg5 arg6 harg6 arg7 harg7 hc0 hc1 hc2 x0 x1 x2 o l).2.2.1)
      = k0_pay7 x0 x1 x2 := by
  unfold runFirst; dsimp only
  rw [load_whole arg1 harg1 x0 zero2, load_whole arg2 harg2 x1 zero2, load_whole arg3 harg3 x2 zero2]
  exact read_whole_store arg6 f zero2 _ _

theorem first_sum (f : arg7.view.ty.Contents (Elt F)) :
    arg7.view.read (Elt F) (arg7.view.writes (Elt F) f (runFirst c (grid0.coords t) arg1 harg1 arg2 harg2 arg3 harg3 arg4 harg4 arg5 harg5 arg6 harg6 arg7 harg7 hc0 hc1 hc2 x0 x1 x2 o l).2.2.2.1)
      = k0_pay8 x0 x1 x2 := by
  unfold runFirst; dsimp only
  rw [load_whole arg1 harg1 x0 zero2, load_whole arg2 harg2 x1 zero2, load_whole arg3 harg3 x2 zero2]
  exact read_whole_store arg7 f zero2 _ _
end First

section Later
variable (c : Dev nD) (t : Fin cfg0.N) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole)
  (hc0 : ¬isFirst (grid0.coords t)) (hc1 : isLater (grid0.coords t)) (hc2 : ¬isLast (grid0.coords t))
  (x0 : Vec F S1000x4096 .f32) (x1 : Vec F S4096x160 .bf16) (x2 : Vec F S1x160 .f32) (o l : Vec F S5000x80 .f32) (mx sm : Vec F S1x80 .f32)

theorem later_out :
    arg4.view.read (Elt F) (arg4.view.writes (Elt F) (harg4.unread o) (runLater c (grid0.coords t) arg1 harg1 arg2 harg2 arg3 harg3 arg4 harg4 arg5 harg5 arg6 harg6 arg7 harg7 hc0 hc1 hc2 x0 x1 x2 o l mx sm).1)
      = putRows o (1000 * t.val) (k0_pay4 x0 x1 x2) := by
  unfold runLater; dsimp only
  rw [load_whole arg1 harg1 x0 zero2, load_whole arg2 harg2 x1 zero2, load_whole arg3 harg3 x2 zero2]
  exact read_rows_store arg4 harg4 o t _

theorem later_logits :
    arg5.view.read (Elt F) (arg5.view.writes (Elt F) (harg5.unread l) (runLater c (grid0.coords t) arg1 harg1 arg2 harg2 arg3 harg3 arg4 harg4 arg5 harg5 arg6 harg6 arg7 harg7 hc0 hc1 hc2 x0 x1 x2 o l mx sm).2.1)
      = putRows l (1000 * t.val) (k0_pay5 x0 x1 x2) := by
  unfold runLater; dsimp only
  rw [load_whole arg1 harg1 x0 zero2, load_whole arg2 harg2 x1 zero2, load_whole arg3 harg3 x2 zero2]
  exact read_rows_store arg5 harg5 l t _

theorem later_max (f : arg6.view.ty.Contents (Elt F)) :
    arg6.view.read (Elt F) (arg6.view.writes (Elt F) f (runLater c (grid0.coords t) arg1 harg1 arg2 harg2 arg3 harg3 arg4 harg4 arg5 harg5 arg6 harg6 arg7 harg7 hc0 hc1 hc2 x0 x1 x2 o l mx sm).2.2.1)
      = k0_pay10 x0 x1 x2 mx := by
  unfold runLater; dsimp only
  rw [load_whole arg1 harg1 x0 zero2, load_whole arg2 harg2 x1 zero2, load_whole arg3 harg3 x2 zero2, load_whole arg6 harg6 mx zero2]
  exact read_whole_store arg6 f zero2 _ _

theorem later_sum (f : arg7.view.ty.Contents (Elt F)) :
    arg7.view.read (Elt F) (arg7.view.writes (Elt F) f (runLater c (grid0.coords t) arg1 harg1 arg2 harg2 arg3 harg3 arg4 harg4 arg5 harg5 arg6 harg6 arg7 harg7 hc0 hc1 hc2 x0 x1 x2 o l mx sm).2.2.2.1)
      = k0_pay11 x0 x1 x2 mx sm := by
  unfold runLater; dsimp only
  rw [load_whole arg1 harg1 x0 zero2, load_whole arg2 harg2 x1 zero2, load_whole arg3 harg3 x2 zero2, load_whole arg6 harg6 mx zero2, load_whole arg7 harg7 sm zero2]
  exact read_whole_store arg7 f zero2 _ _
end Later

section Last
variable (c : Dev nD) (t : Fin cfg0.N) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole)
  (hc0 : ¬isFirst (grid0.coords t)) (hc1 : isLater (grid0.coords t)) (hc2 : isLast (grid0.coords t))
  (x0 : Vec F S1000x4096 .f32) (x1 : Vec F S4096x160 .bf16) (x2 : Vec F S1x160 .f32) (o l : Vec F S5000x80 .f32) (mx sm : Vec F S1x80 .f32)

theorem last_logits :
    arg5.view.read (Elt F) (arg5.view.writes (Elt F) (harg5.unread l) (runLast c (grid0.coords t) arg1 harg1 arg2 harg2 arg3 harg3 arg4 harg4 arg5 harg5 arg6 harg6 arg7 harg7 hc0 hc1 hc2 x0 x1 x2 o l mx sm).2.1)
      = putRows l (1000 * t.val) (k0_pay5 x0 x1 x2) := by
  unfold runLast; dsimp only; unfold runLast.sl.HL_1
  rw [load_whole arg1 harg1 x0 zero2, load_whole arg2 harg2 x1 zero2, load_whole arg3 harg3 x2 zero2]
  exact read_rows_store arg5 harg5 l t _

theorem last_max (f : arg6.view.ty.Contents (Elt F)) :
    arg6.view.read (Elt F) (arg6.view.writes (Elt F) f (runLast c (grid0.coords t) arg1 harg1 arg2 harg2 arg3 harg3 arg4 harg4 arg5 harg5 arg6 harg6 arg7 harg7 hc0 hc1 hc2 x0 x1 x2 o l mx sm).2.2.1)
      = k0_pay10 x0 x1 x2 mx := by
  unfold runLast; dsimp only; unfold runLast.sl.HM_1
  rw [load_whole arg1 harg1 x0 zero2, load_whole arg2 harg2 x1 zero2, load_whole arg3 harg3 x2 zero2, load_whole arg6 harg6 mx zero2]
  exact read_whole_store arg6 f zero2 _ _

theorem last_sum (f : arg7.view.ty.Contents (Elt F)) :
    arg7.view.read (Elt F) (arg7.view.writes (Elt F) f (runLast c (grid0.coords t) arg1 harg1 arg2 harg2 arg3 harg3 arg4 harg4 arg5 harg5 arg6 harg6 arg7 harg7 hc0 hc1 hc2 x0 x1 x2 o l mx sm).2.2.2.1)
      = k0_pay11 x0 x1 x2 mx sm := by
  unfold runLast; dsimp only; unfold runLast.sl.HS_1
  rw [load_whole arg1 harg1 x0 zero2, load_whole arg2 harg2 x1 zero2, load_whole arg3 harg3 x2 zero2, load_whole arg6 harg6 mx zero2, load_whole arg7 harg7 sm zero2]
  exact read_whole_store arg7 f zero2 _ _

/-- At the last point the output's staging buffer ends at the final normalisation of: its earlier contents with the
    last block's rows replaced by the block's class softmax, the logits scratch likewise with the block's logits, and
    the updated running maximum and sum. -/
theorem last_out :
    arg4.view.read (Elt F) (arg4.view.writes (Elt F) (harg4.unread o) (runLast c (grid0.coords t) arg1 harg1 arg2 harg2 arg3 harg3 arg4 harg4 arg5 harg5 arg6 harg6 arg7 harg7 hc0 hc1 hc2 x0 x1 x2 o l mx sm).1)
      = k0_pay1 (k0_pay10 x0 x1 x2 mx) (k0_pay11 x0 x1 x2 mx sm) (putRows o (1000 * t.val) (k0_pay4 x0 x1 x2)) (putRows l (1000 * t.val) (k0_pay5 x0 x1 x2)) := by
  unfold runLast; dsimp only
  unfold runLast.sl.v38 runLast.sl.v39 runLast.sl.v40 runLast.sl.v42 runLast.sl.H3_1 runLast.sl.HL_1 runLast.sl.HM_1 runLast.sl.HS_1
  rw [read_whole_store_cons arg4 _ zero2]
  rw [load_whole arg1 harg1 x0 zero2, load_whole arg2 harg2 x1 zero2, load_whole arg3 harg3 x2 zero2, load_whole arg6 harg6 mx zero2, load_whole arg7 harg7 sm zero2]
  rw [View.readCov_unit_zero arg6.view zero2, View.readCov_unit_zero arg7.view zero2]
  rw [load_whole_of arg4 _ _ (read_rows_store arg4 harg4 o t _) zero2, load_whole_of arg5 _ _ (read_rows_store arg5 harg5 l t _) zero2]
end Last

end Cert.Kernel.Hand

end
-- ==== Proof.BitsData.lean ====
/-
  The proof data of the one region, at any float instance. Point j of the five handles rows [1000 j, 1000 j + 1000).
  After point j the logits scratch holds the true detection logits on the rows of blocks 0..j, the running column
  maximum and sum are what the online update has made of blocks 0..j, and the output's staging buffer is what it was
  before the point with block j's rows replaced by the block's class softmax; the last point then rescales the whole
  buffer. The output's staging buffer starts at unknown contents and is only partly overwritten at each point, so
  what the body leaves there is stated as a relation to what it was handed.
-/
import proofs.«125353_g55722905698378_cont_9to1_m_658_15_alg».proof.Proof.BitsPieces
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three input blocks at a point: 1000 rows of the features, the two heads' weights side by side, their biases. -/
abbrev bX (c : Dev nD) (t : Fin cfg0.N) : Vec F S1000x4096 .f32 := iblk m c 0 t
abbrev bW (c : Dev nD) (t : Fin cfg0.N) : Vec F S4096x160 .bf16 := iblk m c 1 t
abbrev bB (c : Dev nD) (t : Fin cfg0.N) : Vec F S1x160 .f32 := iblk m c 2 t

/-- The class softmax of block `t`'s rows, and the block's detection logits. -/
def cBlk (c : Dev nD) (t : Fin cfg0.N) : S1000x80.Idx → Elt F .f32 := k0_pay4 (bX m c t) (bW m c t) (bB m c t)
def lBlk (c : Dev nD) (t : Fin cfg0.N) : S1000x80.Idx → Elt F .f32 := k0_pay5 (bX m c t) (bW m c t) (bB m c t)

/-- The running column maximum and the running column sum after point `n`: started at the first point, updated at
    each later one from the pair the point before left. -/
def runMS (c : Dev nD) : (n : ℕ) → n < cfg0.N → (S1x80.Idx → Elt F .f32) × (S1x80.Idx → Elt F .f32)
  | 0, h => (k0_pay7 (bX m c ⟨0, h⟩) (bW m c ⟨0, h⟩) (bB m c ⟨0, h⟩), k0_pay8 (bX m c ⟨0, h⟩) (bW m c ⟨0, h⟩) (bB m c ⟨0, h⟩))
  | n + 1, h =>
    (k0_pay10 (bX m c ⟨n + 1, h⟩) (bW m c ⟨n + 1, h⟩) (bB m c ⟨n + 1, h⟩) (runMS c n (Nat.lt_of_succ_lt h)).1,
     k0_pay11 (bX m c ⟨n + 1, h⟩) (bW m c ⟨n + 1, h⟩) (bB m c ⟨n + 1, h⟩) (runMS c n (Nat.lt_of_succ_lt h)).1 (runMS c n (Nat.lt_of_succ_lt h)).2)

theorem runMS_first (c : Dev nD) (t : Fin cfg0.N) (ht : t.val = 0) :
    runMS m c t.val t.isLt = (k0_pay7 (bX m c t) (bW m c t) (bB m c t), k0_pay8 (bX m c t) (bW m c t) (bB m c t)) := by
  obtain ⟨n, hn⟩ := t
  cases n with
  | zero => rfl
  | succ n => exact absurd ht (Nat.succ_ne_zero n)

theorem runMS_later (c : Dev nD) (t : Fin cfg0.N) (ht : t.val ≠ 0) :
    runMS m c t.val t.isLt =
      (k0_pay10 (bX m c t) (bW m c t) (bB m c t) (runMS m c (t.val - 1) (Nat.lt_of_le_of_lt (Nat.sub_le _ _) t.isLt)).1,
       k0_pay11 (bX m c t) (bW m c t) (bB m c t) (runMS m c (t.val - 1) (Nat.lt_of_le_of_lt (Nat.sub_le _ _) t.isLt)).1
         (runMS m c (t.val - 1) (Nat.lt_of_le_of_lt (Nat.sub_le _ _) t.isLt)).2) := by
  obtain ⟨n, hn⟩ := t
  cases n with
  | zero => exact absurd rfl ht
  | succ n => rfl

theorem runM_first (c : Dev nD) (t : Fin cfg0.N) (ht : t.val = 0) :
    (runMS m c t.val t.isLt).1 = k0_pay7 (bX m c t) (bW m c t) (bB m c t) := by rw [runMS_first m c t ht]
theorem runS_first (c : Dev nD) (t : Fin cfg0.N) (ht : t.val = 0) :
    (runMS m c t.val t.isLt).2 = k0_pay8 (bX m c t) (bW m c t) (bB m c t) := by rw [runMS_first m c t ht]
theorem runM_later (c : Dev nD) (t : Fin cfg0.N) (ht : t.val ≠ 0) :
    (runMS m c t.val t.isLt).1 = k0_pay10 (bX m c t) (bW m c t) (bB m c t) (runMS m c (t.val - 1) (Nat.lt_of_le_of_lt (Nat.sub_le _ _) t.isLt)).1 := by
  rw [runMS_later m c t ht]
theorem runS_later (c : Dev nD) (t : Fin cfg0.N) (ht : t.val ≠ 0) :
    (runMS m c t.val t.isLt).2 = k0_pay11 (bX m c t) (bW m c t) (bB m c t) (runMS m c (t.val - 1) (Nat.lt_of_le_of_lt (Nat.sub_le _ _) t.isLt)).1
      (runMS m c (t.val - 1) (Nat.lt_of_le_of_lt (Nat.sub_le _ _) t.isLt)).2 := by
  rw [runMS_later m c t ht]

/-- The detection logits of all 5000 rows: row `r` is row `r % 1000` of block `r / 1000`. -/
def lAll (c : Dev nD) : Vec F S5000x80 .f32 := fun y =>
  lBlk m c ⟨(y (0 : Fin 2)).val / 1000, by
      have h : (y (0 : Fin 2)).val < 5000 := (y (0 : Fin 2)).isLt
      have h5 : cfg0.N = 5 := N_0
      rw [h5]; omega⟩
    (ValueIdx.ix2 ⟨(y (0 : Fin 2)).val % 1000, Nat.mod_lt _ (by omega)⟩ (y (1 : Fin 2)))

/-- The logits scratch holds the true logits on the rows of the first `n` blocks. -/
def logitsUpTo (c : Dev nD) (n : ℕ) (l : Vec F S5000x80 .f32) : Prop :=
  ∀ y : S5000x80.Idx, (y (0 : Fin 2)).val < 1000 * n → l y = lAll m c y

/-- Storing block `t`'s logits extends the rows on which the scratch holds the true logits by that block. -/
theorem logitsUpTo_put (c : Dev nD) (t : Fin cfg0.N) (l : Vec F S5000x80 .f32) (h : logitsUpTo m c t.val l) :
    logitsUpTo m c (t.val + 1) (putRows l (1000 * t.val) (lBlk m c t)) := by
  intro y hy
  unfold putRows
  by_cases hr : 1000 * t.val ≤ (y (0 : Fin 2)).val ∧ (y (0 : Fin 2)).val < 1000 * t.val + 1000
  · rw [dif_pos hr]
    unfold lAll
    have ht : (⟨(y (0 : Fin 2)).val / 1000, by
        have h : (y (0 : Fin 2)).val < 5000 := (y (0 : Fin 2)).isLt
        have h5 : cfg0.N = 5 := N_0
        rw [h5]; omega⟩ : Fin cfg0.N) = t := Fin.ext (by show (y (0 : Fin 2)).val / 1000 = t.val; omega)
    rw [ht]
    congr 1
    funext a
    match a with
    | ⟨0, _⟩ => exact Fin.ext (by show (y (0 : Fin 2)).val - 1000 * t.val = (y (0 : Fin 2)).val % 1000; omega)
    | ⟨1, _⟩ => exact Fin.ext (by show (y (1 : Fin 2)).val - 0 = (y (1 : Fin 2)).val; omega)
  · rw [dif_neg hr]
    exact h y (by omega)

/-- What the output's staging buffer holds after point `t` if it held `Y` before: the block's rows replaced by the
    block's class softmax, and at the last point the final normalisation of that by the stashed logits of all rows
    and the final running maximum and sum. -/
def outStep (c : Dev nD) (t : Fin cfg0.N) (Y : Vec F S5000x80 .f32) : Vec F S5000x80 .f32 :=
  if t.val = 4 then
    k0_pay1 (runMS m c t.val t.isLt).1 (runMS m c t.val t.isLt).2 (putRows Y (1000 * t.val) (cBlk m c t)) (lAll m c)
  else putRows Y (1000 * t.val) (cBlk m c t)

/-- The region invariant before position `n`: at the start the three scratch buffers at anything; afterwards the
    logits scratch at contents that are the true logits on the rows of the blocks done, the running maximum and sum
    at what the point before left. -/
def Inv (c : Dev nD) : (n : ℕ) → n ≤ cfg0.N → sProp 𝕄
  | 0, _ => Pipeline.ΦA spec0 c
  | n + 1, hn => iprop(iprop((∃ l, ⌜logitsUpTo m c (n + 1) l⌝ ∗ owns (c : Thread nD τ) scL fullShare l) ∗ owns (c : Thread nD τ) scM fullShare (runMS m c n hn).1 ∗ owns (c : Thread nD τ) scS fullShare (runMS m c n hn).2) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ l, ⌜logitsUpTo m c (n + 1) l⌝ ∗ owns (c : Thread nD τ) scL fullShare l) ∗ owns (c : Thread nD τ) scM fullShare (runMS m c n hn).1 ∗ owns (c : Thread nD τ) scS fullShare (runMS m c n hn).2) ∗ (∃ r, prngReg c r)) := rfl

theorem Inv_pos (c : Dev nD) (n : ℕ) (h : n ≤ cfg0.N) (hz : n ≠ 0) :
    Inv m c n h = iprop(iprop((∃ l, ⌜logitsUpTo m c n l⌝ ∗ owns (c : Thread nD τ) scL fullShare l) ∗ owns (c : Thread nD τ) scM fullShare (runMS m c (n - 1) (by omega)).1 ∗ owns (c : Thread nD τ) scS fullShare (runMS m c (n - 1) (by omega)).2) ∗ (∃ r, prngReg c r)) := by
  cases n with
  | zero => exact absurd rfl hz
  | succ n => rfl

/-- The exact part of the proof data: the arrays as the region finds them, each input window's buffer at its block
    after the body, the invariant above, full shares, nothing owed. (What the output window's buffer holds is stated
    by the relation below, not here.) -/
def exact (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := Inv m c t.val (Nat.le_of_lt_succ t.isLt)
  q _ := fullShare
  owed _ := 0

/-- The output window's relation: what the body leaves is `outStep` of what it was handed. -/
def outRel (c : Dev nD) (t : Fin cfg0.N) (Y X : (cfg0.win 3).block.Idx → Elt F (cfg0.win 3).elt) : Prop :=
  X = outStep m c t Y

/-- The proof data: exact for the three input windows, relational for the output window. -/
def rel (c : Dev nD) : Pipeline.RDat τ (Elt F) Unit ℕ (UR sig nD τ) ℕ cfg0 c :=
  (exact m c).toR.override fun w => match w with
    | ⟨3, _⟩ => some (outRel m c)
    | _ => none

end Cert.Kernel.Hand

end
-- ==== Proof.BitsObligation.lean ====
/-
  The body obligation, the run and the frame of the one region, at any float instance, and what the output array
  holds at the end. At each point the body is the run of its case (first, later, last) on the three input blocks and
  on the output's staging buffer at whatever it held; the invariant hands it the logits scratch and the running maximum
  and sum as the point before left them and takes them back as this point leaves them. The output window is written
  back once, after the last point, so the output array ends at the five points' steps composed, applied to whatever
  the staging buffer held at the start.
-/
import proofs.«125353_g55722905698378_cont_9to1_m_658_15_alg».proof.Proof.BitsData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant at a point's start, at the point's position. -/
theorem Inv_castSucc (c : Dev nD) (t : Fin cfg0.N) :
    (exact m c).Φ t.castSucc = Inv m c t.val (Nat.le_of_lt t.isLt) := by
  dsimp only [exact]; simp only [Fin.coe_castSucc]

/-- Once all five blocks are stored the logits scratch holds the true logits on every row. -/
theorem logits_full (c : Dev nD) (t : Fin cfg0.N) (ht : t.val = 4) (l : Vec F S5000x80 .f32) (h : logitsUpTo m c t.val l) :
    putRows l (1000 * t.val) (lBlk m c t) = lAll m c :=
  funext fun y => logitsUpTo_put m c t l h y (by have : (y (0 : Fin 2)).val < 5000 := (y (0 : Fin 2)).isLt; omega)

set_option maxHeartbeats 4800000 in
/-- The body at any point, on the three input blocks and on the output's staging buffer at any contents `o`: from the
    invariant before the point it runs to the invariant after it, the inputs as they were, and the output's staging
    buffer at `outStep` of `o`. By cases on the point: first, later, last. -/
theorem sound_body (c : Dev nD) (t : Fin cfg0.N) (o : Vec F S5000x80 .f32) :
    iprop((exact m c).Φ t.castSucc ∗ (exact m c).owesAt () t.castSucc
        ∗ owns (c : Thread nD τ) (mX t) fullShare (iblk m c 0 t) ∗ owns (c : Thread nD τ) (mW t) fullShare (iblk m c 1 t)
        ∗ owns (c : Thread nD τ) (mB t) fullShare (iblk m c 2 t) ∗ owns (c : Thread nD τ) (mO t) fullShare o)
      ⊢ wp frame (wpE (defs₀ (F := F)) Variants.none c none) Set.univ (bodyAt0 t) (fun _ =>
          iprop((exact m c).Φ t.succ ∗ (exact m c).owesAt () t.succ
            ∗ owns (c : Thread nD τ) (mX t) fullShare (iblk m c 0 t) ∗ owns (c : Thread nD τ) (mW t) fullShare (iblk m c 1 t)
            ∗ owns (c : Thread nD τ) (mB t) fullShare (iblk m c 2 t) ∗ owns (c : Thread nD τ) (mO t) fullShare (outStep m c t o))) := by
  unfold bodyAt0
  rw [show (exact m c).owesAt () t.succ = (exact m c).owesAt () t.castSucc from rfl]
  rw [show (exact m c).Φ t.succ = Inv m c (t.val + 1) t.isLt from rfl, Inv_succ]
  have hN : t.val < 5 := lt_of_lt_of_eq t.isLt (show cfg0.N = 5 from N_0)
  by_cases hz : t.val = 0
  · have hc0 : isFirst (grid0.coords t) := (isFirst_iff t).mpr hz
    have hc1 : ¬isLater (grid0.coords t) := fun h => by have := (isLater_iff t).mp h; omega
    have hc2 : ¬isLast (grid0.coords t) := fun h => by have := (isLast_iff t).mp h; omega
    rw [Inv_castSucc m c t, Inv_zero m c _ _ hz, PhiA_eq, runM_first m c t hz, runS_first m c t hz]
    iintro ⟨⟨⟨⟨%l0, HL⟩, HM, HS⟩, Hg⟩, Ho, H0, H1, H2, H3⟩
    iapply ((runFirst c (grid0.coords t) (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0).2.2.2.2 Set.univ _)
    isplitl [H0]; · iexact H0
    isplitl [H1]; · iexact H1
    isplitl [H2]; · iexact H2
    isplitl [H3]; · iexact H3
    isplitl [HL]; · iexact HL
    isplitl [HM]; · iexact HM
    isplitl [HS]; · iexact HS
    iintro ⟨H0, H1, H2, H3, HL, ⟨%fm, HM⟩, ⟨%fs, HS⟩⟩
    isplitl [HL HM HS Hg]
    · isplitl [HL HM HS]
      · isplitl [HL]
        · iexists (putRows l0 (1000 * t.val) (lBlk m c t)); isplitr
          · ipureintro; exact logitsUpTo_put m c t l0 (fun y hy => by omega)
          · unfold owns; iexists _; isplitr
            swap; · iexact HL
            ipureintro; exact first_logits c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0
        isplitl [HM]
        · unfold owns; iexists _; isplitr
          swap; · iexact HM
          ipureintro; exact first_max c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 fm
        unfold owns; iexists _; isplitr
        swap; · iexact HS
        ipureintro; exact first_sum c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 fs
      iexact Hg
    isplitl [Ho]; · iexact Ho
    isplitl [H0]; · iexact H0
    isplitl [H1]; · iexact H1
    isplitl [H2]; · iexact H2
    unfold owns; iexists _; isplitr
    swap; · iexact H3
    ipureintro
    refine (first_out c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0).trans ?_
    unfold outStep; rw [if_neg (by omega)]; rfl
  · have hc0 : ¬isFirst (grid0.coords t) := fun h => hz ((isFirst_iff t).mp h)
    have hc1 : isLater (grid0.coords t) := (isLater_iff t).mpr (by omega)
    rw [Inv_castSucc m c t, Inv_pos m c _ _ hz, runM_later m c t hz, runS_later m c t hz]
    by_cases h4 : t.val = 4
    · have hc2 : isLast (grid0.coords t) := (isLast_iff t).mpr h4
      iintro ⟨⟨⟨⟨%l0, %hl0, HL⟩, HM, HS⟩, Hg⟩, Ho, H0, H1, H2, H3⟩
      iapply ((runLast c (grid0.coords t) (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).2.2.2.2 Set.univ _)
      isplitl [H0]; · iexact H0
      isplitl [H1]; · iexact H1
      isplitl [H2]; · iexact H2
      isplitl [H3]; · iexact H3
      isplitl [HL]; · iexact HL
      isplitl [HM]; · iexact HM
      isplitl [HS]; · iexact HS
      iintro ⟨H0, H1, H2, H3, HL, ⟨%fm, HM⟩, ⟨%fs, HS⟩⟩
      isplitl [HL HM HS Hg]
      · isplitl [HL HM HS]
        · isplitl [HL]
          · iexists (putRows l0 (1000 * t.val) (lBlk m c t)); isplitr
            · ipureintro; exact logitsUpTo_put m c t l0 hl0
            · unfold owns; iexists _; isplitr
              swap; · iexact HL
              ipureintro; exact last_logits c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _
          isplitl [HM]
          · unfold owns; iexists _; isplitr
            swap; · iexact HM
            ipureintro; exact last_max c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fm
          unfold owns; iexists _; isplitr
          swap; · iexact HS
          ipureintro; exact last_sum c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fs
        iexact Hg
      isplitl [Ho]; · iexact Ho
      isplitl [H0]; · iexact H0
      isplitl [H1]; · iexact H1
      isplitl [H2]; · iexact H2
      unfold owns; iexists _; isplitr
      swap; · iexact H3
      ipureintro
      refine (last_out c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).trans ?_
      unfold outStep; rw [if_pos h4, runM_later m c t hz, runS_later m c t hz, ← logits_full m c t h4 l0 hl0]; rfl
    · have hc2 : ¬isLast (grid0.coords t) := fun h => h4 ((isLast_iff t).mp h)
      iintro ⟨⟨⟨⟨%l0, %hl0, HL⟩, HM, HS⟩, Hg⟩, Ho, H0, H1, H2, H3⟩
      iapply ((runLater c (grid0.coords t) (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).2.2.2.2 Set.univ _)
      isplitl [H0]; · iexact H0
      isplitl [H1]; · iexact H1
      isplitl [H2]; · iexact H2
      isplitl [H3]; · iexact H3
      isplitl [HL]; · iexact HL
      isplitl [HM]; · iexact HM
      isplitl [HS]; · iexact HS
      iintro ⟨H0, H1, H2, H3, HL, ⟨%fm, HM⟩, ⟨%fs, HS⟩⟩
      isplitl [HL HM HS Hg]
      · isplitl [HL HM HS]
        · isplitl [HL]
          · iexists (putRows l0 (1000 * t.val) (lBlk m c t)); isplitr
            · ipureintro; exact logitsUpTo_put m c t l0 hl0
            · unfold owns; iexists _; isplitr
              swap; · iexact HL
              ipureintro; exact later_logits c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _
          isplitl [HM]
          · unfold owns; iexists _; isplitr
            swap; · iexact HM
            ipureintro; exact later_max c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fm
          unfold owns; iexists _; isplitr
          swap; · iexact HS
          ipureintro; exact later_sum c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fs
        iexact Hg
      isplitl [Ho]; · iexact Ho
      isplitl [H0]; · iexact H0
      isplitl [H1]; · iexact H1
      isplitl [H2]; · iexact H2
      unfold owns; iexists _; isplitr
      swap; · iexact H3
      ipureintro
      refine (later_out c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).trans ?_
      unfold outStep; rw [if_neg h4]; rfl

/-- Each input window's buffer is found at its block at every point. -/
theorem found0 (c : Dev nD) (t : Fin cfg0.N) (Y) (h : (rel m c).Finds 0 t Y) : Y = iblk m c 0 t := by
  obtain ⟨d, rfl⟩ := (exact m c).toR_finds 0 t Y (((exact m c).toR.override_finds rfl t Y).mp h)
  exact before0_0_of m (exact m c) rfl (fun _ => rfl) t d
theorem found1 (c : Dev nD) (t : Fin cfg0.N) (Y) (h : (rel m c).Finds 1 t Y) : Y = iblk m c 1 t := by
  obtain ⟨d, rfl⟩ := (exact m c).toR_finds 1 t Y (((exact m c).toR.override_finds rfl t Y).mp h)
  exact before0_1_of m (exact m c) rfl (fun _ => rfl) t d
theorem found2 (c : Dev nD) (t : Fin cfg0.N) (Y) (h : (rel m c).Finds 2 t Y) : Y = iblk m c 2 t := by
  obtain ⟨d, rfl⟩ := (exact m c).toR_finds 2 t Y (((exact m c).toR.override_finds rfl t Y).mp h)
  exact before0_2_of m (exact m c) rfl (fun _ => rfl) t d

/-- and is left there. -/
theorem left0 (c : Dev nD) (t : Fin cfg0.N) (Y) : (rel m c).after 0 t Y (iblk m c 0 t) :=
  (Dat.Leaves.live_iff (exact m c) (.inl rfl)).mpr rfl
theorem left1 (c : Dev nD) (t : Fin cfg0.N) (Y) : (rel m c).after 1 t Y (iblk m c 1 t) :=
  (Dat.Leaves.live_iff (exact m c) (.inl rfl)).mpr rfl
theorem left2 (c : Dev nD) (t : Fin cfg0.N) (Y) : (rel m c).after 2 t Y (iblk m c 2 t) :=
  (Dat.Leaves.live_iff (exact m c) (.inl rfl)).mpr rfl

/-- The body obligation of the relational data, at every point. -/
theorem body_ok (c : Dev nD) : (rel m c).BodyObligation (defs₀ (F := F)) Variants.none () Set.univ := fun t Y hY => by
  have h0 := found0 m c t (Y 0) (hY 0)
  have h1 := found1 m c t (Y 1) (hY 1)
  have h2 := found2 m c t (Y 2) (hY 2)
  rw [bigSep_W0, bigSep_W0, h0, h1, h2]
  refine (sound_body m c t (Y 3)).trans (wp_mono _ _ _ fun _ => ?_)
  rw [show (rel m c).Φ t.succ = (exact m c).Φ t.succ from rfl, show (rel m c).owesAt () t.succ = (exact m c).owesAt () t.succ from rfl]
  iintro ⟨HΦ, Ho, H0, H1, H2, H3⟩
  isplitl [HΦ]; · iexact HΦ
  isplitl [Ho]; · iexact Ho
  isplitl [H0]
  · iexists _; isplitr
    swap; · iexact H0
    ipureintro; exact left0 m c t _
  isplitl [H1]
  · iexists _; isplitr
    swap; · iexact H1
    ipureintro; exact left1 m c t _
  isplitl [H2]
  · iexists _; isplitr
    swap; · iexact H2
    ipureintro; exact left2 m c t _
  iexists _; isplitr
  swap; · iexact H3
  ipureintro; exact rfl

theorem inv_in (c : Dev nD) : Pipeline.ΦA spec0 c ⊢ (rel m c).Φ 0 := by
  rw [show (rel m c).Φ 0 = Inv m c 0 (Nat.zero_le _) from rfl, Inv_zero m c 0 _ rfl]
  try exact Idealize.SL.BI.Entails.refl _

theorem inv_out (c : Dev nD) : (rel m c).Φ (Fin.last cfg0.N) ⊢ Pipeline.ΦA spec0 c := by
  rw [show (rel m c).Φ (Fin.last cfg0.N) = Inv m c (Fin.last cfg0.N).val (Nat.le_of_lt_succ (Fin.last cfg0.N).isLt) from rfl,
    Inv_pos m c _ _ (by rw [Fin.val_last]; have : cfg0.N = 5 := N_0; omega), PhiA_eq]
  iintro ⟨⟨⟨%l, %hl, HL⟩, HM, HS⟩, Hg⟩
  isplitl [HL HM HS]
  · isplitl [HL]
    · iexists _; iexact HL
    isplitl [HM]
    · iexists _; iexact HM
    iexists _; iexact HS
  iexact Hg

set_option backward.isDefEq.respectTransparency.types false in
/-- Every weakly fair execution of the program terminates; the input arrays end unchanged, the output array in the
    relation the data state to its entry contents, every other unscoped buffer at its region-entry contents. -/
theorem run_main : θ_run defs (onTc (τ := τ) (main (F := F))) (s₀ m ρ) (Pipeline.RDat.FramePost (cfgs 0) (fun c => rel m c) (V m)) :=
  Pipeline.RDat.θ_run_frame_track cfgs (0 : Fin 1) launch0 defs₀ Variants.none (fun c => rel m c) m ρ main
    (hbody := fun c => body_ok m c) (hshare := fun c => (rel m c).share_full fun _ => rfl)
    (howed := fun _ _ => rfl) (V := V m) (hmain := hmain m Variants.none) (hA := fun _ _ => rfl) (hin := inv_in m) (hout := inv_out m)

/-- The frame: the five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Eq.mp (congrFun ((rel m c).ArrAt_in 0 rfl _) _) ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The output window fetches nothing, and is written back at the last point only. -/
theorem out_fetch : ∀ t : Fin cfg0.N, (cfg0.win 3).fetch t = false :=
  (by decide +kernel : ∀ t : Fin grid0.N, win0_3.fetch t = false)
/-- Its block is the whole array: the block index is 0 on both axes at every point. -/
theorem out_index : ∀ (t : Fin cfg0.N) (a : Fin 2), win0_3.index t a = 0 :=
  (by decide +kernel : ∀ (t : Fin grid0.N) (a : Fin 2), win0_3.index t a = 0)

theorem leaves_first (c : Dev nD) (t : Fin cfg0.N) (X) (h : (rel m c).Leaves 3 t X) : ∃ Y, X = outStep m c t Y := by
  obtain ⟨Y, -, hA⟩ := h
  exact ⟨Y, hA⟩

theorem leaves_later (c : Dev nD) (t : Fin cfg0.N) (ht : t.val ≠ 0) (X) (h : (rel m c).Leaves 3 t X) :
    ∃ Y, (rel m c).Leaves 3 ⟨t.val - 1, Nat.lt_of_le_of_lt (Nat.sub_le _ _) t.isLt⟩ Y ∧ X = outStep m c t Y := by
  obtain ⟨Y, hF, hA⟩ := h
  rcases ((rel m c).finds_of_pos (out_fetch t) ht Y).mp hF with hfl | hL
  · exfalso
    have h4 := (flush0_3 ⟨t.val - 1, Nat.lt_of_le_of_lt (Nat.sub_le _ _) t.isLt⟩).mp hfl
    have hN : t.val < 5 := lt_of_lt_of_eq t.isLt (show cfg0.N = 5 from N_0)
    have h4' : (t.val - 1) % 5 = 4 := h4
    omega
  · exact ⟨Y, hL, hA⟩

/-- The five points' steps composed, from whatever the output's staging buffer held at the start. -/
def chainOut (c : Dev nD) (Y0 : Vec F S5000x80 .f32) : Vec F S5000x80 .f32 :=
  outStep m c t0_4 (outStep m c t0_3 (outStep m c t0_2 (outStep m c t0_1 (outStep m c t0_0 Y0))))

/-- Writing the whole-array block back leaves the array at what was written. -/
theorem write_whole_block (c : Dev nD) (t : Fin cfg0.N) (G₀ : Buf (Elt F) ((cfg0.win 3).arr.view.loc (c.tc : Thread nD τ)))
    (X : (cfg0.win 3).block.Idx → Elt F (cfg0.win 3).elt) :
    ((cfg0.win 3).blk t).view.write (Elt F) G₀ ((cfg0.win 3).cut (cfg0.grid.coords t) X) Finset.univ = X := by
  funext i
  have hi : ((cfg0.win 3).blk t).view.emb i = i := funext fun a => Fin.ext (by
    show win0_3.index t a * S5000x80.size a + 1 * (i a).val = (i a).val
    rw [out_index t a]; omega)
  conv_lhs => rw [← hi]
  rw [View.write_emb_of_mem _ _ (Finset.mem_univ _)]
  rfl

/-- What the output array may hold after the run: the five steps composed, from some starting contents. -/
theorem final_array (c : Dev nD) (G : Buf (Elt F) ((cfg0.win 3).arr.view.loc (c.tc : Thread nD τ)))
    (h : (rel m c).ArrAt 3 cfg0.N G) : ∃ Y0 : Vec F S5000x80 .f32, G = chainOut m c Y0 := by
  have e : cfg0.N = t0_4.val + 1 := N_0
  rw [e, Pipeline.RDat.ArrAt_succ (rel m c) 3 t0_4, if_pos ((flush0_3 t0_4).mpr rfl)] at h
  obtain ⟨G₀, X, -, hX, rfl⟩ := h
  obtain ⟨Y4, h3, rfl⟩ := leaves_later m c t0_4 (by decide) X hX
  obtain ⟨Y3, h2, rfl⟩ := leaves_later m c _ (by decide) Y4 h3
  obtain ⟨Y2, h1, rfl⟩ := leaves_later m c _ (by decide) Y3 h2
  obtain ⟨Y1, h0, rfl⟩ := leaves_later m c _ (by decide) Y2 h1
  obtain ⟨Y0, rfl⟩ := leaves_first m c _ Y1 h0
  exact ⟨Y0, write_whole_block c t0_4 G₀ _⟩

end Cert.Kernel.Hand

end
-- ==== Proof.IdealCases.lean ====
/-
  The grid has five points; point j handles rows [1000 j, 1000 j + 1000) of the 5000 proposals. The body branches
  three times on the point's coordinate: at the first point it starts the running column maximum and the running
  column sum of exponentials, at every later point it updates them, and at the last point it also rescales the
  whole output. Here: the three branch conditions as propositions of the coordinate, decided over the grid in
  closed form, the memrefs the body is called with at a point, and the region invariant as three scratch
  buffers owned at some contents.
-/
import proofs.«125353_g55722905698378_cont_9to1_m_658_15_alg».proof.Proof.Gen.KernelIdeal.Frame
import proofs.«125353_g55722905698378_cont_9to1_m_658_15_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch is taken: the point's coordinate is 0. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch is taken: the coordinate is positive. -/
abbrev isLater (i : grid0.Coords) : Prop := (Scalar.cmpi .ne (Scalar.extui (Scalar.cmpi .sgt (BitVec.ofNat 32 (i 0).val) 0#32)) 0#32) = 1#1
theorem isLater_iff : ∀ t : Fin cfg0.N, isLater (grid0.coords t) ↔ 1 ≤ t.val :=
  (by decide +kernel : ∀ t : Fin grid0.N, isLater (grid0.coords t) ↔ 1 ≤ t.val)

/-- The third branch is taken: the coordinate is 4, the last point. -/
abbrev isLast (i : grid0.Coords) : Prop := (Scalar.cmpi .ne (Scalar.extui (Scalar.cmpi .eq (BitVec.ofNat 32 (i 0).val) 4#32)) 0#32) = 1#1
theorem isLast_iff : ∀ t : Fin cfg0.N, isLast (grid0.coords t) ↔ t.val = 4 :=
  (by decide +kernel : ∀ t : Fin grid0.N, isLast (grid0.coords t) ↔ t.val = 4)

/-- The rows the point writes start at 1000 times its coordinate. -/
theorem rowOff_eq : ∀ t : Fin cfg0.N, k0_off1 (grid0.coords t) = ![1000 * t.val, 0] :=
  (by decide +kernel : ∀ t : Fin grid0.N, k0_off1 (grid0.coords t) = ![1000 * t.val, 0])

/-- Each window's current staging memref at point `t`, and that it is a whole buffer. -/
abbrev mX (t : Fin cfg0.N) : Memref sig .tc .vmem S1000x4096 .f32 := win0_0.stage (cfg0.slots t 0)
abbrev hX (t : Fin cfg0.N) : (mX t).IsWhole := hstage0_0 ((cfg0.slots t 0).cast nbuf0_0)
abbrev mW (t : Fin cfg0.N) : Memref sig .tc .vmem S4096x160 .bf16 := win0_1.stage (cfg0.slots t 1)
abbrev hW (t : Fin cfg0.N) : (mW t).IsWhole := hstage0_1 ((cfg0.slots t 1).cast nbuf0_1)
abbrev mB (t : Fin cfg0.N) : Memref sig .tc .vmem S1x160 .f32 := win0_2.stage (cfg0.slots t 2)
abbrev hB (t : Fin cfg0.N) : (mB t).IsWhole := hstage0_2 ((cfg0.slots t 2).cast nbuf0_2)
abbrev mO (t : Fin cfg0.N) : Memref sig .tc .vmem S5000x80 .f32 := win0_3.stage (cfg0.slots t 3)
abbrev hO (t : Fin cfg0.N) : (mO t).IsWhole := hstage0_3 ((cfg0.slots t 3).cast nbuf0_3)
/-- The three scratch operands: the stashed detection logits, the running column maximum, the running column sum. -/
abbrev scL : Memref sig .tc .vmem S5000x80 .f32 := Memref.whole cc0_scratch0
abbrev scM : Memref sig .tc .vmem S1x80 .f32 := Memref.whole cc0_scratch1
abbrev scS : Memref sig .tc .vmem S1x80 .f32 := Memref.whole cc0_scratch2

/-- The class invariant is the three scratch buffers owned at some contents, and the generator register. -/
theorem PhiA_eq (c : Dev nD) :
    (Pipeline.ΦA spec0 c : sProp 𝕄)
      = iprop(iprop((∃ d, owns (c : Thread nD τ) scL fullShare d) ∗ (∃ d, owns (c : Thread nD τ) scM fullShare d) ∗ (∃ d, owns (c : Thread nD τ) scS fullShare d)) ∗ (∃ r, prngReg c r)) := by
  unfold Pipeline.ΦA; rw [scopedRest0_eq]; simp only [scL, scM, scS, owns_whole]; try rfl

end Cert.KernelIdeal.Hand

end
-- ==== Proof.IdealRunFirst.lean ====
/-
  The body at the first grid point (first branch taken, the other two not): it stores the block's class softmax into rows [0, 1000) of the output's staging buffer, the block's detection logits into the same rows of the logits scratch, and starts the running column maximum and the running column sum of exponentials from this block alone.
-/
import proofs.«125353_g55722905698378_cont_9to1_m_658_15_alg».proof.Proof.IdealCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body run on whole memrefs in this case. The inputs are held at `x0 x1 x2`, the output's staging buffer
    at `o` and the logits scratch at `l` (whatever the points before left there), the running maximum and sum at anything; the run ends with the
    inputs as they were and each of the four written buffers at its prior contents overwritten by a list of
    stores (rectangle and payload, last store first) that the run finds. -/
noncomputable def runFirst (c : Dev nD) (i : grid0.Coords) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole) (hc0 : isFirst i) (hc1 : ¬isLater i) (hc2 : ¬isLast i)
    (x0 : Vec F S1000x4096 .f32) (x1 : Vec F S4096x160 .bf16) (x2 : Vec F S1x160 .f32) (o : Vec F S5000x80 .f32) (l : Vec F S5000x80 .f32) :
    Σ' (LO : List (View.Piece (Elt F) S5000x80 .f32)) (LL : List (View.Piece (Elt F) S5000x80 .f32)) (LM : List (View.Piece (Elt F) S1x80 .f32)), { LS : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare l ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread l) LL)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E (cc0__wsddn_kernel i arg1 harg1 arg2 harg2 arg3 harg3 arg4 harg4 arg5 harg5 arg6 harg6 arg7 harg7) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fl, %hfl, HL⟩, ⟨%dm, %fm, -, HM⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hfl
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [HL]; · iexact HL
    isplitl [HM]; · iexists _; iexact HM
    iexists _; iexact HS

end Cert.KernelIdeal.Hand

end
-- ==== Proof.IdealRunLater.lean ====
/-
  The body at a grid point after the first and before the last (second branch taken, the other two not): it stores the block's class softmax and detection logits into the block's rows of the output's staging buffer and of the logits scratch, replaces the running column maximum by its maximum with the block's column maximum, and rescales the running column sum to the new maximum before adding the block's exponentials.
-/
import proofs.«125353_g55722905698378_cont_9to1_m_658_15_alg».proof.Proof.IdealRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body run on whole memrefs in this case. The inputs are held at `x0 x1 x2`, the output's staging buffer
    at `o` and the logits scratch at `l` (whatever the points before left there), the running maximum and sum at `mx`, `sm`; the run ends with the
    inputs as they were and each of the four written buffers at its prior contents overwritten by a list of
    stores (rectangle and payload, last store first) that the run finds. -/
noncomputable def runLater (c : Dev nD) (i : grid0.Coords) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole) (hc0 : ¬isFirst i) (hc1 : isLater i) (hc2 : ¬isLast i)
    (x0 : Vec F S1000x4096 .f32) (x1 : Vec F S4096x160 .bf16) (x2 : Vec F S1x160 .f32) (o : Vec F S5000x80 .f32) (l : Vec F S5000x80 .f32) (mx : Vec F S1x80 .f32) (sm : Vec F S1x80 .f32) :
    Σ' (LO : List (View.Piece (Elt F) S5000x80 .f32)) (LL : List (View.Piece (Elt F) S5000x80 .f32)) (LM : List (View.Piece (Elt F) S1x80 .f32)), { LS : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare l ∗ owns (c : Thread nD τ) arg6 fullShare mx ∗ owns (c : Thread nD τ) arg7 fullShare sm
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread l) LL)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E (cc0__wsddn_kernel i arg1 harg1 arg2 harg2 arg3 harg3 arg4 harg4 arg5 harg5 arg6 harg6 arg7 harg7) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fl, %hfl, HL⟩, ⟨%fm, %hfm, HM⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hfl; obtain rfl := harg6.eq_unread hfm; obtain rfl := harg7.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [HL]; · iexact HL
    isplitl [HM]; · iexists _; iexact HM
    iexists _; iexact HS

end Cert.KernelIdeal.Hand

end
-- ==== Proof.IdealRunLast.lean ====
/-
  The body at the last grid point (second and third branches taken): as at a later point, and then every entry of the output's staging buffer is multiplied by the exponential of the stashed detection logit less the final column maximum, divided by the final column sum.
-/
import proofs.«125353_g55722905698378_cont_9to1_m_658_15_alg».proof.Proof.IdealRunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body run on whole memrefs in this case. The inputs are held at `x0 x1 x2`, the output's staging buffer
    at `o` and the logits scratch at `l` (whatever the points before left there), the running maximum and sum at `mx`, `sm`; the run ends with the
    inputs as they were and each of the four written buffers at its prior contents overwritten by a list of
    stores (rectangle and payload, last store first) that the run finds. -/
noncomputable def runLast (c : Dev nD) (i : grid0.Coords) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole) (hc0 : ¬isFirst i) (hc1 : isLater i) (hc2 : isLast i)
    (x0 : Vec F S1000x4096 .f32) (x1 : Vec F S4096x160 .bf16) (x2 : Vec F S1x160 .f32) (o : Vec F S5000x80 .f32) (l : Vec F S5000x80 .f32) (mx : Vec F S1x80 .f32) (sm : Vec F S1x80 .f32) :
    Σ' (LO : List (View.Piece (Elt F) S5000x80 .f32)) (LL : List (View.Piece (Elt F) S5000x80 .f32)) (LM : List (View.Piece (Elt F) S1x80 .f32)), { LS : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare o ∗ owns (c : Thread nD τ) arg5 fullShare l ∗ owns (c : Thread nD τ) arg6 fullShare mx ∗ owns (c : Thread nD τ) arg7 fullShare sm
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} arg4.view.writes (Elt F) (harg4.unread o) LO)
                ∗ (arg5.view.loc (c : Thread nD τ) ↦[arg5.view.set]{fullShare} arg5.view.writes (Elt F) (harg5.unread l) LL)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E (cc0__wsddn_kernel i arg1 harg1 arg2 harg2 arg3 harg3 arg4 harg4 arg5 harg5 arg6 harg6 arg7 harg7) K } := by
  refine ⟨?_, ?_, ?_, ?_, fun E K => ?run⟩
  case run =>
    simp only [cc0__wsddn_kernel_eq_skeleton]; unfold cc0__wsddn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fl, %hfl, HL⟩, ⟨%fm, %hfm, HM⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hfl; obtain rfl := harg6.eq_unread hfm; obtain rfl := harg7.eq_unread hfs
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    isplitl [HL]; · iexact HL
    isplitl [HM]; · iexists _; iexact HM
    iexists _; iexact HS

end Cert.KernelIdeal.Hand

end
-- ==== Proof.IdealPieces.lean ====
/-
  What each case of the body leaves in the four buffers it writes, in closed form. A store of a block of 1000 rows
  at row offset o leaves the earlier contents outside rows [o, o + 1000) and the block inside (`putRows`); a store of
  a whole buffer leaves its payload. So after a point the output's staging buffer and the logits scratch are their
  earlier contents with the point's rows replaced by the block's class softmax and by the block's detection logits,
  the running maximum and sum are the payloads of their update, and at the last point the output is then the final
  normalisation applied to the buffers just described.
-/
import proofs.«125353_g55722905698378_cont_9to1_m_658_15_alg».proof.Proof.IdealRunLast
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero2 : (![0, 0] : Fin 2 → ℕ) = fun _ => 0 := by
  funext a; match a with | ⟨0, _⟩ => rfl | ⟨1, _⟩ => rfl

/-- Rows [o, o + 1000) of a 5000-row array replaced by a block of 1000 rows. -/
def putRows (Y : Vec F S5000x80 .f32) (o : ℕ) (B : S1000x80.Idx → Elt F .f32) : Vec F S5000x80 .f32 := fun y =>
  if h : o ≤ (y (0 : Fin 2)).val ∧ (y (0 : Fin 2)).val < o + 1000 then
    B (Rect.unitLocal (s := S5000x80) (off := ![o, 0]) (size := S1000x80.size) y (Rect.unit_rows_mem y rfl rfl h))
  else Y y

/-- One store of a block of rows over whole-buffer contents `Y`. -/
theorem read_rows_store (arg : Memref sig .tc .vmem S5000x80 .f32) (harg : arg.IsWhole) (Y : Vec F S5000x80 .f32)
    (t : Fin cfg0.N) (B : S1000x80.Idx → Elt F .f32) :
    arg.view.read (Elt F) (arg.view.writes (Elt F) (harg.unread Y)
      [⟨Rect.unit (s := S5000x80) (k0_off1 (grid0.coords t)) S1000x80.size (k0_off1_inb (grid0.coords t)), B⟩])
      = putRows Y (1000 * t.val) B := by
  funext y
  rw [View.read_writes_cons_rows (W := 1000) arg.view _ (k0_off1_inb (grid0.coords t)) B [] y (rowOff_eq t) rfl rfl]
  unfold putRows
  simp only [View.writes_nil, harg.read_unread]

/-- A load through the whole rectangle reads the buffer's contents, whatever expression they are given by. -/
theorem load_whole_of {S : Shape} {e : EltTy} (arg : Memref sig .tc .vmem S e) (f : arg.view.ty.Contents (Elt F)) (X : S.Idx → Elt F e)
    (hX : arg.view.read (Elt F) f = X)
    {off : Fin S.rank → ℕ} (hoff : off = fun _ => 0) (inb : ∀ a, off a + S.size a ≤ S.size a) :
    View.readAt (Elt F) arg.view (Rect.unit (s := S) off S.size inb).toLoadRect f = X := by
  rw [View.readAt_eq_ld, hX, View.ld_unit_zero hoff]

/-- A store through the whole rectangle, made last, leaves its payload whatever the earlier stores were. -/
theorem read_whole_store_cons {S : Shape} {e : EltTy} (arg : Memref sig .tc .vmem S e) (f : arg.view.ty.Contents (Elt F))
    {off : Fin S.rank → ℕ} (hoff : off = fun _ => 0) (inb : ∀ a, off a + S.size a ≤ S.size a) (w : S.Idx → Elt F e)
    (L : List (View.Piece (Elt F) S e)) :
    arg.view.read (Elt F) (arg.view.writes (Elt F) f (⟨Rect.unit (s := S) off S.size inb, w⟩ :: L)) = w := by
  subst hoff
  funext y
  have h := View.read_writes_cons_emb arg.view f (Rect.whole S) w L y
  rwa [Rect.emb_whole_apply] at h

/-- A load through the whole rectangle of a whole buffer held at `X` reads `X`. -/
theorem load_whole {S : Shape} {e : EltTy} (arg : Memref sig .tc .vmem S e) (harg : arg.IsWhole) (X : S.Idx → Elt F e)
    {off : Fin S.rank → ℕ} (hoff : off = fun _ => 0) (inb : ∀ a, off a + S.size a ≤ S.size a) :
    View.readAt (Elt F) arg.view (Rect.unit (s := S) off S.size inb).toLoadRect (harg.unread X) = X := by
  rw [View.readAt_eq_ld, harg.read_unread, View.ld_unit_zero hoff]

/-- One store through the whole rectangle leaves its payload, whatever the buffer held. -/
theorem read_whole_store {S : Shape} {e : EltTy} (arg : Memref sig .tc .vmem S e) (f : arg.view.ty.Contents (Elt F))
    {off : Fin S.rank → ℕ} (hoff : off = fun _ => 0) (inb : ∀ a, off a + S.size a ≤ S.size a) (w : S.Idx → Elt F e) :
    arg.view.read (Elt F) (arg.view.writes (Elt F) f [⟨Rect.unit (s := S) off S.size inb, w⟩]) = w := by
  subst hoff
  exact View.read_writes_whole arg.view f w

section First
variable (c : Dev nD) (t : Fin cfg0.N) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole)
  (hc0 : isFirst (grid0.coords t)) (hc1 : ¬isLater (grid0.coords t)) (hc2 : ¬isLast (grid0.coords t))
  (x0 : Vec F S1000x4096 .f32) (x1 : Vec F S4096x160 .bf16) (x2 : Vec F S1x160 .f32) (o l : Vec F S5000x80 .f32)

theorem first_out :
    arg4.view.read (Elt F) (arg4.view.writes (Elt F) (harg4.unread o) (runFirst c (grid0.coords t) arg1 harg1 arg2 harg2 arg3 harg3 arg4 harg4 arg5 harg5 arg6 harg6 arg7 harg7 hc0 hc1 hc2 x0 x1 x2 o l).1)
      = putRows o (1000 * t.val) (k0_pay4 x0 x1 x2) := by
  unfold runFirst; dsimp only
  rw [load_whole arg1 harg1 x0 zero2, load_whole arg2 harg2 x1 zero2, load_whole arg3 harg3 x2 zero2]
  exact read_rows_store arg4 harg4 o t _

theorem first_logits :
    arg5.view.read (Elt F) (arg5.view.writes (Elt F) (harg5.unread l) (runFirst c (grid0.coords t) arg1 harg1 arg2 harg2 arg3 harg3 arg4 harg4 arg5 harg5 arg6 harg6 arg7 harg7 hc0 hc1 hc2 x0 x1 x2 o l).2.1)
      = putRows l (1000 * t.val) (k0_pay5 x0 x1 x2) := by
  unfold runFirst; dsimp only
  rw [load_whole arg1 harg1 x0 zero2, load_whole arg2 harg2 x1 zero2, load_whole arg3 harg3 x2 zero2]
  exact read_rows_store arg5 harg5 l t _

theorem first_max (f : arg6.view.ty.Contents (Elt F)) :
    arg6.view.read (Elt F) (arg6.view.writes (Elt F) f (runFirst c (grid0.coords t) arg1 harg1 arg2 harg2 arg3 harg3 arg4 harg4 arg5 harg5 arg6 harg6 arg7 harg7 hc0 hc1 hc2 x0 x1 x2 o l).2.2.1)
      = k0_pay7 x0 x1 x2 := by
  unfold runFirst; dsimp only
  rw [load_whole arg1 harg1 x0 zero2, load_whole arg2 harg2 x1 zero2, load_whole arg3 harg3 x2 zero2]
  exact read_whole_store arg6 f zero2 _ _

theorem first_sum (f : arg7.view.ty.Contents (Elt F)) :
    arg7.view.read (Elt F) (arg7.view.writes (Elt F) f (runFirst c (grid0.coords t) arg1 harg1 arg2 harg2 arg3 harg3 arg4 harg4 arg5 harg5 arg6 harg6 arg7 harg7 hc0 hc1 hc2 x0 x1 x2 o l).2.2.2.1)
      = k0_pay8 x0 x1 x2 := by
  unfold runFirst; dsimp only
  rw [load_whole arg1 harg1 x0 zero2, load_whole arg2 harg2 x1 zero2, load_whole arg3 harg3 x2 zero2]
  exact read_whole_store arg7 f zero2 _ _
end First

section Later
variable (c : Dev nD) (t : Fin cfg0.N) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole)
  (hc0 : ¬isFirst (grid0.coords t)) (hc1 : isLater (grid0.coords t)) (hc2 : ¬isLast (grid0.coords t))
  (x0 : Vec F S1000x4096 .f32) (x1 : Vec F S4096x160 .bf16) (x2 : Vec F S1x160 .f32) (o l : Vec F S5000x80 .f32) (mx sm : Vec F S1x80 .f32)

theorem later_out :
    arg4.view.read (Elt F) (arg4.view.writes (Elt F) (harg4.unread o) (runLater c (grid0.coords t) arg1 harg1 arg2 harg2 arg3 harg3 arg4 harg4 arg5 harg5 arg6 harg6 arg7 harg7 hc0 hc1 hc2 x0 x1 x2 o l mx sm).1)
      = putRows o (1000 * t.val) (k0_pay4 x0 x1 x2) := by
  unfold runLater; dsimp only
  rw [load_whole arg1 harg1 x0 zero2, load_whole arg2 harg2 x1 zero2, load_whole arg3 harg3 x2 zero2]
  exact read_rows_store arg4 harg4 o t _

theorem later_logits :
    arg5.view.read (Elt F) (arg5.view.writes (Elt F) (harg5.unread l) (runLater c (grid0.coords t) arg1 harg1 arg2 harg2 arg3 harg3 arg4 harg4 arg5 harg5 arg6 harg6 arg7 harg7 hc0 hc1 hc2 x0 x1 x2 o l mx sm).2.1)
      = putRows l (1000 * t.val) (k0_pay5 x0 x1 x2) := by
  unfold runLater; dsimp only
  rw [load_whole arg1 harg1 x0 zero2, load_whole arg2 harg2 x1 zero2, load_whole arg3 harg3 x2 zero2]
  exact read_rows_store arg5 harg5 l t _

theorem later_max (f : arg6.view.ty.Contents (Elt F)) :
    arg6.view.read (Elt F) (arg6.view.writes (Elt F) f (runLater c (grid0.coords t) arg1 harg1 arg2 harg2 arg3 harg3 arg4 harg4 arg5 harg5 arg6 harg6 arg7 harg7 hc0 hc1 hc2 x0 x1 x2 o l mx sm).2.2.1)
      = k0_pay10 x0 x1 x2 mx := by
  unfold runLater; dsimp only
  rw [load_whole arg1 harg1 x0 zero2, load_whole arg2 harg2 x1 zero2, load_whole arg3 harg3 x2 zero2, load_whole arg6 harg6 mx zero2]
  exact read_whole_store arg6 f zero2 _ _

theorem later_sum (f : arg7.view.ty.Contents (Elt F)) :
    arg7.view.read (Elt F) (arg7.view.writes (Elt F) f (runLater c (grid0.coords t) arg1 harg1 arg2 harg2 arg3 harg3 arg4 harg4 arg5 harg5 arg6 harg6 arg7 harg7 hc0 hc1 hc2 x0 x1 x2 o l mx sm).2.2.2.1)
      = k0_pay11 x0 x1 x2 mx sm := by
  unfold runLater; dsimp only
  rw [load_whole arg1 harg1 x0 zero2, load_whole arg2 harg2 x1 zero2, load_whole arg3 harg3 x2 zero2, load_whole arg6 harg6 mx zero2, load_whole arg7 harg7 sm zero2]
  exact read_whole_store arg7 f zero2 _ _
end Later

section Last
variable (c : Dev nD) (t : Fin cfg0.N) (arg1 : Memref sig .tc .vmem S1000x4096 .f32) (harg1 : arg1.IsWhole) (arg2 : Memref sig .tc .vmem S4096x160 .bf16) (harg2 : arg2.IsWhole) (arg3 : Memref sig .tc .vmem S1x160 .f32) (harg3 : arg3.IsWhole) (arg4 : Memref sig .tc .vmem S5000x80 .f32) (harg4 : arg4.IsWhole) (arg5 : Memref sig .tc .vmem S5000x80 .f32) (harg5 : arg5.IsWhole) (arg6 : Memref sig .tc .vmem S1x80 .f32) (harg6 : arg6.IsWhole) (arg7 : Memref sig .tc .vmem S1x80 .f32) (harg7 : arg7.IsWhole)
  (hc0 : ¬isFirst (grid0.coords t)) (hc1 : isLater (grid0.coords t)) (hc2 : isLast (grid0.coords t))
  (x0 : Vec F S1000x4096 .f32) (x1 : Vec F S4096x160 .bf16) (x2 : Vec F S1x160 .f32) (o l : Vec F S5000x80 .f32) (mx sm : Vec F S1x80 .f32)

theorem last_logits :
    arg5.view.read (Elt F) (arg5.view.writes (Elt F) (harg5.unread l) (runLast c (grid0.coords t) arg1 harg1 arg2 harg2 arg3 harg3 arg4 harg4 arg5 harg5 arg6 harg6 arg7 harg7 hc0 hc1 hc2 x0 x1 x2 o l mx sm).2.1)
      = putRows l (1000 * t.val) (k0_pay5 x0 x1 x2) := by
  unfold runLast; dsimp only; unfold runLast.sl.HL_1
  rw [load_whole arg1 harg1 x0 zero2, load_whole arg2 harg2 x1 zero2, load_whole arg3 harg3 x2 zero2]
  exact read_rows_store arg5 harg5 l t _

theorem last_max (f : arg6.view.ty.Contents (Elt F)) :
    arg6.view.read (Elt F) (arg6.view.writes (Elt F) f (runLast c (grid0.coords t) arg1 harg1 arg2 harg2 arg3 harg3 arg4 harg4 arg5 harg5 arg6 harg6 arg7 harg7 hc0 hc1 hc2 x0 x1 x2 o l mx sm).2.2.1)
      = k0_pay10 x0 x1 x2 mx := by
  unfold runLast; dsimp only; unfold runLast.sl.HM_1
  rw [load_whole arg1 harg1 x0 zero2, load_whole arg2 harg2 x1 zero2, load_whole arg3 harg3 x2 zero2, load_whole arg6 harg6 mx zero2]
  exact read_whole_store arg6 f zero2 _ _

theorem last_sum (f : arg7.view.ty.Contents (Elt F)) :
    arg7.view.read (Elt F) (arg7.view.writes (Elt F) f (runLast c (grid0.coords t) arg1 harg1 arg2 harg2 arg3 harg3 arg4 harg4 arg5 harg5 arg6 harg6 arg7 harg7 hc0 hc1 hc2 x0 x1 x2 o l mx sm).2.2.2.1)
      = k0_pay11 x0 x1 x2 mx sm := by
  unfold runLast; dsimp only; unfold runLast.sl.HS_1
  rw [load_whole arg1 harg1 x0 zero2, load_whole arg2 harg2 x1 zero2, load_whole arg3 harg3 x2 zero2, load_whole arg6 harg6 mx zero2, load_whole arg7 harg7 sm zero2]
  exact read_whole_store arg7 f zero2 _ _

/-- At the last point the output's staging buffer ends at the final normalisation of: its earlier contents with the
    last block's rows replaced by the block's class softmax, the logits scratch likewise with the block's logits, and
    the updated running maximum and sum. -/
theorem last_out :
    arg4.view.read (Elt F) (arg4.view.writes (Elt F) (harg4.unread o) (runLast c (grid0.coords t) arg1 harg1 arg2 harg2 arg3 harg3 arg4 harg4 arg5 harg5 arg6 harg6 arg7 harg7 hc0 hc1 hc2 x0 x1 x2 o l mx sm).1)
      = k0_pay1 (k0_pay10 x0 x1 x2 mx) (k0_pay11 x0 x1 x2 mx sm) (putRows o (1000 * t.val) (k0_pay4 x0 x1 x2)) (putRows l (1000 * t.val) (k0_pay5 x0 x1 x2)) := by
  unfold runLast; dsimp only
  unfold runLast.sl.v38 runLast.sl.v39 runLast.sl.v40 runLast.sl.v42 runLast.sl.H3_1 runLast.sl.HL_1 runLast.sl.HM_1 runLast.sl.HS_1
  rw [read_whole_store_cons arg4 _ zero2]
  rw [load_whole arg1 harg1 x0 zero2, load_whole arg2 harg2 x1 zero2, load_whole arg3 harg3 x2 zero2, load_whole arg6 harg6 mx zero2, load_whole arg7 harg7 sm zero2]
  rw [View.readCov_unit_zero arg6.view zero2, View.readCov_unit_zero arg7.view zero2]
  rw [load_whole_of arg4 _ _ (read_rows_store arg4 harg4 o t _) zero2, load_whole_of arg5 _ _ (read_rows_store arg5 harg5 l t _) zero2]
end Last

end Cert.KernelIdeal.Hand

end
-- ==== Proof.IdealData.lean ====
/-
  The proof data of the one region, at any float instance. Point j of the five handles rows [1000 j, 1000 j + 1000).
  After point j the logits scratch holds the true detection logits on the rows of blocks 0..j, the running column
  maximum and sum are what the online update has made of blocks 0..j, and the output's staging buffer is what it was
  before the point with block j's rows replaced by the block's class softmax; the last point then rescales the whole
  buffer. The output's staging buffer starts at unknown contents and is only partly overwritten at each point, so
  what the body leaves there is stated as a relation to what it was handed.
-/
import proofs.«125353_g55722905698378_cont_9to1_m_658_15_alg».proof.Proof.IdealPieces
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three input blocks at a point: 1000 rows of the features, the two heads' weights side by side, their biases. -/
abbrev bX (c : Dev nD) (t : Fin cfg0.N) : Vec F S1000x4096 .f32 := iblk m c 0 t
abbrev bW (c : Dev nD) (t : Fin cfg0.N) : Vec F S4096x160 .bf16 := iblk m c 1 t
abbrev bB (c : Dev nD) (t : Fin cfg0.N) : Vec F S1x160 .f32 := iblk m c 2 t

/-- The class softmax of block `t`'s rows, and the block's detection logits. -/
def cBlk (c : Dev nD) (t : Fin cfg0.N) : S1000x80.Idx → Elt F .f32 := k0_pay4 (bX m c t) (bW m c t) (bB m c t)
def lBlk (c : Dev nD) (t : Fin cfg0.N) : S1000x80.Idx → Elt F .f32 := k0_pay5 (bX m c t) (bW m c t) (bB m c t)

/-- The running column maximum and the running column sum after point `n`: started at the first point, updated at
    each later one from the pair the point before left. -/
def runMS (c : Dev nD) : (n : ℕ) → n < cfg0.N → (S1x80.Idx → Elt F .f32) × (S1x80.Idx → Elt F .f32)
  | 0, h => (k0_pay7 (bX m c ⟨0, h⟩) (bW m c ⟨0, h⟩) (bB m c ⟨0, h⟩), k0_pay8 (bX m c ⟨0, h⟩) (bW m c ⟨0, h⟩) (bB m c ⟨0, h⟩))
  | n + 1, h =>
    (k0_pay10 (bX m c ⟨n + 1, h⟩) (bW m c ⟨n + 1, h⟩) (bB m c ⟨n + 1, h⟩) (runMS c n (Nat.lt_of_succ_lt h)).1,
     k0_pay11 (bX m c ⟨n + 1, h⟩) (bW m c ⟨n + 1, h⟩) (bB m c ⟨n + 1, h⟩) (runMS c n (Nat.lt_of_succ_lt h)).1 (runMS c n (Nat.lt_of_succ_lt h)).2)

theorem runMS_first (c : Dev nD) (t : Fin cfg0.N) (ht : t.val = 0) :
    runMS m c t.val t.isLt = (k0_pay7 (bX m c t) (bW m c t) (bB m c t), k0_pay8 (bX m c t) (bW m c t) (bB m c t)) := by
  obtain ⟨n, hn⟩ := t
  cases n with
  | zero => rfl
  | succ n => exact absurd ht (Nat.succ_ne_zero n)

theorem runMS_later (c : Dev nD) (t : Fin cfg0.N) (ht : t.val ≠ 0) :
    runMS m c t.val t.isLt =
      (k0_pay10 (bX m c t) (bW m c t) (bB m c t) (runMS m c (t.val - 1) (Nat.lt_of_le_of_lt (Nat.sub_le _ _) t.isLt)).1,
       k0_pay11 (bX m c t) (bW m c t) (bB m c t) (runMS m c (t.val - 1) (Nat.lt_of_le_of_lt (Nat.sub_le _ _) t.isLt)).1
         (runMS m c (t.val - 1) (Nat.lt_of_le_of_lt (Nat.sub_le _ _) t.isLt)).2) := by
  obtain ⟨n, hn⟩ := t
  cases n with
  | zero => exact absurd rfl ht
  | succ n => rfl

theorem runM_first (c : Dev nD) (t : Fin cfg0.N) (ht : t.val = 0) :
    (runMS m c t.val t.isLt).1 = k0_pay7 (bX m c t) (bW m c t) (bB m c t) := by rw [runMS_first m c t ht]
theorem runS_first (c : Dev nD) (t : Fin cfg0.N) (ht : t.val = 0) :
    (runMS m c t.val t.isLt).2 = k0_pay8 (bX m c t) (bW m c t) (bB m c t) := by rw [runMS_first m c t ht]
theorem runM_later (c : Dev nD) (t : Fin cfg0.N) (ht : t.val ≠ 0) :
    (runMS m c t.val t.isLt).1 = k0_pay10 (bX m c t) (bW m c t) (bB m c t) (runMS m c (t.val - 1) (Nat.lt_of_le_of_lt (Nat.sub_le _ _) t.isLt)).1 := by
  rw [runMS_later m c t ht]
theorem runS_later (c : Dev nD) (t : Fin cfg0.N) (ht : t.val ≠ 0) :
    (runMS m c t.val t.isLt).2 = k0_pay11 (bX m c t) (bW m c t) (bB m c t) (runMS m c (t.val - 1) (Nat.lt_of_le_of_lt (Nat.sub_le _ _) t.isLt)).1
      (runMS m c (t.val - 1) (Nat.lt_of_le_of_lt (Nat.sub_le _ _) t.isLt)).2 := by
  rw [runMS_later m c t ht]

/-- The detection logits of all 5000 rows: row `r` is row `r % 1000` of block `r / 1000`. -/
def lAll (c : Dev nD) : Vec F S5000x80 .f32 := fun y =>
  lBlk m c ⟨(y (0 : Fin 2)).val / 1000, by
      have h : (y (0 : Fin 2)).val < 5000 := (y (0 : Fin 2)).isLt
      have h5 : cfg0.N = 5 := N_0
      rw [h5]; omega⟩
    (ValueIdx.ix2 ⟨(y (0 : Fin 2)).val % 1000, Nat.mod_lt _ (by omega)⟩ (y (1 : Fin 2)))

/-- The logits scratch holds the true logits on the rows of the first `n` blocks. -/
def logitsUpTo (c : Dev nD) (n : ℕ) (l : Vec F S5000x80 .f32) : Prop :=
  ∀ y : S5000x80.Idx, (y (0 : Fin 2)).val < 1000 * n → l y = lAll m c y

/-- Storing block `t`'s logits extends the rows on which the scratch holds the true logits by that block. -/
theorem logitsUpTo_put (c : Dev nD) (t : Fin cfg0.N) (l : Vec F S5000x80 .f32) (h : logitsUpTo m c t.val l) :
    logitsUpTo m c (t.val + 1) (putRows l (1000 * t.val) (lBlk m c t)) := by
  intro y hy
  unfold putRows
  by_cases hr : 1000 * t.val ≤ (y (0 : Fin 2)).val ∧ (y (0 : Fin 2)).val < 1000 * t.val + 1000
  · rw [dif_pos hr]
    unfold lAll
    have ht : (⟨(y (0 : Fin 2)).val / 1000, by
        have h : (y (0 : Fin 2)).val < 5000 := (y (0 : Fin 2)).isLt
        have h5 : cfg0.N = 5 := N_0
        rw [h5]; omega⟩ : Fin cfg0.N) = t := Fin.ext (by show (y (0 : Fin 2)).val / 1000 = t.val; omega)
    rw [ht]
    congr 1
    funext a
    match a with
    | ⟨0, _⟩ => exact Fin.ext (by show (y (0 : Fin 2)).val - 1000 * t.val = (y (0 : Fin 2)).val % 1000; omega)
    | ⟨1, _⟩ => exact Fin.ext (by show (y (1 : Fin 2)).val - 0 = (y (1 : Fin 2)).val; omega)
  · rw [dif_neg hr]
    exact h y (by omega)

/-- What the output's staging buffer holds after point `t` if it held `Y` before: the block's rows replaced by the
    block's class softmax, and at the last point the final normalisation of that by the stashed logits of all rows
    and the final running maximum and sum. -/
def outStep (c : Dev nD) (t : Fin cfg0.N) (Y : Vec F S5000x80 .f32) : Vec F S5000x80 .f32 :=
  if t.val = 4 then
    k0_pay1 (runMS m c t.val t.isLt).1 (runMS m c t.val t.isLt).2 (putRows Y (1000 * t.val) (cBlk m c t)) (lAll m c)
  else putRows Y (1000 * t.val) (cBlk m c t)

/-- The region invariant before position `n`: at the start the three scratch buffers at anything; afterwards the
    logits scratch at contents that are the true logits on the rows of the blocks done, the running maximum and sum
    at what the point before left. -/
def Inv (c : Dev nD) : (n : ℕ) → n ≤ cfg0.N → sProp 𝕄
  | 0, _ => Pipeline.ΦA spec0 c
  | n + 1, hn => iprop(iprop((∃ l, ⌜logitsUpTo m c (n + 1) l⌝ ∗ owns (c : Thread nD τ) scL fullShare l) ∗ owns (c : Thread nD τ) scM fullShare (runMS m c n hn).1 ∗ owns (c : Thread nD τ) scS fullShare (runMS m c n hn).2) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop((∃ l, ⌜logitsUpTo m c (n + 1) l⌝ ∗ owns (c : Thread nD τ) scL fullShare l) ∗ owns (c : Thread nD τ) scM fullShare (runMS m c n hn).1 ∗ owns (c : Thread nD τ) scS fullShare (runMS m c n hn).2) ∗ (∃ r, prngReg c r)) := rfl

theorem Inv_pos (c : Dev nD) (n : ℕ) (h : n ≤ cfg0.N) (hz : n ≠ 0) :
    Inv m c n h = iprop(iprop((∃ l, ⌜logitsUpTo m c n l⌝ ∗ owns (c : Thread nD τ) scL fullShare l) ∗ owns (c : Thread nD τ) scM fullShare (runMS m c (n - 1) (by omega)).1 ∗ owns (c : Thread nD τ) scS fullShare (runMS m c (n - 1) (by omega)).2) ∗ (∃ r, prngReg c r)) := by
  cases n with
  | zero => exact absurd rfl hz
  | succ n => rfl

/-- The exact part of the proof data: the arrays as the region finds them, each input window's buffer at its block
    after the body, the invariant above, full shares, nothing owed. (What the output window's buffer holds is stated
    by the relation below, not here.) -/
def exact (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := Inv m c t.val (Nat.le_of_lt_succ t.isLt)
  q _ := fullShare
  owed _ := 0

/-- The output window's relation: what the body leaves is `outStep` of what it was handed. -/
def outRel (c : Dev nD) (t : Fin cfg0.N) (Y X : (cfg0.win 3).block.Idx → Elt F (cfg0.win 3).elt) : Prop :=
  X = outStep m c t Y

/-- The proof data: exact for the three input windows, relational for the output window. -/
def rel (c : Dev nD) : Pipeline.RDat τ (Elt F) Unit ℕ (UR sig nD τ) ℕ cfg0 c :=
  (exact m c).toR.override fun w => match w with
    | ⟨3, _⟩ => some (outRel m c)
    | _ => none

end Cert.KernelIdeal.Hand

end
-- ==== Proof.IdealObligation.lean ====
/-
  The body obligation, the run and the frame of the one region, at any float instance, and what the output array
  holds at the end. At each point the body is the run of its case (first, later, last) on the three input blocks and
  on the output's staging buffer at whatever it held; the invariant hands it the logits scratch and the running maximum
  and sum as the point before left them and takes them back as this point leaves them. The output window is written
  back once, after the last point, so the output array ends at the five points' steps composed, applied to whatever
  the staging buffer held at the start.
-/
import proofs.«125353_g55722905698378_cont_9to1_m_658_15_alg».proof.Proof.IdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant at a point's start, at the point's position. -/
theorem Inv_castSucc (c : Dev nD) (t : Fin cfg0.N) :
    (exact m c).Φ t.castSucc = Inv m c t.val (Nat.le_of_lt t.isLt) := by
  dsimp only [exact]; simp only [Fin.coe_castSucc]

/-- Once all five blocks are stored the logits scratch holds the true logits on every row. -/
theorem logits_full (c : Dev nD) (t : Fin cfg0.N) (ht : t.val = 4) (l : Vec F S5000x80 .f32) (h : logitsUpTo m c t.val l) :
    putRows l (1000 * t.val) (lBlk m c t) = lAll m c :=
  funext fun y => logitsUpTo_put m c t l h y (by have : (y (0 : Fin 2)).val < 5000 := (y (0 : Fin 2)).isLt; omega)

set_option maxHeartbeats 4800000 in
/-- The body at any point, on the three input blocks and on the output's staging buffer at any contents `o`: from the
    invariant before the point it runs to the invariant after it, the inputs as they were, and the output's staging
    buffer at `outStep` of `o`. By cases on the point: first, later, last. -/
theorem sound_body (c : Dev nD) (t : Fin cfg0.N) (o : Vec F S5000x80 .f32) :
    iprop((exact m c).Φ t.castSucc ∗ (exact m c).owesAt () t.castSucc
        ∗ owns (c : Thread nD τ) (mX t) fullShare (iblk m c 0 t) ∗ owns (c : Thread nD τ) (mW t) fullShare (iblk m c 1 t)
        ∗ owns (c : Thread nD τ) (mB t) fullShare (iblk m c 2 t) ∗ owns (c : Thread nD τ) (mO t) fullShare o)
      ⊢ wp frame (wpE (defs₀ (F := F)) Variants.none c none) Set.univ (bodyAt0 t) (fun _ =>
          iprop((exact m c).Φ t.succ ∗ (exact m c).owesAt () t.succ
            ∗ owns (c : Thread nD τ) (mX t) fullShare (iblk m c 0 t) ∗ owns (c : Thread nD τ) (mW t) fullShare (iblk m c 1 t)
            ∗ owns (c : Thread nD τ) (mB t) fullShare (iblk m c 2 t) ∗ owns (c : Thread nD τ) (mO t) fullShare (outStep m c t o))) := by
  unfold bodyAt0
  rw [show (exact m c).owesAt () t.succ = (exact m c).owesAt () t.castSucc from rfl]
  rw [show (exact m c).Φ t.succ = Inv m c (t.val + 1) t.isLt from rfl, Inv_succ]
  have hN : t.val < 5 := lt_of_lt_of_eq t.isLt (show cfg0.N = 5 from N_0)
  by_cases hz : t.val = 0
  · have hc0 : isFirst (grid0.coords t) := (isFirst_iff t).mpr hz
    have hc1 : ¬isLater (grid0.coords t) := fun h => by have := (isLater_iff t).mp h; omega
    have hc2 : ¬isLast (grid0.coords t) := fun h => by have := (isLast_iff t).mp h; omega
    rw [Inv_castSucc m c t, Inv_zero m c _ _ hz, PhiA_eq, runM_first m c t hz, runS_first m c t hz]
    iintro ⟨⟨⟨⟨%l0, HL⟩, HM, HS⟩, Hg⟩, Ho, H0, H1, H2, H3⟩
    iapply ((runFirst c (grid0.coords t) (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0).2.2.2.2 Set.univ _)
    isplitl [H0]; · iexact H0
    isplitl [H1]; · iexact H1
    isplitl [H2]; · iexact H2
    isplitl [H3]; · iexact H3
    isplitl [HL]; · iexact HL
    isplitl [HM]; · iexact HM
    isplitl [HS]; · iexact HS
    iintro ⟨H0, H1, H2, H3, HL, ⟨%fm, HM⟩, ⟨%fs, HS⟩⟩
    isplitl [HL HM HS Hg]
    · isplitl [HL HM HS]
      · isplitl [HL]
        · iexists (putRows l0 (1000 * t.val) (lBlk m c t)); isplitr
          · ipureintro; exact logitsUpTo_put m c t l0 (fun y hy => by omega)
          · unfold owns; iexists _; isplitr
            swap; · iexact HL
            ipureintro; exact first_logits c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0
        isplitl [HM]
        · unfold owns; iexists _; isplitr
          swap; · iexact HM
          ipureintro; exact first_max c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 fm
        unfold owns; iexists _; isplitr
        swap; · iexact HS
        ipureintro; exact first_sum c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 fs
      iexact Hg
    isplitl [Ho]; · iexact Ho
    isplitl [H0]; · iexact H0
    isplitl [H1]; · iexact H1
    isplitl [H2]; · iexact H2
    unfold owns; iexists _; isplitr
    swap; · iexact H3
    ipureintro
    refine (first_out c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0).trans ?_
    unfold outStep; rw [if_neg (by omega)]; rfl
  · have hc0 : ¬isFirst (grid0.coords t) := fun h => hz ((isFirst_iff t).mp h)
    have hc1 : isLater (grid0.coords t) := (isLater_iff t).mpr (by omega)
    rw [Inv_castSucc m c t, Inv_pos m c _ _ hz, runM_later m c t hz, runS_later m c t hz]
    by_cases h4 : t.val = 4
    · have hc2 : isLast (grid0.coords t) := (isLast_iff t).mpr h4
      iintro ⟨⟨⟨⟨%l0, %hl0, HL⟩, HM, HS⟩, Hg⟩, Ho, H0, H1, H2, H3⟩
      iapply ((runLast c (grid0.coords t) (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).2.2.2.2 Set.univ _)
      isplitl [H0]; · iexact H0
      isplitl [H1]; · iexact H1
      isplitl [H2]; · iexact H2
      isplitl [H3]; · iexact H3
      isplitl [HL]; · iexact HL
      isplitl [HM]; · iexact HM
      isplitl [HS]; · iexact HS
      iintro ⟨H0, H1, H2, H3, HL, ⟨%fm, HM⟩, ⟨%fs, HS⟩⟩
      isplitl [HL HM HS Hg]
      · isplitl [HL HM HS]
        · isplitl [HL]
          · iexists (putRows l0 (1000 * t.val) (lBlk m c t)); isplitr
            · ipureintro; exact logitsUpTo_put m c t l0 hl0
            · unfold owns; iexists _; isplitr
              swap; · iexact HL
              ipureintro; exact last_logits c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _
          isplitl [HM]
          · unfold owns; iexists _; isplitr
            swap; · iexact HM
            ipureintro; exact last_max c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fm
          unfold owns; iexists _; isplitr
          swap; · iexact HS
          ipureintro; exact last_sum c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fs
        iexact Hg
      isplitl [Ho]; · iexact Ho
      isplitl [H0]; · iexact H0
      isplitl [H1]; · iexact H1
      isplitl [H2]; · iexact H2
      unfold owns; iexists _; isplitr
      swap; · iexact H3
      ipureintro
      refine (last_out c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).trans ?_
      unfold outStep; rw [if_pos h4, runM_later m c t hz, runS_later m c t hz, ← logits_full m c t h4 l0 hl0]; rfl
    · have hc2 : ¬isLast (grid0.coords t) := fun h => h4 ((isLast_iff t).mp h)
      iintro ⟨⟨⟨⟨%l0, %hl0, HL⟩, HM, HS⟩, Hg⟩, Ho, H0, H1, H2, H3⟩
      iapply ((runLater c (grid0.coords t) (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).2.2.2.2 Set.univ _)
      isplitl [H0]; · iexact H0
      isplitl [H1]; · iexact H1
      isplitl [H2]; · iexact H2
      isplitl [H3]; · iexact H3
      isplitl [HL]; · iexact HL
      isplitl [HM]; · iexact HM
      isplitl [HS]; · iexact HS
      iintro ⟨H0, H1, H2, H3, HL, ⟨%fm, HM⟩, ⟨%fs, HS⟩⟩
      isplitl [HL HM HS Hg]
      · isplitl [HL HM HS]
        · isplitl [HL]
          · iexists (putRows l0 (1000 * t.val) (lBlk m c t)); isplitr
            · ipureintro; exact logitsUpTo_put m c t l0 hl0
            · unfold owns; iexists _; isplitr
              swap; · iexact HL
              ipureintro; exact later_logits c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _
          isplitl [HM]
          · unfold owns; iexists _; isplitr
            swap; · iexact HM
            ipureintro; exact later_max c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fm
          unfold owns; iexists _; isplitr
          swap; · iexact HS
          ipureintro; exact later_sum c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _ fs
        iexact Hg
      isplitl [Ho]; · iexact Ho
      isplitl [H0]; · iexact H0
      isplitl [H1]; · iexact H1
      isplitl [H2]; · iexact H2
      unfold owns; iexists _; isplitr
      swap; · iexact H3
      ipureintro
      refine (later_out c t (mX t) (hX t) (mW t) (hW t) (mB t) (hB t) (mO t) (hO t) scL (Memref.isWhole_whole _) scM (Memref.isWhole_whole _) scS (Memref.isWhole_whole _) hc0 hc1 hc2 (iblk m c 0 t) (iblk m c 1 t) (iblk m c 2 t) o l0 _ _).trans ?_
      unfold outStep; rw [if_neg h4]; rfl

/-- Each input window's buffer is found at its block at every point. -/
theorem found0 (c : Dev nD) (t : Fin cfg0.N) (Y) (h : (rel m c).Finds 0 t Y) : Y = iblk m c 0 t := by
  obtain ⟨d, rfl⟩ := (exact m c).toR_finds 0 t Y (((exact m c).toR.override_finds rfl t Y).mp h)
  exact before0_0_of m (exact m c) rfl (fun _ => rfl) t d
theorem found1 (c : Dev nD) (t : Fin cfg0.N) (Y) (h : (rel m c).Finds 1 t Y) : Y = iblk m c 1 t := by
  obtain ⟨d, rfl⟩ := (exact m c).toR_finds 1 t Y (((exact m c).toR.override_finds rfl t Y).mp h)
  exact before0_1_of m (exact m c) rfl (fun _ => rfl) t d
theorem found2 (c : Dev nD) (t : Fin cfg0.N) (Y) (h : (rel m c).Finds 2 t Y) : Y = iblk m c 2 t := by
  obtain ⟨d, rfl⟩ := (exact m c).toR_finds 2 t Y (((exact m c).toR.override_finds rfl t Y).mp h)
  exact before0_2_of m (exact m c) rfl (fun _ => rfl) t d

/-- and is left there. -/
theorem left0 (c : Dev nD) (t : Fin cfg0.N) (Y) : (rel m c).after 0 t Y (iblk m c 0 t) :=
  (Dat.Leaves.live_iff (exact m c) (.inl rfl)).mpr rfl
theorem left1 (c : Dev nD) (t : Fin cfg0.N) (Y) : (rel m c).after 1 t Y (iblk m c 1 t) :=
  (Dat.Leaves.live_iff (exact m c) (.inl rfl)).mpr rfl
theorem left2 (c : Dev nD) (t : Fin cfg0.N) (Y) : (rel m c).after 2 t Y (iblk m c 2 t) :=
  (Dat.Leaves.live_iff (exact m c) (.inl rfl)).mpr rfl

/-- The body obligation of the relational data, at every point. -/
theorem body_ok (c : Dev nD) : (rel m c).BodyObligation (defs₀ (F := F)) Variants.none () Set.univ := fun t Y hY => by
  have h0 := found0 m c t (Y 0) (hY 0)
  have h1 := found1 m c t (Y 1) (hY 1)
  have h2 := found2 m c t (Y 2) (hY 2)
  rw [bigSep_W0, bigSep_W0, h0, h1, h2]
  refine (sound_body m c t (Y 3)).trans (wp_mono _ _ _ fun _ => ?_)
  rw [show (rel m c).Φ t.succ = (exact m c).Φ t.succ from rfl, show (rel m c).owesAt () t.succ = (exact m c).owesAt () t.succ from rfl]
  iintro ⟨HΦ, Ho, H0, H1, H2, H3⟩
  isplitl [HΦ]; · iexact HΦ
  isplitl [Ho]; · iexact Ho
  isplitl [H0]
  · iexists _; isplitr
    swap; · iexact H0
    ipureintro; exact left0 m c t _
  isplitl [H1]
  · iexists _; isplitr
    swap; · iexact H1
    ipureintro; exact left1 m c t _
  isplitl [H2]
  · iexists _; isplitr
    swap; · iexact H2
    ipureintro; exact left2 m c t _
  iexists _; isplitr
  swap; · iexact H3
  ipureintro; exact rfl

theorem inv_in (c : Dev nD) : Pipeline.ΦA spec0 c ⊢ (rel m c).Φ 0 := by
  rw [show (rel m c).Φ 0 = Inv m c 0 (Nat.zero_le _) from rfl, Inv_zero m c 0 _ rfl]
  try exact Idealize.SL.BI.Entails.refl _

theorem inv_out (c : Dev nD) : (rel m c).Φ (Fin.last cfg0.N) ⊢ Pipeline.ΦA spec0 c := by
  rw [show (rel m c).Φ (Fin.last cfg0.N) = Inv m c (Fin.last cfg0.N).val (Nat.le_of_lt_succ (Fin.last cfg0.N).isLt) from rfl,
    Inv_pos m c _ _ (by rw [Fin.val_last]; have : cfg0.N = 5 := N_0; omega), PhiA_eq]
  iintro ⟨⟨⟨%l, %hl, HL⟩, HM, HS⟩, Hg⟩
  isplitl [HL HM HS]
  · isplitl [HL]
    · iexists _; iexact HL
    isplitl [HM]
    · iexists _; iexact HM
    iexists _; iexact HS
  iexact Hg

set_option backward.isDefEq.respectTransparency.types false in
/-- Every weakly fair execution of the program terminates; the input arrays end unchanged, the output array in the
    relation the data state to its entry contents, every other unscoped buffer at its region-entry contents. -/
theorem run_main : θ_run defs (onTc (τ := τ) (main (F := F))) (s₀ m ρ) (Pipeline.RDat.FramePost (cfgs 0) (fun c => rel m c) (V m)) :=
  Pipeline.RDat.θ_run_frame_track cfgs (0 : Fin 1) launch0 defs₀ Variants.none (fun c => rel m c) m ρ main
    (hbody := fun c => body_ok m c) (hshare := fun c => (rel m c).share_full fun _ => rfl)
    (howed := fun _ _ => rfl) (V := V m) (hmain := hmain m Variants.none) (hA := fun _ _ => rfl) (hin := inv_in m) (hout := inv_out m)

/-- The frame: the five argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Eq.mp (congrFun ((rel m c).ArrAt_in 0 rfl _) _) ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The output window fetches nothing, and is written back at the last point only. -/
theorem out_fetch : ∀ t : Fin cfg0.N, (cfg0.win 3).fetch t = false :=
  (by decide +kernel : ∀ t : Fin grid0.N, win0_3.fetch t = false)
/-- Its block is the whole array: the block index is 0 on both axes at every point. -/
theorem out_index : ∀ (t : Fin cfg0.N) (a : Fin 2), win0_3.index t a = 0 :=
  (by decide +kernel : ∀ (t : Fin grid0.N) (a : Fin 2), win0_3.index t a = 0)

theorem leaves_first (c : Dev nD) (t : Fin cfg0.N) (X) (h : (rel m c).Leaves 3 t X) : ∃ Y, X = outStep m c t Y := by
  obtain ⟨Y, -, hA⟩ := h
  exact ⟨Y, hA⟩

theorem leaves_later (c : Dev nD) (t : Fin cfg0.N) (ht : t.val ≠ 0) (X) (h : (rel m c).Leaves 3 t X) :
    ∃ Y, (rel m c).Leaves 3 ⟨t.val - 1, Nat.lt_of_le_of_lt (Nat.sub_le _ _) t.isLt⟩ Y ∧ X = outStep m c t Y := by
  obtain ⟨Y, hF, hA⟩ := h
  rcases ((rel m c).finds_of_pos (out_fetch t) ht Y).mp hF with hfl | hL
  · exfalso
    have h4 := (flush0_3 ⟨t.val - 1, Nat.lt_of_le_of_lt (Nat.sub_le _ _) t.isLt⟩).mp hfl
    have hN : t.val < 5 := lt_of_lt_of_eq t.isLt (show cfg0.N = 5 from N_0)
    have h4' : (t.val - 1) % 5 = 4 := h4
    omega
  · exact ⟨Y, hL, hA⟩

/-- The five points' steps composed, from whatever the output's staging buffer held at the start. -/
def chainOut (c : Dev nD) (Y0 : Vec F S5000x80 .f32) : Vec F S5000x80 .f32 :=
  outStep m c t0_4 (outStep m c t0_3 (outStep m c t0_2 (outStep m c t0_1 (outStep m c t0_0 Y0))))

/-- Writing the whole-array block back leaves the array at what was written. -/
theorem write_whole_block (c : Dev nD) (t : Fin cfg0.N) (G₀ : Buf (Elt F) ((cfg0.win 3).arr.view.loc (c.tc : Thread nD τ)))
    (X : (cfg0.win 3).block.Idx → Elt F (cfg0.win 3).elt) :
    ((cfg0.win 3).blk t).view.write (Elt F) G₀ ((cfg0.win 3).cut (cfg0.grid.coords t) X) Finset.univ = X := by
  funext i
  have hi : ((cfg0.win 3).blk t).view.emb i = i := funext fun a => Fin.ext (by
    show win0_3.index t a * S5000x80.size a + 1 * (i a).val = (i a).val
    rw [out_index t a]; omega)
  conv_lhs => rw [← hi]
  rw [View.write_emb_of_mem _ _ (Finset.mem_univ _)]
  rfl

/-- What the output array may hold after the run: the five steps composed, from some starting contents. -/
theorem final_array (c : Dev nD) (G : Buf (Elt F) ((cfg0.win 3).arr.view.loc (c.tc : Thread nD τ)))
    (h : (rel m c).ArrAt 3 cfg0.N G) : ∃ Y0 : Vec F S5000x80 .f32, G = chainOut m c Y0 := by
  have e : cfg0.N = t0_4.val + 1 := N_0
  rw [e, Pipeline.RDat.ArrAt_succ (rel m c) 3 t0_4, if_pos ((flush0_3 t0_4).mpr rfl)] at h
  obtain ⟨G₀, X, -, hX, rfl⟩ := h
  obtain ⟨Y4, h3, rfl⟩ := leaves_later m c t0_4 (by decide) X hX
  obtain ⟨Y3, h2, rfl⟩ := leaves_later m c _ (by decide) Y4 h3
  obtain ⟨Y2, h1, rfl⟩ := leaves_later m c _ (by decide) Y3 h2
  obtain ⟨Y1, h0, rfl⟩ := leaves_later m c _ (by decide) Y2 h1
  obtain ⟨Y0, rfl⟩ := leaves_first m c _ Y1 h0
  exact ⟨Y0, write_whole_block c t0_4 G₀ _⟩

end Cert.KernelIdeal.Hand

end
-- ==== Proof.IdealPayloads.lean ====
/-
  The kernel body's arithmetic, read one element at a time over the extended reals: each payload of the
  kernel's skeleton (the pure value a store writes, as a function of the vectors loaded before it) at an index
  given by its coordinates. The fused product of the row block with the two concatenated heads is a sum over
  the 4096 features plus the bias; its left 80 columns feed the per-row softmax over classes, its right 80
  columns the running column maximum and the running column sum of exponentials; the last payload multiplies
  the stored row softmax by the normalised column exponential.
-/
import proofs.«125353_g55722905698378_cont_9to1_m_658_15_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.Wsddn.Pay

open Cert.KernelIdeal Cert.KernelIdeal.Gen Idealize.ShloMosaic Idealize.SL.Sem Idealize.ShloMosaic.ValueIdx

variable (x0 : Vec Ideal S1000x4096 .f32) (x1 : Vec Ideal S4096x160 .bf16) (x2 : Vec Ideal S1x160 .f32)

/-- The final store: the stored row softmax times the column exponential over the column sum. -/
theorem pay1_apply (v38 v39 : Vec Ideal S1x80 .f32) (v40 v42 : Vec Ideal S5000x80 .f32) (r : Fin 5000) (q : Fin 80) :
    k0_pay1 (F := Ideal) v38 v39 v40 v42 (ix2 r q)
      = v40 (ix2 r q) * Ideal.div (Ideal.exp (v42 (ix2 r q) - v38 (ix2 (0 : Fin 1) q))) (v39 (ix2 (0 : Fin 1) q)) := by
  unfold k0_pay1
  show (shapeCast S5000x80 v40 _ (ix2 r q)) * Ideal.div (Ideal.exp (v42 (ix2 r q) - broadcastTo S5000x80 v38 _ (ix2 r q))) (broadcastTo S5000x80 v39 _ (ix2 r q)) = _
  rw [shapeCast_self, broadcastTo_1b_ab_apply, broadcastTo_1b_ab_apply]

/-- The detection half of the logits is columns 80 … 159 of the fused product. -/
theorem pay3_apply (p : Fin 1000) (q : Fin 80) :
    k0_pay3 (F := Ideal) x0 x1 x2 (ix2 p q) = k0_pay2 (F := Ideal) x0 x1 x2 (ix2 p (⟨80 + q.val, by omega⟩ : Fin 160)) := by
  unfold k0_pay3
  refine extractStridedSlice_apply _ _ _ _ _ fun a => ?_
  match a with
  | ⟨0, _⟩ => show p.val = 0 + p.val; omega
  | ⟨1, _⟩ => rfl

/-- The classification half is columns 0 … 79. -/
theorem slice0_apply (z : Vec Ideal S1000x160 .f32) (p : Fin 1000) (q : Fin 80) :
    extractStridedSlice S1000x80 ![0, 0] z slices_S1000x160_o0_0_S1000x80 (ix2 p q) = z (ix2 p (⟨q.val, by omega⟩ : Fin 160)) := by
  refine extractStridedSlice_apply _ _ _ _ _ fun a => ?_
  match a with
  | ⟨0, _⟩ => show p.val = 0 + p.val; omega
  | ⟨1, _⟩ => show q.val = 0 + q.val; omega

/-- The stashed detection logits are the detection half itself. -/
theorem pay5_apply : k0_pay5 (F := Ideal) x0 x1 x2 = k0_pay3 (F := Ideal) x0 x1 x2 := by
  unfold k0_pay5
  exact shapeCast_self _ _

/-- The format's pattern for minus infinity is the bottom of the extended reals. -/
theorem ofBits_neg_inf_f32 : FloatOps.ofBits (F := Ideal) .f32 0xFF800000#32 = (⊥ : EReal) := by
  show Ideal.ofBits .f32 0xFF800000#32 = ⊥
  simp [Ideal.ofBits, Ideal.ieee]

/-- A maximum over the rows of a 1000 × 80 block, kept as a 1 × 80 row: the fold of `max` from bottom over the rows. -/
theorem colMax_apply (z : Vec Ideal S1000x80 .f32) (q : Fin 80) :
    shapeCast S1x80 (multiReduction (F := Ideal) .maximumf [0] S80 z 0xFF800000#32 reduces_S1000x80_S80 (.inl rfl) rfl) shapeCasts_S80_S1x80 (ix2 (0 : Fin 1) q)
      = (Finset.univ : Finset (Fin 1000)).fold max ⊥ (fun p => z (ix2 p q)) := by
  refine (shapeCast_a_1a_apply _ _ (0 : Fin 1) q).trans ?_
  refine (Ideal.multiReduction_maximumf_single z _ reduces_S1000x80_S80 _ _ (ix1 q)).trans ?_
  rw [ofBits_neg_inf_f32]
  show (Finset.univ : Finset (Fin 1000)).fold max ⊥ (fun p => z (reduces_S1000x80_S80.lift (ix1 q) p)) = _
  refine congrArg (fun f => (Finset.univ : Finset (Fin 1000)).fold max ⊥ f) (funext fun p => ?_)
  exact congrArg z (funext fun a => match a with | ⟨0, _⟩ => Fin.ext rfl | ⟨1, _⟩ => Fin.ext rfl)

/-- A sum over the rows of a 1000 × 80 block, kept as a 1 × 80 row. -/
theorem colSum_apply (z : Vec Ideal S1000x80 .f32) (q : Fin 80) :
    shapeCast S1x80 (multiReduction (F := Ideal) .add [0] S80 z 0x00000000#32 reduces_S1000x80_S80 (.inl rfl) rfl) shapeCasts_S80_S1x80 (ix2 (0 : Fin 1) q)
      = ∑ p : Fin 1000, z (ix2 p q) := by
  refine (shapeCast_a_1a_apply _ _ (0 : Fin 1) q).trans ?_
  refine (Ideal.multiReduction_add_single z _ reduces_S1000x80_S80 _ _ (ix1 q)).trans ?_
  show ∑ p : Fin 1000, z (reduces_S1000x80_S80.lift (ix1 q) p) = _
  refine Finset.sum_congr rfl fun p _ => ?_
  exact congrArg z (funext fun a => match a with | ⟨0, _⟩ => Fin.ext rfl | ⟨1, _⟩ => Fin.ext rfl)

/-- The block's column maximum of the detection logits. -/
theorem pay6_apply (q : Fin 80) :
    k0_pay6 (F := Ideal) x0 x1 x2 (ix2 (0 : Fin 1) q)
      = (Finset.univ : Finset (Fin 1000)).fold max ⊥ (fun p => k0_pay3 (F := Ideal) x0 x1 x2 (ix2 p q)) := by
  unfold k0_pay6
  exact colMax_apply _ q

/-- The first block stores the block's column maximum as the running maximum. -/
theorem pay7_apply : k0_pay7 (F := Ideal) x0 x1 x2 = k0_pay6 (F := Ideal) x0 x1 x2 := by
  unfold k0_pay7
  exact shapeCast_self _ _

/-- The first block's column sum of exponentials, shifted by the block's column maximum. -/
theorem pay8_apply (q : Fin 80) :
    k0_pay8 (F := Ideal) x0 x1 x2 (ix2 (0 : Fin 1) q)
      = ∑ p : Fin 1000, Ideal.exp (k0_pay3 (F := Ideal) x0 x1 x2 (ix2 p q) - k0_pay6 (F := Ideal) x0 x1 x2 (ix2 (0 : Fin 1) q)) := by
  unfold k0_pay8
  refine (congrFun (shapeCast_self _ _) _).trans ?_
  refine (colSum_apply _ q).trans ?_
  refine Finset.sum_congr rfl fun p _ => ?_
  show Ideal.exp (k0_pay3 (F := Ideal) x0 x1 x2 (ix2 p q) - broadcastTo S1000x80 (k0_pay6 (F := Ideal) x0 x1 x2) _ (ix2 p q)) = _
  rw [broadcastTo_1b_ab_apply]

/-- A later block's running maximum: the larger of the old one and the block's column maximum. -/
theorem pay10_apply (v38 : Vec Ideal S1x80 .f32) (q : Fin 80) :
    k0_pay10 (F := Ideal) x0 x1 x2 v38 (ix2 (0 : Fin 1) q)
      = max (v38 (ix2 (0 : Fin 1) q)) (k0_pay6 (F := Ideal) x0 x1 x2 (ix2 (0 : Fin 1) q)) := by
  unfold k0_pay10
  refine (congrFun (shapeCast_self _ _) _).trans ?_
  rfl

/-- A later block's running sum: the old sum rescaled to the new maximum plus the block's shifted exponentials. -/
theorem pay11_apply (v38 v43 : Vec Ideal S1x80 .f32) (q : Fin 80) :
    k0_pay11 (F := Ideal) x0 x1 x2 v38 v43 (ix2 (0 : Fin 1) q)
      = v43 (ix2 (0 : Fin 1) q) * Ideal.exp (v38 (ix2 (0 : Fin 1) q) - k0_pay10 (F := Ideal) x0 x1 x2 v38 (ix2 (0 : Fin 1) q))
        + ∑ p : Fin 1000, Ideal.exp (k0_pay3 (F := Ideal) x0 x1 x2 (ix2 p q) - k0_pay10 (F := Ideal) x0 x1 x2 v38 (ix2 (0 : Fin 1) q)) := by
  have h10 : k0_pay10 (F := Ideal) x0 x1 x2 v38 = k0_pay9 (F := Ideal) x0 x1 x2 v38 := by
    unfold k0_pay10
    exact shapeCast_self _ _
  rw [h10]
  unfold k0_pay11
  refine (congrFun (shapeCast_self _ _) _).trans ?_
  show v43 (ix2 (0 : Fin 1) q) * Ideal.exp (v38 (ix2 (0 : Fin 1) q) - k0_pay9 (F := Ideal) x0 x1 x2 v38 (ix2 (0 : Fin 1) q))
      + shapeCast S1x80 (multiReduction (F := Ideal) .add [0] S80 _ 0x00000000#32 reduces_S1000x80_S80 (.inl rfl) rfl) shapeCasts_S80_S1x80 (ix2 (0 : Fin 1) q) = _
  refine congrArg (fun t : EReal => v43 (ix2 (0 : Fin 1) q) * Ideal.exp (v38 (ix2 (0 : Fin 1) q) - k0_pay9 (F := Ideal) x0 x1 x2 v38 (ix2 (0 : Fin 1) q)) + t) ?_
  refine (colSum_apply _ q).trans ?_
  refine Finset.sum_congr rfl fun p _ => ?_
  show Ideal.exp (k0_pay3 (F := Ideal) x0 x1 x2 (ix2 p q) - broadcastTo S1000x80 (k0_pay9 (F := Ideal) x0 x1 x2 v38) _ (ix2 p q)) = _
  rw [broadcastTo_1b_ab_apply]

/-- The product's left operand index keeps the output row on its first axis … -/
theorem dot_lhs_0 (i : S1000x160.Idx) (k : dot_S1000x4096_S4096x160_S1000x160_1_0_0_1_n_n.contr.Idx) :
    (dot_S1000x4096_S4096x160_S1000x160_1_0_0_1_n_n.lhsIdx i k 0).val = (i 0).val := by
  unfold DotDims.lhsIdx
  rw [dif_neg (show ¬(0 : Fin S1000x4096.rank) ∈ dot_S1000x4096_S4096x160_S1000x160_1_0_0_1_n_n.lhsBatch by decide), dif_pos (show (0 : Fin S1000x4096.rank) ∈ dot_S1000x4096_S4096x160_S1000x160_1_0_0_1_n_n.lhsNonContracting by decide)]
  rfl
/-- … and the contraction coordinate on its second; -/
theorem dot_lhs_1 (i : S1000x160.Idx) (k : dot_S1000x4096_S4096x160_S1000x160_1_0_0_1_n_n.contr.Idx) :
    (dot_S1000x4096_S4096x160_S1000x160_1_0_0_1_n_n.lhsIdx i k 1).val = (k ⟨0, by decide⟩).val :=
  dot_S1000x4096_S4096x160_S1000x160_1_0_0_1_n_n.lhsIdx_val_of_single rfl i k
/-- the right operand index has the contraction coordinate on its first axis … -/
theorem dot_rhs_0 (i : S1000x160.Idx) (k : dot_S1000x4096_S4096x160_S1000x160_1_0_0_1_n_n.contr.Idx) :
    (dot_S1000x4096_S4096x160_S1000x160_1_0_0_1_n_n.rhsIdx i k 0).val = (k ⟨0, by decide⟩).val :=
  dot_S1000x4096_S4096x160_S1000x160_1_0_0_1_n_n.rhsIdx_val_of_single rfl i k
/-- … and the output column on its second. -/
theorem dot_rhs_1 (i : S1000x160.Idx) (k : dot_S1000x4096_S4096x160_S1000x160_1_0_0_1_n_n.contr.Idx) :
    (dot_S1000x4096_S4096x160_S1000x160_1_0_0_1_n_n.rhsIdx i k 1).val = (i 1).val := by
  unfold DotDims.rhsIdx
  rw [dif_neg (show ¬(1 : Fin S4096x160.rank) ∈ dot_S1000x4096_S4096x160_S1000x160_1_0_0_1_n_n.rhsBatch by decide), dif_pos (show (1 : Fin S4096x160.rank) ∈ dot_S1000x4096_S4096x160_S1000x160_1_0_0_1_n_n.rhsNonContracting by decide)]
  rfl

/-- The fused logits: the row of the block against the column of the concatenated heads, plus the bias. -/
theorem pay2_apply (p : Fin 1000) (q' : Fin 160) :
    k0_pay2 (F := Ideal) x0 x1 x2 (ix2 p q')
      = (∑ j : Fin 4096, x0 (ix2 p j) * x1 (ix2 j q')) + x2 (ix2 (0 : Fin 1) q') := by
  unfold k0_pay2
  show (FloatOps.matmul (F := Ideal) (φ₁ := .f32) (φ₂ := .bf16) dot_S1000x4096_S4096x160_S1000x160_1_0_0_1_n_n none x0 (shapeCast S4096x160 x1 shapeCasts_S4096x160_S4096x160) (constant (F := Ideal) S1000x160 .f32 0x00000000#32) (ix2 p q') : EReal)
      + (broadcastTo S1000x160 (shapeCast S1x160 x2 shapeCasts_S1x160_S1x160) broadcasts_S1x160_S1000x160 (ix2 p q') : EReal) = _
  rw [shapeCast_self, shapeCast_self, broadcastTo_1b_ab_apply, Ideal.matmul_constant_zero_apply,
    ← Equiv.sum_comp (contrEquiv1 dot_S1000x4096_S4096x160_S1000x160_1_0_0_1_n_n 4096 rfl rfl).symm]
  refine congrArg (fun t : EReal => t + x2 (ix2 (0 : Fin 1) q')) (Finset.sum_congr rfl fun k _ => ?_)
  have hk := contrEquiv1_symm_val dot_S1000x4096_S4096x160_S1000x160_1_0_0_1_n_n 4096 rfl rfl k
  have el : dot_S1000x4096_S4096x160_S1000x160_1_0_0_1_n_n.lhsIdx (ix2 p q') ((contrEquiv1 dot_S1000x4096_S4096x160_S1000x160_1_0_0_1_n_n 4096 rfl rfl).symm k) = ix2 p k :=
    funext fun a => Fin.ext (by
      match a with
      | ⟨0, _⟩ => exact dot_lhs_0 _ _
      | ⟨1, _⟩ => exact (dot_lhs_1 _ _).trans hk)
  have er : dot_S1000x4096_S4096x160_S1000x160_1_0_0_1_n_n.rhsIdx (ix2 p q') ((contrEquiv1 dot_S1000x4096_S4096x160_S1000x160_1_0_0_1_n_n 4096 rfl rfl).symm k) = ix2 k q' :=
    funext fun a => Fin.ext (by
      match a with
      | ⟨0, _⟩ => exact (dot_rhs_0 _ _).trans hk
      | ⟨1, _⟩ => exact dot_rhs_1 _ _)
  rw [el, er]

/-- A per-row value kept as a column and spread over the 80 columns. -/
abbrev keepCol (w : FVec Ideal S1000 .f32) : FVec Ideal S1000x80 .f32 :=
  broadcastTo S1000x80 (shapeCast S1000x1 w shapeCasts_S1000_S1000x1) broadcasts_S1000x1_S1000x80

/-- It reads the row's value at every column. -/
theorem keepCol_apply (w : FVec Ideal S1000 .f32) (p : Fin 1000) (q : Fin 80) : keepCol w (ix2 p q) = w (ix1 p) := by
  refine (broadcastTo_apply _ broadcasts_S1000x1_S1000x80 (ix2 p q) (ix2 p (0 : Fin 1)) fun a => ?_).trans ?_
  · match a with
    | ⟨0, _⟩ => show p.val = if (1000 : Nat) = 1 then 0 else p.val; rw [if_neg (by decide)]
    | ⟨1, _⟩ => show 0 = if (1 : Nat) = 1 then 0 else q.val; rw [if_pos rfl]
  · refine shapeCast_apply w shapeCasts_S1000_S1000x1 (ix2 p (0 : Fin 1)) (ix1 p) ?_
    rw [Shape.rowMajor_val_one, Shape.rowMajor_val_two]
    show p.val = p.val * 1 + 0
    omega

/-- A maximum over the columns of a 1000 × 80 block: the fold of `max` from bottom over the row. -/
theorem rowMax_apply (z : Vec Ideal S1000x80 .f32) (p : Fin 1000) :
    multiReduction (F := Ideal) .maximumf [1] S1000 z 0xFF800000#32 reduces_S1000x80_S1000 (.inl rfl) rfl (ix1 p)
      = (Finset.univ : Finset (Fin 80)).fold max ⊥ (fun q => z (ix2 p q)) := by
  refine (Ideal.multiReduction_maximumf_single z _ reduces_S1000x80_S1000 _ _ (ix1 p)).trans ?_
  rw [ofBits_neg_inf_f32]
  show (Finset.univ : Finset (Fin 80)).fold max ⊥ (fun q => z (reduces_S1000x80_S1000.lift (ix1 p) q)) = _
  refine congrArg (fun f => (Finset.univ : Finset (Fin 80)).fold max ⊥ f) (funext fun q => ?_)
  exact congrArg z (funext fun a => match a with | ⟨0, _⟩ => Fin.ext rfl | ⟨1, _⟩ => Fin.ext rfl)

/-- A sum over the columns of a 1000 × 80 block. -/
theorem rowSum_apply (z : Vec Ideal S1000x80 .f32) (p : Fin 1000) :
    multiReduction (F := Ideal) .add [1] S1000 z 0x00000000#32 reduces_S1000x80_S1000 (.inl rfl) rfl (ix1 p)
      = ∑ q : Fin 80, z (ix2 p q) := by
  refine (Ideal.multiReduction_add_single z _ reduces_S1000x80_S1000 _ _ (ix1 p)).trans ?_
  show ∑ q : Fin 80, z (reduces_S1000x80_S1000.lift (ix1 p) q) = _
  refine Finset.sum_congr rfl fun q _ => ?_
  exact congrArg z (funext fun a => match a with | ⟨0, _⟩ => Fin.ext rfl | ⟨1, _⟩ => Fin.ext rfl)

/-- The row maximum of a block, per row. -/
abbrev rowMaxVec (z : Vec Ideal S1000x80 .f32) : FVec Ideal S1000 .f32 :=
  multiReduction (F := Ideal) .maximumf [1] S1000 z 0xFF800000#32 reduces_S1000x80_S1000 (.inl rfl) rfl

/-- The shifted exponentials of a block. -/
abbrev rowExp (z : Vec Ideal S1000x80 .f32) : FVec Ideal S1000x80 .f32 := exp (subf z (keepCol (rowMaxVec z)))

theorem rowExp_apply (z : Vec Ideal S1000x80 .f32) (p : Fin 1000) (q : Fin 80) :
    rowExp z (ix2 p q) = Ideal.exp (z (ix2 p q) - (Finset.univ : Finset (Fin 80)).fold max ⊥ (fun q'' => z (ix2 p q''))) := by
  show Ideal.exp (z (ix2 p q) - keepCol (rowMaxVec z) (ix2 p q)) = _
  rw [keepCol_apply]
  exact congrArg (fun t : EReal => Ideal.exp (z (ix2 p q) - t)) (rowMax_apply z p)

/-- The shifted exponentials over their row sums. -/
abbrev rowSm (z : Vec Ideal S1000x80 .f32) : FVec Ideal S1000x80 .f32 :=
  divf (rowExp z) (keepCol (multiReduction (F := Ideal) .add [1] S1000 (rowExp z) 0x00000000#32 reduces_S1000x80_S1000 (.inl rfl) rfl))

/-- The per-row softmax as the kernel computes it, at one element. -/
theorem rowSoftmax_apply (z : Vec Ideal S1000x80 .f32) (p : Fin 1000) (q : Fin 80) :
    rowSm z (ix2 p q)
      = Ideal.div (Ideal.exp (z (ix2 p q) - (Finset.univ : Finset (Fin 80)).fold max ⊥ (fun q'' => z (ix2 p q''))))
          (∑ q' : Fin 80, Ideal.exp (z (ix2 p q') - (Finset.univ : Finset (Fin 80)).fold max ⊥ (fun q'' => z (ix2 p q'')))) := by
  show Ideal.div (rowExp z (ix2 p q)) (keepCol (multiReduction (F := Ideal) .add [1] S1000 (rowExp z) 0x00000000#32 reduces_S1000x80_S1000 (.inl rfl) rfl) (ix2 p q)) = _
  rw [keepCol_apply, rowSum_apply, rowExp_apply]
  refine congrArg (Ideal.div _) (Finset.sum_congr rfl fun q' _ => rowExp_apply z p q')

/-- The same, with the block's row named by what it is known to be. -/
theorem rowSoftmax_apply_of (z : Vec Ideal S1000x80 .f32) (p : Fin 1000) (q : Fin 80) (g : Fin 80 → EReal)
    (hg : ∀ q' : Fin 80, z (ix2 p q') = g q') :
    rowSm z (ix2 p q)
      = Ideal.div (Ideal.exp (g q - (Finset.univ : Finset (Fin 80)).fold max ⊥ g))
          (∑ q' : Fin 80, Ideal.exp (g q' - (Finset.univ : Finset (Fin 80)).fold max ⊥ g)) := by
  have hf : (fun q'' : Fin 80 => z (ix2 p q'')) = g := funext hg
  rw [rowSoftmax_apply, hf]
  simp only [hg]

/-- The classification stream's store: the softmax over the 80 classes of the row's classification logits. -/
theorem pay4_apply (p : Fin 1000) (q : Fin 80) :
    k0_pay4 (F := Ideal) x0 x1 x2 (ix2 p q)
      = Ideal.div
          (Ideal.exp (k0_pay2 (F := Ideal) x0 x1 x2 (ix2 p (⟨q.val, by omega⟩ : Fin 160))
            - (Finset.univ : Finset (Fin 80)).fold max ⊥ (fun q'' : Fin 80 => k0_pay2 (F := Ideal) x0 x1 x2 (ix2 p (⟨q''.val, by omega⟩ : Fin 160)))))
          (∑ q' : Fin 80, Ideal.exp (k0_pay2 (F := Ideal) x0 x1 x2 (ix2 p (⟨q'.val, by omega⟩ : Fin 160))
            - (Finset.univ : Finset (Fin 80)).fold max ⊥ (fun q'' : Fin 80 => k0_pay2 (F := Ideal) x0 x1 x2 (ix2 p (⟨q''.val, by omega⟩ : Fin 160))))) := by
  have h : k0_pay4 (F := Ideal) x0 x1 x2
      = rowSm (extractStridedSlice S1000x80 ![0, 0] (k0_pay2 (F := Ideal) x0 x1 x2) slices_S1000x160_o0_0_S1000x80) := rfl
  refine (congrFun h (ix2 p q)).trans ?_
  exact rowSoftmax_apply_of _ p q (fun q'' : Fin 80 => k0_pay2 (F := Ideal) x0 x1 x2 (ix2 p (⟨q''.val, by omega⟩ : Fin 160)))
    (fun q' => slice0_apply _ p q')

end Cert.Wsddn.Pay

end
-- ==== Proof.IdealInputs.lean ====
/-
  The kernel's input blocks, read at an index over the extended reals.

  Before the kernel runs, the two weight matrices are set side by side along the class axis (4096 × 80 and
  4096 × 80 give 4096 × 160; the change of format that follows is the identity on extended reals), and the two
  bias vectors are set end to end (80 and 80 give 160) and read as one row of 160. The kernel then sees the
  proposals in five blocks of a thousand consecutive rows, and the joined weights and the joined bias whole at
  every step. Proved here, for every step `t`:
  * `xblk_apply` — entry `(p, j)` of the proposals' block is entry `(1000 t + p, j)` of the proposals;
  * `wblk_apply` — entry `(j, q)` of the weights' block is entry `(j, q)` of the first matrix for `q < 80` and
    entry `(j, q − 80)` of the second otherwise;
  * `bblk_apply` — entry `(0, q)` of the bias block is entry `q` of the first vector for `q < 80` and entry
    `q − 80` of the second otherwise.
  A block's coordinate on an axis is the block's index times the block's extent plus the coordinate inside the block.
-/
import proofs.«125353_g55722905698378_cont_9to1_m_658_15_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal

set_option maxRecDepth 16384

noncomputable section

namespace Cert.Wsddn.Inputs

open Idealize.ShloMosaic Idealize.ShloMosaic.TcCoe Idealize.SL.Sem
open Cert.KernelIdeal Cert.KernelIdeal.Gen
open Idealize.ShloMosaic.ValueIdx

variable (m : (ℓ : Loc nD τ sig) → Buf (Elt Ideal) ℓ) (c : Dev nD) (t : Fin cfg0.N)

/-- The grid has five steps. -/
theorem t_lt (t : Fin cfg0.N) : t.val < 5 := lt_of_lt_of_eq t.isLt N_0

/-! ### The arrays the kernel finds -/

/-- The joined weights: the two matrices side by side along the class axis. -/
theorem V_weights :
    (V m c main_call0_v1 : S4096x160.Idx → EReal)
      = concatenate S4096x160 1
          [⟨S4096x80, (m ((c.tc : Thread nD τ).loc main_arg1) : S4096x80.Idx → EReal)⟩,
           ⟨S4096x80, (m ((c.tc : Thread nD τ).loc main_arg3) : S4096x80.Idx → EReal)⟩]
          concatenates_S4096x80_S4096x80_S4096x160_d1 := by
  dsimp only [V, hostOps0]
  after_results
  rfl

/-- The joined bias: the two vectors end to end, read as one row. -/
theorem V_bias :
    (V m c main_call0_v3 : S1x160.Idx → EReal)
      = shapeCast S1x160
          (concatenate S160 0
            [⟨S80, (m ((c.tc : Thread nD τ).loc main_arg2) : S80.Idx → EReal)⟩,
             ⟨S80, (m ((c.tc : Thread nD τ).loc main_arg4) : S80.Idx → EReal)⟩]
            concatenates_S80_S80_S160_d0)
          shapeCasts_S160_S1x160 := by
  dsimp only [V, hostOps0]
  after_results
  rfl

/-! ### The blocks at an index -/

/-- Entry `(p, j)` of the proposals' block at step `t` is entry `(1000 t + p, j)` of the proposals. -/
theorem xblk_apply (p : Fin 1000) (j : Fin 4096) :
    iblk m c 0 t (ix2 p j)
      = m ((c.tc : Thread nD τ).loc main_arg0)
          (ix2 (⟨1000 * t.val + p.val, by have := t_lt t; omega⟩ : Fin 5000) j) := by
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk
  rw [View.read_apply]
  show V m c main_arg0 _ = m (c.tc.loc main_arg0) _
  rw [V_main_arg0]
  congr 1
  funext a
  apply Fin.ext
  match a with
  | ⟨0, _⟩ => show win0_0.index t 0 * 1000 + 1 * p.val = 1000 * t.val + p.val; rw [hi.1]; omega
  | ⟨1, _⟩ => show win0_0.index t 1 * 4096 + 1 * j.val = j.val; rw [hi.2]; omega

/-- The weights' block at every step is the joined weights. -/
theorem wblk_eq (j : Fin 4096) (q : Fin 160) :
    iblk m c 1 t (ix2 j q) = (V m c main_call0_v1 : S4096x160.Idx → EReal) (ix2 j q) := by
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  unfold iblk
  rw [View.read_apply]
  show V m c main_call0_v1 _ = V m c main_call0_v1 _
  congr 1
  funext a
  apply Fin.ext
  match a with
  | ⟨0, _⟩ => show win0_1.index t 0 * 4096 + 1 * j.val = j.val; rw [hi.1]; omega
  | ⟨1, _⟩ => show win0_1.index t 1 * 160 + 1 * q.val = q.val; rw [hi.2]; omega

/-- Entry `(j, q)` of the weights' block: the first matrix for `q < 80`, the second at `q − 80` otherwise. -/
theorem wblk_apply (j : Fin 4096) (q : Fin 160) :
    iblk m c 1 t (ix2 j q)
      = if h : q.val < 80 then m ((c.tc : Thread nD τ).loc main_arg1) (ix2 j (⟨q.val, h⟩ : Fin 80))
        else m ((c.tc : Thread nD τ).loc main_arg3) (ix2 j (⟨q.val - 80, by omega⟩ : Fin 80)) := by
  rw [wblk_eq, V_weights]
  split_ifs with h
  · exact concatenate_pair_apply_left (s₁ := S4096x80) (s₂ := S4096x80) (1 : Fin 2) _ _ _ (ix2 j q) rfl (ix2 j (⟨q.val, h⟩ : Fin 80))
      (fun b => by match b with | ⟨0, _⟩ => rfl | ⟨1, _⟩ => rfl)
  · exact concatenate_pair_apply_right (s₁ := S4096x80) (s₂ := S4096x80) (1 : Fin 2) _ _ _ (ix2 j q) rfl rfl (ix2 j (⟨q.val - 80, by omega⟩ : Fin 80))
      (fun b hb => by match b with | ⟨0, _⟩ => rfl | ⟨1, _⟩ => exact absurd rfl hb)
      (by show (q.val - 80) + 80 = q.val; omega)

/-- The bias block at every step is the joined bias. -/
theorem bblk_eq (q : Fin 160) :
    iblk m c 2 t (ix2 (0 : Fin 1) q) = (V m c main_call0_v3 : S1x160.Idx → EReal) (ix2 (0 : Fin 1) q) := by
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  unfold iblk
  rw [View.read_apply]
  show V m c main_call0_v3 _ = V m c main_call0_v3 _
  congr 1
  funext a
  apply Fin.ext
  match a with
  | ⟨0, _⟩ => show win0_2.index t 0 * 1 + 1 * 0 = 0; rw [hi.1]
  | ⟨1, _⟩ => show win0_2.index t 1 * 160 + 1 * q.val = q.val; rw [hi.2]; omega

/-- Entry `(0, q)` of the bias block: the first vector for `q < 80`, the second at `q − 80` otherwise. -/
theorem bblk_apply (q : Fin 160) :
    iblk m c 2 t (ix2 (0 : Fin 1) q)
      = if h : q.val < 80 then m ((c.tc : Thread nD τ).loc main_arg2) (ix1 (⟨q.val, h⟩ : Fin 80))
        else m ((c.tc : Thread nD τ).loc main_arg4) (ix1 (⟨q.val - 80, by omega⟩ : Fin 80)) := by
  rw [bblk_eq, V_bias]
  rw [shapeCast_apply _ _ (ix2 (0 : Fin 1) q) (ix1 q)
    (by rw [Shape.rowMajor_val_one, Shape.rowMajor_val_two]; show q.val = 0 * 160 + q.val; omega)]
  split_ifs with h
  · exact concatenate_pair_apply_left (s₁ := S80) (s₂ := S80) (0 : Fin 1) _ _ _ (ix1 q) rfl (ix1 (⟨q.val, h⟩ : Fin 80))
      (fun b => by match b with | ⟨0, _⟩ => rfl)
  · exact concatenate_pair_apply_right (s₁ := S80) (s₂ := S80) (0 : Fin 1) _ _ _ (ix1 q) rfl rfl (ix1 (⟨q.val - 80, by omega⟩ : Fin 80))
      (fun b hb => by match b with | ⟨0, _⟩ => exact absurd rfl hb)
      (by show (q.val - 80) + 80 = q.val; omega)

end Cert.Wsddn.Inputs

end
-- ==== Proof.LibOnlineSoftmax.lean ====
/-
  The algebra of a running maximum and a running sum of shifted exponentials, over the extended reals.

  A column of finite values arrives in consecutive blocks `a 0, a 1, …`, each a family over a finite nonempty
  index type. The running maximum after block `n` is the larger of the previous running maximum and the
  maximum of block `n`. The running sum is rescaled when the maximum moves: the old sum is multiplied by
  `exp (old maximum − new maximum)` and the new block's exponentials, shifted by the new maximum, are added.

  Proved here, for every `n`:
  * `runMax_eq`   — the running maximum is the maximum over all entries of the blocks `0 … n`;
  * `runMax_real` — it is a real number when every entry is;
  * `runSum_eq`   — the running sum is the sum over all entries of the blocks `0 … n` of the exponential of
    the entry shifted by the running maximum, by `exp (u − m) · exp (m − m') = exp (u − m')` on the reals;
  * `fold_blocks`, `sum_blocks` — a maximum, or a sum, over five blocks of a thousand consecutive rows is
    the maximum, or the sum, over the five thousand rows.
  A maximum over a finite index set is the fold of `max` from the bottom element.
-/
import Mathlib
import Idealize.ShloMosaic.PureOps.Ideal
import Idealize.ShloMosaic.PureOps.Ideal.Laws

noncomputable section

namespace Cert.Wsddn.Online

open Idealize.ShloMosaic

/-! ### Folds of `max` and sums of coerced reals -/

/-- The fold of `max` from the bottom element is the finite supremum. -/
theorem fold_max_eq_sup {κ : Type*} (s : Finset κ) (f : κ → EReal) :
    s.fold max ⊥ f = s.sup f := rfl

/-- A fold of `max` is below a bound exactly when every entry is. -/
theorem fold_max_le_iff {κ : Type*} (s : Finset κ) (f : κ → EReal) (c : EReal) :
    s.fold max ⊥ f ≤ c ↔ ∀ i ∈ s, f i ≤ c := by
  rw [fold_max_eq_sup]; exact Finset.sup_le_iff

/-- The coercion of a finite sum of reals is the sum of the coercions. -/
theorem coe_sum {κ : Type*} (s : Finset κ) (f : κ → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ### The running maximum and the running sum -/

variable {ι : Type*} [Fintype ι]

/-- The maximum of one block. -/
def blkMax (f : ι → EReal) : EReal := (Finset.univ : Finset ι).fold max ⊥ f

/-- The running maximum after block `n`. -/
def runMax (a : ℕ → ι → EReal) : ℕ → EReal
  | 0 => blkMax (a 0)
  | n + 1 => max (runMax a n) (blkMax (a (n + 1)))

/-- The running sum after block `n`, rescaled to the running maximum after block `n`. -/
def runSum (a : ℕ → ι → EReal) : ℕ → EReal
  | 0 => ∑ p, Ideal.exp (a 0 p - runMax a 0)
  | n + 1 => runSum a n * Ideal.exp (runMax a n - runMax a (n + 1))
      + ∑ p, Ideal.exp (a (n + 1) p - runMax a (n + 1))

theorem blkMax_le_iff (f : ι → EReal) (c : EReal) : blkMax f ≤ c ↔ ∀ p, f p ≤ c := by
  unfold blkMax; rw [fold_max_le_iff]; simp

/-- The running maximum is below a bound exactly when every entry of the blocks `0 … n` is. -/
theorem runMax_le_iff (a : ℕ → ι → EReal) (c : EReal) :
    ∀ n, runMax a n ≤ c ↔ ∀ t, t ≤ n → ∀ p, a t p ≤ c
  | 0 => by
    rw [runMax, blkMax_le_iff]
    constructor
    · intro h t ht p
      obtain rfl : t = 0 := Nat.le_zero.mp ht
      exact h p
    · intro h p; exact h 0 le_rfl p
  | n + 1 => by
    rw [runMax, max_le_iff, runMax_le_iff a c n, blkMax_le_iff]
    constructor
    · rintro ⟨h1, h2⟩ t ht p
      rcases Nat.le_succ_iff.mp ht with h | h
      · exact h1 t h p
      · subst h; exact h2 p
    · intro h
      exact ⟨fun t ht p => h t (Nat.le_succ_of_le ht) p, fun p => h (n + 1) le_rfl p⟩

/-- (1) The running maximum is the maximum over all entries of the blocks `0 … n`. -/
theorem runMax_eq (a : ℕ → ι → EReal) (n : ℕ) :
    runMax a n
      = (Finset.univ : Finset (Fin (n + 1) × ι)).fold max ⊥ (fun tp => a tp.1.val tp.2) := by
  apply eq_of_forall_ge_iff
  intro c
  rw [runMax_le_iff, fold_max_le_iff]
  constructor
  · intro h tp _
    exact h tp.1.val (Nat.lt_succ_iff.mp tp.1.isLt) tp.2
  · intro h t ht p
    exact h (⟨t, Nat.lt_succ_of_le ht⟩, p) (Finset.mem_univ _)

/-- The maximum of a nonempty block of reals is a real. -/
theorem blkMax_real [Nonempty ι] (f : ι → EReal) (hf : ∀ p, ∃ r : ℝ, f p = (r : EReal)) :
    ∃ r : ℝ, blkMax f = (r : EReal) := by
  obtain ⟨i, _, hi⟩ := Finset.exists_mem_eq_sup (Finset.univ : Finset ι) Finset.univ_nonempty f
  obtain ⟨r, hr⟩ := hf i
  exact ⟨r, by unfold blkMax; rw [fold_max_eq_sup, hi, hr]⟩

/-- (2) The running maximum of real entries is a real. -/
theorem runMax_real [Nonempty ι] (a : ℕ → ι → EReal)
    (hfin : ∀ t p, ∃ r : ℝ, a t p = (r : EReal)) :
    ∀ n, ∃ r : ℝ, runMax a n = (r : EReal)
  | 0 => by rw [runMax]; exact blkMax_real (a 0) (hfin 0)
  | n + 1 => by
    obtain ⟨r1, h1⟩ := runMax_real a hfin n
    obtain ⟨r2, h2⟩ := blkMax_real (a (n + 1)) (hfin (n + 1))
    rw [runMax, h1, h2]
    rcases max_choice (r1 : EReal) (r2 : EReal) with h | h
    · exact ⟨r1, h⟩
    · exact ⟨r2, h⟩

/-- One step of the running sum on the reals: rescaling by `exp (m − m')` moves every shift from `m`
    to `m'`, and the new block joins the earlier ones. -/
theorem real_step (b : ℕ → ι → ℝ) (m m' : ℝ) (n : ℕ) :
    (∑ tp : Fin (n + 1) × ι, Real.exp (b tp.1.val tp.2 - m)) * Real.exp (m - m')
        + ∑ p, Real.exp (b (n + 1) p - m')
      = ∑ tp : Fin (n + 1 + 1) × ι, Real.exp (b tp.1.val tp.2 - m') := by
  rw [Fintype.sum_prod_type (f := fun tp : Fin (n + 1 + 1) × ι => Real.exp (b tp.1.val tp.2 - m')),
    Fin.sum_univ_castSucc, Finset.sum_mul, Fintype.sum_prod_type]
  congr 1
  apply Finset.sum_congr rfl
  intro t _
  apply Finset.sum_congr rfl
  intro p _
  rw [← Real.exp_add]
  congr 1
  simp only [Fin.coe_castSucc]
  ring

/-- The running sum as the coercion of a real sum. -/
theorem runSum_eq_coe (a : ℕ → ι → EReal) (b : ℕ → ι → ℝ) (m : ℕ → ℝ)
    (hb : ∀ t p, a t p = (b t p : EReal)) (hm : ∀ n, runMax a n = (m n : EReal)) :
    ∀ n, runSum a n = ((∑ tp : Fin (n + 1) × ι, Real.exp (b tp.1.val tp.2 - m n) : ℝ) : EReal)
  | 0 => by
    rw [runSum]
    simp_rw [hb, hm, ← EReal.coe_sub, Ideal.exp_coe]
    rw [← coe_sum, Fintype.sum_prod_type, Fin.sum_univ_one]
    rfl
  | n + 1 => by
    rw [runSum, runSum_eq_coe a b m hb hm n]
    simp_rw [hb, hm, ← EReal.coe_sub, Ideal.exp_coe]
    rw [← coe_sum, ← EReal.coe_mul, ← EReal.coe_add, real_step]

/-- (3) The running sum is the sum, over all entries of the blocks `0 … n`, of the exponential of the
    entry shifted by the running maximum. -/
theorem runSum_eq [Nonempty ι] (a : ℕ → ι → EReal)
    (hfin : ∀ t p, ∃ r : ℝ, a t p = (r : EReal)) (n : ℕ) :
    runSum a n = ∑ tp : Fin (n + 1) × ι, Ideal.exp (a tp.1.val tp.2 - runMax a n) := by
  choose b hb using hfin
  choose m hm using runMax_real a (fun t p => ⟨b t p, hb t p⟩)
  rw [runSum_eq_coe a b m hb hm n, coe_sum]
  apply Finset.sum_congr rfl
  intro tp _
  rw [hb, hm, ← EReal.coe_sub, Ideal.exp_coe]

/-! ### Five blocks of a thousand rows are five thousand rows -/

/-- Row `p` of block `t` is row `1000 t + p`; a row `r` is row `r mod 1000` of block `r / 1000`. -/
def blockEquiv : Fin 5 × Fin 1000 ≃ Fin 5000 where
  toFun tp := ⟨1000 * tp.1.val + tp.2.val, by omega⟩
  invFun r := (⟨r.val / 1000, by omega⟩, ⟨r.val % 1000, by omega⟩)
  left_inv := by
    rintro ⟨⟨t, ht⟩, ⟨p, hp⟩⟩
    apply Prod.ext <;> apply Fin.ext <;> simp only <;> omega
  right_inv := by
    rintro ⟨r, hr⟩
    apply Fin.ext; simp only; omega

/-- (4) The maximum over five blocks of a thousand rows is the maximum over the five thousand rows. -/
theorem fold_blocks (f : Fin 5000 → EReal) :
    (Finset.univ : Finset (Fin 5 × Fin 1000)).fold max ⊥
        (fun tp => f ⟨1000 * tp.1.val + tp.2.val, by omega⟩)
      = (Finset.univ : Finset (Fin 5000)).fold max ⊥ f := by
  rw [← Finset.map_univ_equiv blockEquiv, Finset.fold_map]
  rfl

/-- (4) The sum over five blocks of a thousand rows is the sum over the five thousand rows. -/
theorem sum_blocks (f : Fin 5000 → EReal) :
    ∑ tp : Fin 5 × Fin 1000, f ⟨1000 * tp.1.val + tp.2.val, by omega⟩ = ∑ r : Fin 5000, f r :=
  Equiv.sum_comp blockEquiv f

/-- The running maximum after the fifth block of a column cut into five blocks of a thousand rows is the
    maximum of the column. -/
theorem runMax_blocks (a : ℕ → Fin 1000 → EReal) (f : Fin 5000 → EReal)
    (ha : ∀ (t : Fin 5) (p : Fin 1000), a t.val p = f ⟨1000 * t.val + p.val, by omega⟩) :
    runMax a 4 = (Finset.univ : Finset (Fin 5000)).fold max ⊥ f := by
  rw [runMax_eq a 4, ← fold_blocks f]
  exact Finset.fold_congr (fun tp _ => ha tp.1 tp.2)

/-- The running sum after the fifth block of a column of reals cut into five blocks of a thousand rows is
    the sum over the column of the exponentials shifted by the maximum of the column. -/
theorem runSum_blocks (a : ℕ → Fin 1000 → EReal) (f : Fin 5000 → EReal)
    (ha : ∀ (t : Fin 5) (p : Fin 1000), a t.val p = f ⟨1000 * t.val + p.val, by omega⟩)
    (hfin : ∀ t p, ∃ r : ℝ, a t p = (r : EReal)) :
    runSum a 4
      = ∑ r : Fin 5000, Ideal.exp (f r - (Finset.univ : Finset (Fin 5000)).fold max ⊥ f) := by
  rw [runSum_eq a hfin 4, runMax_blocks a f ha,
    ← sum_blocks (fun r => Ideal.exp (f r - (Finset.univ : Finset (Fin 5000)).fold max ⊥ f))]
  exact Finset.sum_congr rfl (fun tp _ => by rw [ha tp.1 tp.2])

end Cert.Wsddn.Online

end
-- ==== Proof.Spec.lean ====
/-
  What the network head computes, as one function of its five argument arrays over the extended reals.
  For 5000 proposals with 4096 features and 80 classes: two linear heads give classification logits and
  detection logits; the classification logits are normalised by a softmax over the classes of each proposal, the
  detection logits by a softmax over the proposals of each class, and the score is the product of the two. Each
  softmax is taken in its shifted form: the maximum over the normalised axis is subtracted before exponentiating.
  A maximum over a finite index set is the fold of `max` from the bottom element.
-/
import Idealize.ShloMosaic.PureOps.Ideal
import Idealize.ShloMosaic.Lib.ValueIdx

noncomputable section

namespace Cert.Wsddn

open Idealize.ShloMosaic

/-- One linear head: the logit of proposal `r` for class `k`. -/
def logit (x : Fin 5000 → Fin 4096 → EReal) (W : Fin 4096 → Fin 80 → EReal) (b : Fin 80 → EReal)
    (r : Fin 5000) (k : Fin 80) : EReal :=
  (∑ j : Fin 4096, x r j * W j k) + b k

/-- The largest logit of proposal `r` over the classes. -/
def rowMax (z : Fin 5000 → Fin 80 → EReal) (r : Fin 5000) : EReal :=
  (Finset.univ : Finset (Fin 80)).fold max ⊥ (fun k => z r k)

/-- The largest logit of class `k` over the proposals. -/
def colMax (z : Fin 5000 → Fin 80 → EReal) (k : Fin 80) : EReal :=
  (Finset.univ : Finset (Fin 5000)).fold max ⊥ (fun r => z r k)

/-- Softmax over the classes of each proposal. -/
def rowSoftmax (z : Fin 5000 → Fin 80 → EReal) (r : Fin 5000) (k : Fin 80) : EReal :=
  Ideal.div (Ideal.exp (z r k - rowMax z r)) (∑ k' : Fin 80, Ideal.exp (z r k' - rowMax z r))

/-- Softmax over the proposals of each class. -/
def colSoftmax (z : Fin 5000 → Fin 80 → EReal) (r : Fin 5000) (k : Fin 80) : EReal :=
  Ideal.div (Ideal.exp (z r k - colMax z k)) (∑ r' : Fin 5000, Ideal.exp (z r' k - colMax z k))

/-- The score of proposal `r` for class `k`. -/
def score (x : Fin 5000 → Fin 4096 → EReal) (Wc : Fin 4096 → Fin 80 → EReal) (bc : Fin 80 → EReal)
    (Wd : Fin 4096 → Fin 80 → EReal) (bd : Fin 80 → EReal) (r : Fin 5000) (k : Fin 80) : EReal :=
  rowSoftmax (logit x Wc bc) r k * colSoftmax (logit x Wd bd) r k

/-- Row `p` of block `t` among the 5000 proposals, the blocks being of 1000 consecutive rows. -/
def blockRow (t : Fin 5) (p : Fin 1000) : Fin 5000 := ⟨1000 * t.val + p.val, by omega⟩

end Cert.Wsddn

end
-- ==== Proof.RefIsSpec.lean ====
/-
  The reference computation is the specification. The reference forms the two heads' logits, and normalises the
  first by a softmax over the classes of each proposal and the second by a softmax over the proposals of each class,
  each in shifted form; it takes each maximum from negative infinity and then once more against negative infinity
  (max ⊥ a = a), and each sum from zero (0 + s = s). Read index by index over the extended reals, stage by stage,
  its result is `Cert.Wsddn.score` of the five argument arrays read as functions of their coordinates.
  Also here: a precondition that every input is finite gives real entries, and a logit of real entries is real.
-/
import proofs.«125353_g55722905698378_cont_9to1_m_658_15_alg».proof.Proof.Spec
import proofs.«125353_g55722905698378_cont_9to1_m_658_15_alg».proof.Proof.Gen.ReferenceIdeal.Read
import proofs.«125353_g55722905698378_cont_9to1_m_658_15_alg».proof.Pre_finite_inputs
import Idealize.ShloMosaic.Lib.ValueIdx
import Idealize.ShloMosaic.Lib.ReduceAll
import Idealize.ShloMosaic.PureOps.Ideal.Laws

noncomputable section

namespace Cert.Wsddn.Ref

open Cert.ReferenceIdeal Cert.ReferenceIdeal.Gen Cert.ReferenceIdeal.Read Idealize.ShloMosaic

/-- The pattern of negative infinity denotes the bottom element of the extended reals. -/
theorem ofBits_neg_inf : Ideal.ofBits .f32 0xFF800000#32 = (⊥ : EReal) := by
  simp [Ideal.ofBits, Ideal.ieee]

/-- The arrays read as functions of their coordinates. -/
abbrev mat (x : FVec Ideal S5000x4096 .f32) : Fin 5000 → Fin 4096 → EReal := fun r j => x (ValueIdx.ix2 r j)
abbrev wgt (w : FVec Ideal S4096x80 .f32) : Fin 4096 → Fin 80 → EReal := fun j k => w (ValueIdx.ix2 j k)
abbrev bias (b : FVec Ideal S80 .f32) : Fin 80 → EReal := fun k => b (ValueIdx.ix1 k)

section Stages

variable (x : FVec Ideal S5000x4096 .f32) (wc : FVec Ideal S4096x80 .f32) (bc : FVec Ideal S80 .f32)

/-- The first head's logits. -/
theorem v3_eq (r : Fin 5000) (k : Fin 80) :
    val_main_v3 (F := Ideal) x wc bc (ValueIdx.ix2 r k) = logit (mat x) (wgt wc) (bias bc) r k := by
  rw [val_main_v3_apply, val_main_v0_apply, val_main_v2_apply, val_main_v1_apply, Ideal.addf_def]
  unfold logit
  refine congrArg₂ (· + ·) (Finset.sum_congr rfl fun j _ => congrArg₂ (· * ·) (congrArg x ?_) (congrArg wc ?_)) (congrArg bc ?_)
  · funext a; match a with | ⟨0, _⟩ => rfl | ⟨1, _⟩ => rfl
  · funext a; match a with | ⟨0, _⟩ => rfl | ⟨1, _⟩ => rfl
  · funext a; match a with | ⟨0, _⟩ => rfl

/-- The second head's logits: the same program text over the other weights. -/
theorem v7_eq (r : Fin 5000) (k : Fin 80) :
    val_main_v7 (F := Ideal) x wc bc (ValueIdx.ix2 r k) = logit (mat x) (wgt wc) (bias bc) r k := by
  rw [val_main_v7_apply, val_main_v4_apply, val_main_v6_apply, val_main_v5_apply, Ideal.addf_def]
  unfold logit
  refine congrArg₂ (· + ·) (Finset.sum_congr rfl fun j _ => congrArg₂ (· * ·) (congrArg x ?_) (congrArg wc ?_)) (congrArg bc ?_)
  · funext a; match a with | ⟨0, _⟩ => rfl | ⟨1, _⟩ => rfl
  · funext a; match a with | ⟨0, _⟩ => rfl | ⟨1, _⟩ => rfl
  · funext a; match a with | ⟨0, _⟩ => rfl

/-- The maximum of a row of the first head's logits, from negative infinity. -/
theorem v8_eq (r : Fin 5000) :
    val_main_v8 (F := Ideal) x wc bc (ValueIdx.ix1 r) = rowMax (logit (mat x) (wgt wc) (bias bc)) r := by
  unfold val_main_v8
  rw [Host.reduce_eq_fold_single FloatOps.maximumf _ _ reducesTo_S5000x80_S5000_d1 (by decide) h_S_ (ValueIdx.ix1 r)]
  unfold rowMax
  rw [val_main_cst_apply, Ideal.ofBits_def, ofBits_neg_inf]
  show (Finset.univ : Finset (Fin 80)).fold max ⊥ _ = (Finset.univ : Finset (Fin 80)).fold max ⊥ _
  refine Finset.fold_congr (fun k _ => ?_)
  rw [← v3_eq]
  refine congrArg (val_main_v3 (F := Ideal) x wc bc) ?_
  funext a; match a with | ⟨0, _⟩ => rfl | ⟨1, _⟩ => rfl

/-- The reference takes the maximum once more against negative infinity: nothing changes. -/
theorem v10_eq (r : Fin 5000) :
    val_main_v10 (F := Ideal) x wc bc (ValueIdx.ix1 r) = rowMax (logit (mat x) (wgt wc) (bias bc)) r := by
  rw [val_main_v10_apply, val_main_v9_apply, val_main_cst_0_apply, Ideal.maximumf_def, Ideal.ofBits_def, ofBits_neg_inf, v8_eq]
  exact max_eq_right bot_le

/-- The shifted exponentials of the first head. -/
theorem v14_eq (r : Fin 5000) (k : Fin 80) :
    val_main_v14 (F := Ideal) x wc bc (ValueIdx.ix2 r k)
      = Ideal.exp (logit (mat x) (wgt wc) (bias bc) r k - rowMax (logit (mat x) (wgt wc) (bias bc)) r) := by
  rw [val_main_v14_apply, val_main_v13_apply, val_main_v12_apply, val_main_v11_apply, Ideal.hostUnary_exp_def, Ideal.subf_def, v3_eq,
    show idx_main_v11 (idx_main_v12 (ValueIdx.ix2 r k)) = ValueIdx.ix1 r from funext fun a => by match a with | ⟨0, _⟩ => rfl,
    v10_eq]

/-- Their sum along a row, from zero. -/
theorem v15_eq (r : Fin 5000) :
    val_main_v15 (F := Ideal) x wc bc (ValueIdx.ix1 r)
      = ∑ k : Fin 80, Ideal.exp (logit (mat x) (wgt wc) (bias bc) r k - rowMax (logit (mat x) (wgt wc) (bias bc)) r) := by
  rw [val_main_v15_apply, val_main_cst_1_apply, Ideal.ofBits_def, Ideal.ofBits_zero_f32, zero_add]
  refine Finset.sum_congr rfl fun k _ => ?_
  rw [← v14_eq]
  refine congrArg (val_main_v14 (F := Ideal) x wc bc) ?_
  funext a; match a with | ⟨0, _⟩ => rfl | ⟨1, _⟩ => rfl

/-- The softmax over the classes. -/
theorem v18_eq (r : Fin 5000) (k : Fin 80) :
    val_main_v18 (F := Ideal) x wc bc (ValueIdx.ix2 r k) = rowSoftmax (logit (mat x) (wgt wc) (bias bc)) r k := by
  rw [val_main_v18_apply, val_main_v17_apply, val_main_v16_apply, Ideal.hostDivf_def, v14_eq,
    show idx_main_v16 (idx_main_v17 (ValueIdx.ix2 r k)) = ValueIdx.ix1 r from funext fun a => by match a with | ⟨0, _⟩ => rfl,
    v15_eq]
  rfl

/-- The maximum of a column of the second head's logits, from negative infinity. -/
theorem v19_eq (k : Fin 80) :
    val_main_v19 (F := Ideal) x wc bc (ValueIdx.ix1 k) = colMax (logit (mat x) (wgt wc) (bias bc)) k := by
  unfold val_main_v19
  rw [Host.reduce_eq_fold_single FloatOps.maximumf _ _ reducesTo_S5000x80_S80_d0 (by decide) h_S_ (ValueIdx.ix1 k)]
  unfold colMax
  rw [val_main_cst_2_apply, Ideal.ofBits_def, ofBits_neg_inf]
  show (Finset.univ : Finset (Fin 5000)).fold max ⊥ _ = (Finset.univ : Finset (Fin 5000)).fold max ⊥ _
  refine Finset.fold_congr (fun r _ => ?_)
  rw [← v7_eq]
  refine congrArg (val_main_v7 (F := Ideal) x wc bc) ?_
  funext a; match a with | ⟨0, _⟩ => rfl | ⟨1, _⟩ => rfl

theorem v21_eq (k : Fin 80) :
    val_main_v21 (F := Ideal) x wc bc (ValueIdx.ix1 k) = colMax (logit (mat x) (wgt wc) (bias bc)) k := by
  rw [val_main_v21_apply, val_main_v20_apply, val_main_cst_3_apply, Ideal.maximumf_def, Ideal.ofBits_def, ofBits_neg_inf, v19_eq]
  exact max_eq_right bot_le

/-- The shifted exponentials of the second head. -/
theorem v25_eq (r : Fin 5000) (k : Fin 80) :
    val_main_v25 (F := Ideal) x wc bc (ValueIdx.ix2 r k)
      = Ideal.exp (logit (mat x) (wgt wc) (bias bc) r k - colMax (logit (mat x) (wgt wc) (bias bc)) k) := by
  rw [val_main_v25_apply, val_main_v24_apply, val_main_v23_apply, val_main_v22_apply, Ideal.hostUnary_exp_def, Ideal.subf_def, v7_eq,
    show idx_main_v22 (idx_main_v23 (ValueIdx.ix2 r k)) = ValueIdx.ix1 k from funext fun a => by match a with | ⟨0, _⟩ => rfl,
    v21_eq]

/-- Their sum down a column, from zero. -/
theorem v26_eq (k : Fin 80) :
    val_main_v26 (F := Ideal) x wc bc (ValueIdx.ix1 k)
      = ∑ r : Fin 5000, Ideal.exp (logit (mat x) (wgt wc) (bias bc) r k - colMax (logit (mat x) (wgt wc) (bias bc)) k) := by
  rw [val_main_v26_apply, val_main_cst_4_apply, Ideal.ofBits_def, Ideal.ofBits_zero_f32, zero_add]
  refine Finset.sum_congr rfl fun r _ => ?_
  rw [← v25_eq]
  refine congrArg (val_main_v25 (F := Ideal) x wc bc) ?_
  funext a; match a with | ⟨0, _⟩ => rfl | ⟨1, _⟩ => rfl

/-- The softmax over the proposals. -/
theorem v29_eq (r : Fin 5000) (k : Fin 80) :
    val_main_v29 (F := Ideal) x wc bc (ValueIdx.ix2 r k) = colSoftmax (logit (mat x) (wgt wc) (bias bc)) r k := by
  rw [val_main_v29_apply, val_main_v28_apply, val_main_v27_apply, Ideal.hostDivf_def, v25_eq,
    show idx_main_v27 (idx_main_v28 (ValueIdx.ix2 r k)) = ValueIdx.ix1 k from funext fun a => by match a with | ⟨0, _⟩ => rfl,
    v26_eq]
  rfl

end Stages

/-- The reference program's result, as a function of its five argument arrays, is the score. -/
theorem ref_is_score (x : FVec Ideal S5000x4096 .f32) (wc : FVec Ideal S4096x80 .f32) (bc : FVec Ideal S80 .f32)
    (wd : FVec Ideal S4096x80 .f32) (bd : FVec Ideal S80 .f32) :
    val_main_v30 (F := Ideal) x wc bc wd bd
      = fun i => Cert.Wsddn.score (fun r j => x (ValueIdx.ix2 r j)) (fun j k => wc (ValueIdx.ix2 j k)) (fun k => bc (ValueIdx.ix1 k))
          (fun j k => wd (ValueIdx.ix2 j k)) (fun k => bd (ValueIdx.ix1 k)) (i 0) (i 1) := by
  funext i
  obtain ⟨r, k, rfl⟩ : ∃ r k, i = ValueIdx.ix2 r k := ⟨i 0, i 1, ValueIdx.eq_ix2 i⟩
  rw [val_main_v30_apply, Ideal.mulf_def, v18_eq, v29_eq]
  rfl

/-! ## Finite inputs are real -/

/-- The pattern of positive infinity denotes the top element of the extended reals. -/
theorem ofBits_pos_inf : Ideal.ofBits .f32 0x7F800000#32 = (⊤ : EReal) := by
  simp [Ideal.ofBits, Ideal.ieee]

/-- An extended real whose absolute value is below positive infinity is a real. -/
theorem real_of_abs_lt_top (a : EReal) (h : Ideal.cmp .olt (max a (-a)) (⊤ : EReal) = 1#1) : ∃ r : ℝ, a = r := by
  have hlt : max a (-a) < ⊤ := by
    by_contra hn
    simp [Ideal.cmp, hn] at h
  induction a using EReal.rec with
  | bot => simp at hlt
  | coe r => exact ⟨r, rfl⟩
  | top => simp at hlt

/-- The empty index is the only one. -/
instance subsingleton_scalar_idx : Subsingleton S_.Idx := ⟨fun a b => funext fun d => d.elim0⟩

/-- An array all of whose entries compare below positive infinity in absolute value has real entries. -/
theorem all_real {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = r := by
  have hi := Host.reduce_andi_all _ _ hr hu ValueIdx.ix0 e i
  rw [ValueIdx.cmpf_apply, broadcastInDim_apply _ hb _ i ValueIdx.ix0 (fun d => d.elim0)] at hi
  exact real_of_abs_lt_top (a i) (by rw [← ofBits_pos_inf]; exact hi)

/-- Under the precondition that every input is finite, every entry of the five arrays is a real. -/
theorem finite_of_pre [Cert.Pre_finite_inputs.Facts] {x : FVec Ideal S5000x4096 .f32} {wc : FVec Ideal S4096x80 .f32}
    {bc : FVec Ideal S80 .f32} {wd : FVec Ideal S4096x80 .f32} {bd : FVec Ideal S80 .f32}
    (h : Cert.Pre_finite_inputs.fn (F := Ideal) x wc bc wd bd = fun _ => 1#1) :
    (∀ i, ∃ r : ℝ, x i = r) ∧ (∀ i, ∃ r : ℝ, wc i = r) ∧ (∀ i, ∃ r : ℝ, bc i = r) ∧ (∀ i, ∃ r : ℝ, wd i = r)
      ∧ (∀ i, ∃ r : ℝ, bd i = r) := by
  have h0 := congrFun h ValueIdx.ix0
  dsimp only [Cert.Pre_finite_inputs.fn, Cert.Pre_finite_inputs.fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  exact ⟨all_real x _ _ _ e1, all_real wc _ _ _ e2, all_real bc _ _ _ e3, all_real wd _ _ _ e4, all_real bd _ _ _ e5⟩

/-! ## A logit of real entries is real -/

/-- A finite sum of reals, taken in the extended reals, is a real. -/
theorem sum_real {ι : Type} (s : Finset ι) (f : ι → EReal) (hf : ∀ j, ∃ r : ℝ, f j = r) : ∃ z : ℝ, ∑ j ∈ s, f j = z := by
  classical
  induction s using Finset.induction_on with
  | empty => exact ⟨0, by simp⟩
  | insert a s ha ih =>
    obtain ⟨z, hz⟩ := ih
    obtain ⟨r, hr⟩ := hf a
    exact ⟨r + z, by rw [Finset.sum_insert ha, hz, hr, EReal.coe_add]⟩

/-- With real features, weights and offsets, every logit is a real. -/
theorem logit_real (x : Fin 5000 → Fin 4096 → EReal) (W : Fin 4096 → Fin 80 → EReal) (b : Fin 80 → EReal)
    (hx : ∀ r j, ∃ a : ℝ, x r j = a) (hW : ∀ j k, ∃ a : ℝ, W j k = a) (hb : ∀ k, ∃ a : ℝ, b k = a) (r : Fin 5000) (k : Fin 80) :
    ∃ z : ℝ, Cert.Wsddn.logit x W b r k = z := by
  obtain ⟨s, hs⟩ := sum_real Finset.univ (fun j => x r j * W j k) (fun j => by
    obtain ⟨a, ha⟩ := hx r j
    obtain ⟨c, hc⟩ := hW j k
    exact ⟨a * c, by rw [ha, hc, EReal.coe_mul]⟩)
  obtain ⟨c, hc⟩ := hb k
  exact ⟨s + c, by unfold Cert.Wsddn.logit; rw [hs, hc, EReal.coe_add]⟩

end Cert.Wsddn.Ref

end
-- ==== Proof.IdealValue.lean ====
/-
  The value of the kernel's output array over the extended reals, as pure mathematics.
  Point t of the five handles rows [1000 t, 1000 t + 1000). Its block of the fused product has the classification
  logits of those rows in its left 80 columns and their detection logits in its right 80 columns; the block's class
  softmax is the specification's softmax over the classes at those rows. The stored pair after point n is the running
  maximum and the running sum of the online recursion over the blocks 0 … n of each column of detection logits, so
  after the fifth block it is the column's maximum and the column's sum of exponentials shifted by that maximum
  (the entries being reals). Each point replaces its own rows of the output by the block's class softmax, so after the
  five points every row holds it, whatever the array held at the start; the last point then multiplies by the
  exponential of the detection logit shifted by the column maximum over the column sum. The result is the score.
-/
import proofs.«125353_g55722905698378_cont_9to1_m_658_15_alg».proof.Proof.IdealObligation
import proofs.«125353_g55722905698378_cont_9to1_m_658_15_alg».proof.Proof.IdealPayloads
import proofs.«125353_g55722905698378_cont_9to1_m_658_15_alg».proof.Proof.IdealInputs
import proofs.«125353_g55722905698378_cont_9to1_m_658_15_alg».proof.Proof.LibOnlineSoftmax
import proofs.«125353_g55722905698378_cont_9to1_m_658_15_alg».proof.Proof.RefIsSpec
import proofs.«125353_g55722905698378_cont_9to1_m_658_15_alg».proof.Proof.Spec
import Idealize.ShloMosaic.Lib.ValueIdx
import Idealize.ShloMosaic.PureOps.Ideal.Laws

set_option maxRecDepth 16384

noncomputable section

namespace Cert.Wsddn.KV

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

/-- The five argument arrays read as functions of their coordinates. -/
abbrev X : Fin 5000 → Fin 4096 → EReal := fun r j => m ((c.tc : Thread nD τ).loc main_arg0) (ix2 r j)
abbrev Wc : Fin 4096 → Fin 80 → EReal := fun j k => m ((c.tc : Thread nD τ).loc main_arg1) (ix2 j k)
abbrev Bc : Fin 80 → EReal := fun k => m ((c.tc : Thread nD τ).loc main_arg2) (ix1 k)
abbrev Wd : Fin 4096 → Fin 80 → EReal := fun j k => m ((c.tc : Thread nD τ).loc main_arg3) (ix2 j k)
abbrev Bd : Fin 80 → EReal := fun k => m ((c.tc : Thread nD τ).loc main_arg4) (ix1 k)

/-- A point of the grid as a block number. -/
def blk (t : Fin cfg0.N) : Fin 5 := ⟨t.val, by have h5 : cfg0.N = 5 := N_0; have := t.isLt; omega⟩

/-! ## The blocks in the specification's terms -/

/-- The left 80 columns of the fused product are the classification logits of the block's rows. -/
theorem fused_left (t : Fin cfg0.N) (p : Fin 1000) (q : Fin 80) :
    k0_pay2 (F := Ideal) (bX m c t) (bW m c t) (bB m c t) (ix2 p (⟨q.val, by omega⟩ : Fin 160))
      = logit (X m c) (Wc m c) (Bc m c) (blockRow (blk t) p) q := by
  rw [Pay.pay2_apply]
  unfold logit
  refine congrArg₂ (· + ·) (Finset.sum_congr rfl fun j _ => congrArg₂ (· * ·) ?_ ?_) ?_
  · exact Inputs.xblk_apply m c t p j
  · refine (Inputs.wblk_apply m c t j _).trans ?_
    rw [dif_pos (show (⟨q.val, by omega⟩ : Fin 160).val < 80 from q.isLt)]
  · refine (Inputs.bblk_apply m c t _).trans ?_
    rw [dif_pos (show (⟨q.val, by omega⟩ : Fin 160).val < 80 from q.isLt)]

/-- The right 80 columns are the detection logits of the block's rows. -/
theorem fused_right (t : Fin cfg0.N) (p : Fin 1000) (q : Fin 80) :
    k0_pay2 (F := Ideal) (bX m c t) (bW m c t) (bB m c t) (ix2 p (⟨80 + q.val, by omega⟩ : Fin 160))
      = logit (X m c) (Wd m c) (Bd m c) (blockRow (blk t) p) q := by
  rw [Pay.pay2_apply]
  unfold logit
  have hq : ¬ (⟨80 + q.val, by omega⟩ : Fin 160).val < 80 := by show ¬ 80 + q.val < 80; omega
  have hq' : (⟨(⟨80 + q.val, by omega⟩ : Fin 160).val - 80, by show 80 + q.val - 80 < 80; omega⟩ : Fin 80) = q :=
    Fin.ext (by show 80 + q.val - 80 = q.val; omega)
  refine congrArg₂ (· + ·) (Finset.sum_congr rfl fun j _ => congrArg₂ (· * ·) ?_ ?_) ?_
  · exact Inputs.xblk_apply m c t p j
  · refine (Inputs.wblk_apply m c t j _).trans ?_
    rw [dif_neg hq, hq']
  · refine (Inputs.bblk_apply m c t _).trans ?_
    rw [dif_neg hq, hq']

/-- The detection half of the fused product, at a row of the block. -/
theorem pay3_blk (t : Fin cfg0.N) (p : Fin 1000) (k : Fin 80) :
    k0_pay3 (F := Ideal) (bX m c t) (bW m c t) (bB m c t) (ix2 p k) = logit (X m c) (Wd m c) (Bd m c) (blockRow (blk t) p) k := by
  rw [Pay.pay3_apply, fused_right]

/-- The block's stashed detection logits. -/
theorem lBlk_apply (t : Fin cfg0.N) (p : Fin 1000) (k : Fin 80) :
    lBlk m c t (ix2 p k) = logit (X m c) (Wd m c) (Bd m c) (blockRow (blk t) p) k := by
  unfold lBlk
  rw [Pay.pay5_apply, pay3_blk]

/-- The block's class softmax. -/
theorem cBlk_apply (t : Fin cfg0.N) (p : Fin 1000) (k : Fin 80) :
    cBlk m c t (ix2 p k) = rowSoftmax (logit (X m c) (Wc m c) (Bc m c)) (blockRow (blk t) p) k := by
  unfold cBlk
  rw [Pay.pay4_apply]
  unfold rowSoftmax rowMax
  have hz : ∀ q : Fin 80, k0_pay2 (F := Ideal) (bX m c t) (bW m c t) (bB m c t) (ix2 p (⟨q.val, by omega⟩ : Fin 160))
      = logit (X m c) (Wc m c) (Bc m c) (blockRow (blk t) p) q := fun q => fused_left m c t p q
  simp only [hz]

/-- The stashed detection logits of all rows. -/
theorem lAll_apply (r : Fin 5000) (k : Fin 80) :
    lAll m c (ix2 r k) = logit (X m c) (Wd m c) (Bd m c) r k := by
  unfold lAll
  rw [lBlk_apply]
  refine congrArg (fun r' => logit (X m c) (Wd m c) (Bd m c) r' k) (Fin.ext ?_)
  show 1000 * (r.val / 1000) + r.val % 1000 = r.val
  omega

/-! ## The running pair is the online recursion -/

/-- Column `k` of the detection logits, cut into blocks of a thousand rows (zero past the fifth block). -/
def colBlocks (k : Fin 80) : ℕ → Fin 1000 → EReal := fun t p =>
  if h : t < 5 then logit (X m c) (Wd m c) (Bd m c) (blockRow ⟨t, h⟩ p) k else 0

theorem colBlocks_blk (k : Fin 80) (t : Fin cfg0.N) (p : Fin 1000) :
    colBlocks m c k t.val p = logit (X m c) (Wd m c) (Bd m c) (blockRow (blk t) p) k := by
  unfold colBlocks
  rw [dif_pos (show t.val < 5 from (blk t).isLt)]
  rfl

/-- The detection half of the fused product is the column's block. -/
theorem pay3_col (t : Fin cfg0.N) (p : Fin 1000) (k : Fin 80) :
    k0_pay3 (F := Ideal) (bX m c t) (bW m c t) (bB m c t) (ix2 p k) = colBlocks m c k t.val p := by
  rw [pay3_blk, colBlocks_blk]

/-- The block's column maximum. -/
theorem pay6_blk (t : Fin cfg0.N) (k : Fin 80) :
    k0_pay6 (F := Ideal) (bX m c t) (bW m c t) (bB m c t) (ix2 (0 : Fin 1) k) = Online.blkMax (colBlocks m c k t.val) := by
  rw [Pay.pay6_apply]
  unfold Online.blkMax
  refine Finset.fold_congr (fun p _ => ?_)
  rw [pay3_col]

/-- After point `n` the stored pair is the running maximum and the running sum of the column's blocks `0 … n`. -/
theorem runMS_eq (k : Fin 80) : ∀ (n : ℕ) (h : n < cfg0.N),
    (runMS m c n h).1 (ix2 (0 : Fin 1) k) = Online.runMax (colBlocks m c k) n
      ∧ (runMS m c n h).2 (ix2 (0 : Fin 1) k) = Online.runSum (colBlocks m c k) n
  | 0, h => by
    have e1 : (runMS m c 0 h).1 = k0_pay7 (F := Ideal) (bX m c ⟨0, h⟩) (bW m c ⟨0, h⟩) (bB m c ⟨0, h⟩) := runM_first m c ⟨0, h⟩ rfl
    have e2 : (runMS m c 0 h).2 = k0_pay8 (F := Ideal) (bX m c ⟨0, h⟩) (bW m c ⟨0, h⟩) (bB m c ⟨0, h⟩) := runS_first m c ⟨0, h⟩ rfl
    have h6 : k0_pay6 (F := Ideal) (bX m c ⟨0, h⟩) (bW m c ⟨0, h⟩) (bB m c ⟨0, h⟩) (ix2 (0 : Fin 1) k) = Online.runMax (colBlocks m c k) 0 :=
      pay6_blk m c ⟨0, h⟩ k
    refine ⟨?_, ?_⟩
    · rw [e1, Pay.pay7_apply, h6]
    · rw [e2, Pay.pay8_apply, h6]
      exact Finset.sum_congr rfl fun p _ => congrArg (fun z => Ideal.exp (z - _)) (pay3_col m c ⟨0, h⟩ p k)
  | n + 1, h => by
    obtain ⟨ihM, ihS⟩ := runMS_eq k n (Nat.lt_of_succ_lt h)
    have e1 : (runMS m c (n + 1) h).1
        = k0_pay10 (F := Ideal) (bX m c ⟨n + 1, h⟩) (bW m c ⟨n + 1, h⟩) (bB m c ⟨n + 1, h⟩) (runMS m c n (Nat.lt_of_succ_lt h)).1 :=
      runM_later m c ⟨n + 1, h⟩ (Nat.succ_ne_zero n)
    have e2 : (runMS m c (n + 1) h).2
        = k0_pay11 (F := Ideal) (bX m c ⟨n + 1, h⟩) (bW m c ⟨n + 1, h⟩) (bB m c ⟨n + 1, h⟩) (runMS m c n (Nat.lt_of_succ_lt h)).1
            (runMS m c n (Nat.lt_of_succ_lt h)).2 :=
      runS_later m c ⟨n + 1, h⟩ (Nat.succ_ne_zero n)
    have h10 : k0_pay10 (F := Ideal) (bX m c ⟨n + 1, h⟩) (bW m c ⟨n + 1, h⟩) (bB m c ⟨n + 1, h⟩) (runMS m c n (Nat.lt_of_succ_lt h)).1 (ix2 (0 : Fin 1) k)
        = Online.runMax (colBlocks m c k) (n + 1) := by
      rw [Pay.pay10_apply, ihM]
      exact congrArg (max _) (pay6_blk m c ⟨n + 1, h⟩ k)
    refine ⟨?_, ?_⟩
    · rw [e1, h10]
    · rw [e2, Pay.pay11_apply, h10, ihM, ihS]
      exact congrArg (_ + ·) (Finset.sum_congr rfl fun p _ => congrArg (fun z => Ideal.exp (z - _)) (pay3_col m c ⟨n + 1, h⟩ p k))

/-! ## After the fifth block the pair is the column maximum and the column sum -/

section Finite

variable (hx : ∀ i, ∃ r : ℝ, (m ((c.tc : Thread nD τ).loc main_arg0) i : EReal) = (r : EReal))
  (hwd : ∀ i, ∃ r : ℝ, (m ((c.tc : Thread nD τ).loc main_arg3) i : EReal) = (r : EReal))
  (hbd : ∀ i, ∃ r : ℝ, (m ((c.tc : Thread nD τ).loc main_arg4) i : EReal) = (r : EReal))

include hx hwd hbd in
/-- Real inputs give real detection logits, so every entry of the column's blocks is a real. -/
theorem colBlocks_real (k : Fin 80) (t : ℕ) (p : Fin 1000) : ∃ r : ℝ, colBlocks m c k t p = r := by
  unfold colBlocks
  by_cases h : t < 5
  · rw [dif_pos h]
    exact Ref.logit_real _ _ _ (fun r j => hx _) (fun j k => hwd _) (fun k => hbd _) _ _
  · rw [dif_neg h]
    exact ⟨0, EReal.coe_zero.symm⟩

/-- Row `p` of block `t` of the column is row `1000 t + p` of the column. -/
theorem colBlocks_rows (k : Fin 80) (t : Fin 5) (p : Fin 1000) :
    colBlocks m c k t.val p = (fun r : Fin 5000 => logit (X m c) (Wd m c) (Bd m c) r k) ⟨1000 * t.val + p.val, by omega⟩ := by
  unfold colBlocks
  rw [dif_pos t.isLt]
  rfl

/-- The running maximum after the last point is the maximum of the column. -/
theorem run_max (k : Fin 80) (h4 : 4 < cfg0.N) :
    (runMS m c 4 h4).1 (ix2 (0 : Fin 1) k) = colMax (logit (X m c) (Wd m c) (Bd m c)) k := by
  rw [(runMS_eq m c k 4 h4).1,
    Online.runMax_blocks (colBlocks m c k) (fun r : Fin 5000 => logit (X m c) (Wd m c) (Bd m c) r k) (colBlocks_rows m c k)]
  rfl

include hx hwd hbd in
/-- The running sum after the last point is the column's sum of exponentials shifted by the column's maximum. -/
theorem run_sum (k : Fin 80) (h4 : 4 < cfg0.N) :
    (runMS m c 4 h4).2 (ix2 (0 : Fin 1) k)
      = ∑ r : Fin 5000, Ideal.exp (logit (X m c) (Wd m c) (Bd m c) r k - colMax (logit (X m c) (Wd m c) (Bd m c)) k) := by
  rw [(runMS_eq m c k 4 h4).2,
    Online.runSum_blocks (colBlocks m c k) (fun r : Fin 5000 => logit (X m c) (Wd m c) (Bd m c) r k) (colBlocks_rows m c k)
      (colBlocks_real m c hx hwd hbd k)]
  rfl

end Finite

/-! ## The five stores of a block's rows cover the array -/

/-- The array holds the class softmax on its first `1000 n` rows. -/
def upTo (n : ℕ) (Y : Vec Ideal S5000x80 .f32) : Prop :=
  ∀ y : S5000x80.Idx, (y (0 : Fin 2)).val < 1000 * n → Y y = rowSoftmax (logit (X m c) (Wc m c) (Bc m c)) (y (0 : Fin 2)) (y (1 : Fin 2))

/-- Inside the rows of block `t`, the array with the block stored holds the class softmax. -/
theorem putRows_in (Y : Vec Ideal S5000x80 .f32) (t : Fin cfg0.N) (y : S5000x80.Idx)
    (h : 1000 * t.val ≤ (y (0 : Fin 2)).val ∧ (y (0 : Fin 2)).val < 1000 * t.val + 1000) :
    putRows Y (1000 * t.val) (cBlk m c t) y = rowSoftmax (logit (X m c) (Wc m c) (Bc m c)) (y (0 : Fin 2)) (y (1 : Fin 2)) := by
  unfold putRows
  rw [dif_pos h]
  have hp : (y (0 : Fin 2)).val - 1000 * t.val < 1000 := by omega
  have e : Rect.unitLocal (s := S5000x80) (off := ![1000 * t.val, 0]) (size := S1000x80.size) y (Rect.unit_rows_mem y rfl rfl h)
      = (ix2 (⟨(y (0 : Fin 2)).val - 1000 * t.val, hp⟩ : Fin 1000) (⟨(y (1 : Fin 2)).val, (y (1 : Fin 2)).isLt⟩ : Fin 80) : S1000x80.Idx) := by
    funext a
    match a with
    | ⟨0, _⟩ => exact Fin.ext rfl
    | ⟨1, _⟩ => exact Fin.ext (by show (y (1 : Fin 2)).val - 0 = (y (1 : Fin 2)).val; omega)
  refine (congrArg (cBlk m c t) e).trans ((cBlk_apply m c t _ _).trans ?_)
  refine congrArg₂ (rowSoftmax (logit (X m c) (Wc m c) (Bc m c))) (Fin.ext ?_) rfl
  show 1000 * t.val + ((y (0 : Fin 2)).val - 1000 * t.val) = (y (0 : Fin 2)).val
  omega

/-- Storing block `t`'s class softmax extends the rows that hold it by that block. -/
theorem upTo_put (t : Fin cfg0.N) (Y : Vec Ideal S5000x80 .f32) (h : upTo m c t.val Y) :
    upTo m c (t.val + 1) (putRows Y (1000 * t.val) (cBlk m c t)) := by
  intro y hy
  by_cases hr : 1000 * t.val ≤ (y (0 : Fin 2)).val ∧ (y (0 : Fin 2)).val < 1000 * t.val + 1000
  · exact putRows_in m c Y t y hr
  · unfold putRows
    rw [dif_neg hr]
    exact h y (by omega)

/-- A point before the last only stores its block. -/
theorem outStep_of_ne (t : Fin cfg0.N) (ht : t.val ≠ 4) (Y : Vec Ideal S5000x80 .f32) :
    outStep m c t Y = putRows Y (1000 * t.val) (cBlk m c t) := by
  unfold outStep
  rw [if_neg ht]

/-- The last point stores its block and then normalises the whole array. -/
theorem outStep_last (t : Fin cfg0.N) (ht : t.val = 4) (Y : Vec Ideal S5000x80 .f32) :
    outStep m c t Y
      = k0_pay1 (F := Ideal) (runMS m c t.val t.isLt).1 (runMS m c t.val t.isLt).2 (putRows Y (1000 * t.val) (cBlk m c t)) (lAll m c) := by
  unfold outStep
  rw [if_pos ht]

/-- One point before the last, on the invariant. -/
theorem upTo_step (t : Fin cfg0.N) (n : ℕ) (hn : t.val = n) (hne : n ≠ 4) (Y : Vec Ideal S5000x80 .f32) (h : upTo m c n Y) :
    upTo m c (n + 1) (outStep m c t Y) := by
  subst hn
  rw [outStep_of_ne m c t hne]
  exact upTo_put m c t Y h

/-! ## The value of the output array -/

/-- After the five points the output array holds the score, whatever it held at the start. -/
theorem final_value_steps
    (hx : ∀ i, ∃ r : ℝ, (m ((c.tc : Thread nD τ).loc main_arg0) i : EReal) = (r : EReal))
    (hwc : ∀ i, ∃ r : ℝ, (m ((c.tc : Thread nD τ).loc main_arg1) i : EReal) = (r : EReal))
    (hbc : ∀ i, ∃ r : ℝ, (m ((c.tc : Thread nD τ).loc main_arg2) i : EReal) = (r : EReal))
    (hwd : ∀ i, ∃ r : ℝ, (m ((c.tc : Thread nD τ).loc main_arg3) i : EReal) = (r : EReal))
    (hbd : ∀ i, ∃ r : ℝ, (m ((c.tc : Thread nD τ).loc main_arg4) i : EReal) = (r : EReal))
    (Y0 : Vec Ideal S5000x80 .f32) :
    outStep m c t0_4 (outStep m c t0_3 (outStep m c t0_2 (outStep m c t0_1 (outStep m c t0_0 Y0))))
      = fun y => Cert.Wsddn.score
          (fun r j => m ((c.tc : Thread nD τ).loc main_arg0) (ix2 r j))
          (fun j k => m ((c.tc : Thread nD τ).loc main_arg1) (ix2 j k))
          (fun k => m ((c.tc : Thread nD τ).loc main_arg2) (ix1 k))
          (fun j k => m ((c.tc : Thread nD τ).loc main_arg3) (ix2 j k))
          (fun k => m ((c.tc : Thread nD τ).loc main_arg4) (ix1 k)) (y 0) (y 1) := by
  have u0 : upTo m c 0 Y0 := fun y hy => absurd hy (by omega)
  have u1 := upTo_step m c t0_0 0 rfl (by decide) Y0 u0
  have u2 := upTo_step m c t0_1 1 rfl (by decide) _ u1
  have u3 := upTo_step m c t0_2 2 rfl (by decide) _ u2
  have u4 := upTo_step m c t0_3 3 rfl (by decide) _ u3
  have u5 := upTo_put m c t0_4 _ u4
  rw [outStep_last m c t0_4 rfl]
  funext y
  obtain ⟨r, k, rfl⟩ : ∃ r k, y = ix2 r k := ⟨y 0, y 1, eq_ix2 y⟩
  have hM : (runMS m c t0_4.val t0_4.isLt).1 (ix2 (0 : Fin 1) k) = colMax (logit (X m c) (Wd m c) (Bd m c)) k :=
    run_max m c k t0_4.isLt
  have hS : (runMS m c t0_4.val t0_4.isLt).2 (ix2 (0 : Fin 1) k)
      = ∑ r : Fin 5000, Ideal.exp (logit (X m c) (Wd m c) (Bd m c) r k - colMax (logit (X m c) (Wd m c) (Bd m c)) k) :=
    run_sum m c hx hwd hbd k t0_4.isLt
  rw [Pay.pay1_apply, u5 (ix2 r k) (by show r.val < 1000 * (4 + 1); omega), lAll_apply, hM, hS]
  rfl

/-- The same, over the composition of the five points' steps by its name. -/
theorem final_value
    (hx : ∀ i, ∃ r : ℝ, (m ((c.tc : Thread nD τ).loc main_arg0) i : EReal) = (r : EReal))
    (hwc : ∀ i, ∃ r : ℝ, (m ((c.tc : Thread nD τ).loc main_arg1) i : EReal) = (r : EReal))
    (hbc : ∀ i, ∃ r : ℝ, (m ((c.tc : Thread nD τ).loc main_arg2) i : EReal) = (r : EReal))
    (hwd : ∀ i, ∃ r : ℝ, (m ((c.tc : Thread nD τ).loc main_arg3) i : EReal) = (r : EReal))
    (hbd : ∀ i, ∃ r : ℝ, (m ((c.tc : Thread nD τ).loc main_arg4) i : EReal) = (r : EReal))
    (Y0 : Vec Ideal S5000x80 .f32) :
    chainOut m c Y0
      = fun y => Cert.Wsddn.score
          (fun r j => m ((c.tc : Thread nD τ).loc main_arg0) (ix2 r j))
          (fun j k => m ((c.tc : Thread nD τ).loc main_arg1) (ix2 j k))
          (fun k => m ((c.tc : Thread nD τ).loc main_arg2) (ix1 k))
          (fun j k => m ((c.tc : Thread nD τ).loc main_arg3) (ix2 j k))
          (fun k => m ((c.tc : Thread nD τ).loc main_arg4) (ix1 k)) (y 0) (y 1) := by
  unfold chainOut
  exact final_value_steps m c hx hwc hbc hwd hbd Y0

end Cert.Wsddn.KV

end
-- ==== Proof.lean ====
/-
  Two programs compute the scores of 5000 proposals for 80 classes from their features and two linear heads: the
  product of a softmax over classes of the classification logits and a softmax over proposals of the detection
  logits. The reference does so in one pass over whole arrays. The kernel walks five blocks of 1000 proposals: per
  block it computes both heads' logits by one matrix product against the two weight matrices side by side, stores
  the block's class softmax, stashes the block's detection logits, and keeps a running column maximum m and a running
  column sum s of exponentials relative to m, rescaling s by exp(m_old - m_new) whenever m grows; after the last
  block it multiplies every stored class softmax by exp(logit - m) / s.

  Over the extended reals, for finite inputs, the two agree: every logit is a real number; the running maximum after
  the last block is the maximum over all proposals; and because exp(u - m_old) * exp(m_old - m_new) = exp(u - m_new)
  on real numbers, the running sum after the last block is the sum over all proposals of exp(logit - m). So the
  kernel's final factor is the softmax over proposals.

  The frames of the two kernel programs come from one proof, made at any float instance: the body run in its three
  cases, and the region's proof data with the output's staging buffer described by a relation (it starts at unknown
  contents and each point overwrites only its own rows). The reference's frame and value are its generated run.
-/
import proofs.«125353_g55722905698378_cont_9to1_m_658_15_alg».proof.Defs
import proofs.«125353_g55722905698378_cont_9to1_m_658_15_alg».proof.Proof.Gen.Kernel
import proofs.«125353_g55722905698378_cont_9to1_m_658_15_alg».proof.Proof.Gen.KernelIdeal
import proofs.«125353_g55722905698378_cont_9to1_m_658_15_alg».proof.Proof.Gen.ReferenceIdeal
import proofs.«125353_g55722905698378_cont_9to1_m_658_15_alg».proof.Proof.Gen.Pre_finite_inputs
import proofs.«125353_g55722905698378_cont_9to1_m_658_15_alg».proof.Proof.Gen.ReferenceIdeal.Run
import proofs.«125353_g55722905698378_cont_9to1_m_658_15_alg».proof.Proof.Gen.ReferenceIdeal.Read
import proofs.«125353_g55722905698378_cont_9to1_m_658_15_alg».proof.Proof.BitsObligation
import proofs.«125353_g55722905698378_cont_9to1_m_658_15_alg».proof.Proof.IdealObligation
import proofs.«125353_g55722905698378_cont_9to1_m_658_15_alg».proof.Proof.IdealValue
import proofs.«125353_g55722905698378_cont_9to1_m_658_15_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end with the score array. -/
theorem algebraic : Cert.algebraic_KernelIdeal_ReferenceIdeal := by
  intro m ρ m' ρ' hpre hagree
  refine ⟨fun c => fun y => Cert.Wsddn.score
      (fun r j => m ((c.tc : Thread Cert.KernelIdeal.nD Cert.KernelIdeal.τ).loc Cert.KernelIdeal.main_arg0) (ValueIdx.ix2 r j))
      (fun j k => m ((c.tc : Thread Cert.KernelIdeal.nD Cert.KernelIdeal.τ).loc Cert.KernelIdeal.main_arg1) (ValueIdx.ix2 j k))
      (fun k => m ((c.tc : Thread Cert.KernelIdeal.nD Cert.KernelIdeal.τ).loc Cert.KernelIdeal.main_arg2) (ValueIdx.ix1 k))
      (fun j k => m ((c.tc : Thread Cert.KernelIdeal.nD Cert.KernelIdeal.τ).loc Cert.KernelIdeal.main_arg3) (ValueIdx.ix2 j k))
      (fun k => m ((c.tc : Thread Cert.KernelIdeal.nD Cert.KernelIdeal.τ).loc Cert.KernelIdeal.main_arg4) (ValueIdx.ix1 k))
      (y 0) (y 1), ?_, ?_⟩
  · refine (θ_run Cert.KernelIdeal.defs _ _).mono (fun r h c => ?_) (Cert.KernelIdeal.Hand.run_main m ρ)
    obtain ⟨hx, hwc, hbc, hwd, hbd⟩ := Cert.Wsddn.Ref.finite_of_pre (hpre c)
    obtain ⟨Y0, hG⟩ := Cert.KernelIdeal.Hand.final_array m c _ ((h c).1 3)
    exact ⟨hG.trans (Cert.Wsddn.KV.final_value m c hx hwc hbc hwd hbd Y0),
      (Eq.mp (congrFun ((Cert.KernelIdeal.Hand.rel m c).ArrAt_in 0 rfl _) _) ((h c).1 0)).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.Wsddn.Ref.ref_is_score,
      (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
